-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S2x600000 : Shape := ⟨2, ![2, 600000]⟩
abbrev S600000 : Shape := ⟨1, ![600000]⟩
abbrev S50x128 : Shape := ⟨2, ![50, 128]⟩
abbrev S128 : Shape := ⟨1, ![128]⟩
abbrev S6x128x128 : Shape := ⟨3, ![6, 128, 128]⟩
abbrev S128x121 : Shape := ⟨2, ![128, 121]⟩
abbrev S121 : Shape := ⟨1, ![121]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S600000 : S_.BroadcastsInDim S600000 (![] : Fin 0 → Fin S600000.rank)
  reducesTo_S600000_S_d0 : S600000.ReducesTo [0] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S128x121 : S_.BroadcastsInDim S128x121 (![] : Fin 0 → Fin S128x121.rank)
  reducesTo_S128x121_S_d0_1 : S128x121.ReducesTo [0, 1] S_
  bcast_S_S121 : S_.BroadcastsInDim S121 (![] : Fin 0 → Fin S121.rank)
  reducesTo_S121_S_d0 : S121.ReducesTo [0] S_

variable [Facts]

def fn_part1 {F : FTy → Type} [FloatOps F] (main_arg5 : FVec F S6x128x128 .f32) (main_arg6 : FVec F S128x121 .f32) (main_arg7 : FVec F S121 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S6x128x128 .f32 := Host.absf main_arg5
  let main_cst_6 : FVec F S_ .f32 := constant S_ .f32 0x7F800000#32
  let main_v20 : FVec F S6x128x128 .f32 := broadcastInDim S6x128x128 ![] bcast_S_S6x128x128 main_cst_6
  let main_v21 : IVec S6x128x128 1 := cmpf .olt main_v19 main_v20
  let main_c_7 : IVec S_ 1 := constantI S_ 1 1#1
  let main_v22 : IVec S_ 1 := (fun x v => Host.reduce IntOp.andi x v reducesTo_S6x128x128_S_d0_1_2 h_S_) main_v21 main_c_7
  let main_v23 : IVec S_ 1 := andi main_v18 main_v22
  let main_v24 : FVec F S128x121 .f32 := Host.absf main_arg6
  let main_cst_8 : FVec F S_ .f32 := constant S_ .f32 0x7F800000#32
  let main_v25 : FVec F S128x121 .f32 := broadcastInDim S128x121 ![] bcast_S_S128x121 main_cst_8
  let main_v26 : IVec S128x121 1 := cmpf .olt main_v24 main_v25
  let main_c_9 : IVec S_ 1 := constantI S_ 1 1#1
  let main_v27 : IVec S_ 1 := (fun x v => Host.reduce IntOp.andi x v reducesTo_S128x121_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  main_v33

def fn {F : FTy → Type} [FloatOps F] (main_arg0 : FVec F S50000x50 .f32) (main_arg1 : IVec S2x600000 32) (main_arg2 : FVec F S600000 .f32) (main_arg3 : FVec F S50x128 .f32) (main_arg4 : FVec F S128 .f32) (main_arg5 : FVec F S6x128x128 .f32) (main_arg6 : FVec F S128x121 .f32) (main_arg7 : FVec F S121 .f32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S50x128 .f32 := Host.absf main_arg3
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x50 : Shape := ⟨2, ![50000, 50]⟩
abbrev S2x600000 : Shape := ⟨2, ![2, 600000]⟩
abbrev S600000 : Shape := ⟨1, ![600000]⟩
abbrev S50x128 : Shape := ⟨2, ![50, 128]⟩
abbrev S128 : Shape := ⟨1, ![128]⟩
abbrev S6x128x128 : Shape := ⟨3, ![6, 128, 128]⟩
abbrev S128x121 : Shape := ⟨2, ![128, 121]⟩
abbrev S121 : Shape := ⟨1, ![121]⟩
abbrev S1x600000 : Shape := ⟨2, ![1, 600000]⟩
abbrev S1x128 : Shape := ⟨2, ![1, 128]⟩
abbrev S50000x128 : Shape := ⟨2, ![50000, 128]⟩
abbrev S5000x50 : Shape := ⟨2, ![5000, 50]⟩
abbrev S5000x128 : Shape := ⟨2, ![5000, 128]⟩
abbrev S600000x1 : Shape := ⟨2, ![600000, 1]⟩
abbrev S_ : Shape := ⟨0, ![]⟩
abbrev S600000x128 : Shape := ⟨2, ![600000, 128]⟩
abbrev S1x128x128 : Shape := ⟨3, ![1, 128, 128]⟩
abbrev S128x128 : Shape := ⟨2, ![128, 128]⟩
abbrev S1x121 : Shape := ⟨2, ![1, 121]⟩
abbrev S50000x121 : Shape := ⟨2, ![50000, 121]⟩
abbrev S5000x121 : Shape := ⟨2, ![5000, 121]⟩

abbrev nBuf : Space → Nat
  | .hbm => 130
  | .vmem => 66
  | .smem => 0
  | _ => 0

abbrev hbmTy0_0 (i : Nat) : BufTy := match i % 128 with
  | 0 => ⟨S50000x50, .f32⟩
  | 1 => ⟨S2x600000, .i32⟩
  | 2 => ⟨S600000, .f32⟩
  | 3 => ⟨S50x128, .f32⟩
  | 4 => ⟨S128, .f32⟩
  | 5 => ⟨S6x128x128, .f32⟩
  | 6 => ⟨S128x121, .f32⟩
  | 7 => ⟨S121, .f32⟩
  | 8 => ⟨S1x600000, .i32⟩
  | 9 => ⟨S600000, .i32⟩
  | 10 => ⟨S1x600000, .i32⟩
  | 11 => ⟨S600000, .i32⟩
  | 12 => ⟨S1x128, .f32⟩
  | 13 => ⟨S50000x128, .f32⟩
  | 14 => ⟨S600000x1, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S600000x128, .f32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S1x128x128, .f32⟩
  | 31 => ⟨S128x128, .f32⟩
  | 32 => ⟨S50000x128, .f32⟩
  | 33 => ⟨S600000x1, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x128, .f32⟩
  | 44 => ⟨S600000x128, .f32⟩
  | 45 => ⟨S_, .f32⟩
  | 46 => ⟨S50000x128, .f32⟩
  | 47 => ⟨S600000x1, .i32⟩
  | 48 => ⟨S50000x128, .f32⟩
  | 49 => ⟨S1x128x128, .f32⟩
  | 50 => ⟨S128x128, .f32⟩
  | 51 => ⟨S50000x128, .f32⟩
  | 52 => ⟨S600000x1, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S1x128x128, .f32⟩
  | 69 => ⟨S128x128, .f32⟩
  | 70 => ⟨S50000x128, .f32⟩
  | 71 => ⟨S600000x1, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S600000x128, .f32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S1x128x128, .f32⟩
  | 88 => ⟨S128x128, .f32⟩
  | 89 => ⟨S50000x128, .f32⟩
  | 90 => ⟨S600000x1, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S600000x128, .f32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S1x128x128, .f32⟩
  | 107 => ⟨S128x128, .f32⟩
  | 108 => ⟨S50000x128, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S600000x128, .f32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S1x128x128, .f32⟩
  | 126 => ⟨S128x128, .f32⟩
  | 127 => ⟨S50000x128, .f32⟩
  | _ => ⟨S50000x50, .f32⟩

abbrev hbmTy0_1 (i : Nat) : BufTy := match i % 128 with
  | 0 => ⟨S1x121, .f32⟩
  | 1 => ⟨S50000x121, .f32⟩
  | _ => ⟨S50000x50, .f32⟩

abbrev hbmTy (i : Nat) : BufTy := match i / 128 with
  | 0 => hbmTy0_0 i
  | 1 => hbmTy0_1 i
  | _ => ⟨S50000x50, .f32⟩

abbrev bufTy : (tb : Table) → Fin (tcTables nBuf tb) → BufTy
  | .hbm, ⟨i, _⟩ => hbmTy i
  | .local _ .vmem, ⟨0, _⟩ => ⟨S5000x50, .f32⟩
  | .local _ .vmem, ⟨1, _⟩ => ⟨S5000x50, .f32⟩
  | .local _ .vmem, ⟨2, _⟩ => ⟨S50x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S128x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x121, .f32⟩
  | .local _ .vmem, ⟨63, _⟩ => ⟨S1x121, .f32⟩
  | .local _ .vmem, ⟨64, _⟩ => ⟨S5000x121, .f32⟩
  | .local _ .vmem, ⟨65, _⟩ => ⟨S5000x121, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_7 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_10 : Ref sig .tc := ⟨.hbm, 91, rfl⟩
abbrev main_v71 : Ref sig .tc := ⟨.hbm, 92, rfl⟩
abbrev main_v72 : Ref sig .tc := ⟨.hbm, 93, rfl⟩
abbrev main_c_11 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_13 : Ref sig .tc := ⟨.hbm, 110, rfl⟩
abbrev main_v87 : Ref sig .tc := ⟨.hbm, 111, rfl⟩
abbrev main_v88 : Ref sig .tc := ⟨.hbm, 112, rfl⟩
abbrev main_c_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_15 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem4_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x121 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x121 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x121 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x50_S5000x50_0_0 : ∀ a, (![0, 0] : Fin 2 → Nat) a + S5000x50.size a ≤ S5000x50.size a
  h_S5000x50 : 0 < S5000x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S6x128x128_S1x128x128_0_0_0 : S6x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S6x128x128_S1x128x128_1_0_0 : S6x128x128.Slices ![1, 0, 0] S1x128x128
  slices_S6x128x128_S1x128x128_2_0_0 : S6x128x128.Slices ![2, 0, 0] S1x128x128
  slices_S6x128x128_S1x128x128_3_0_0 : S6x128x128.Slices ![3, 0, 0] S1x128x128
  slices_S6x128x128_S1x128x128_4_0_0 : S6x128x128.Slices ![4, 0, 0] S1x128x128
  slices_S6x128x128_S1x128x128_5_0_0 : S6x128x128.Slices ![5, 0, 0] S1x128x128
  shapeCasts_S121_S1x121 : S121.ShapeCasts S1x121
  inb_S128x121_S128x121_0_0 : ∀ a, (![0, 0] : Fin 2 → Nat) a + S128x121.size a ≤ S128x121.size a
  h_S128x121 : 0 < S128x121.numel
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S5000x121 : S1x121.Broadcasts S5000x121
  inb_S5000x121_S5000x121_0_0 : ∀ a, (![0, 0] : Fin 2 → Nat) a + S5000x121.size a ≤ S5000x121.size a
  h_S5000x121 : 0 < S5000x121.numel
  dot_S5000x50_S50x128_S5000x128_1_0_0_1_n_n_wf : DotDims.WF S5000x50 S50x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x121_S5000x121_1_0_0_1_n_n_wf : DotDims.WF S5000x128 S128x121 S5000x121 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S50000x50.size a
  hwx0_0 : ∀ i : grid0.Coords, EltTy.bits .f32 = 32 ∨ (Rect.block (s := S50000x50) S5000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x128.size a ≤ S50x128.size a
  hwx0_1 : ∀ i : grid0.Coords, EltTy.bits .f32 = 32 ∨ (Rect.block (s := S50x128) S50x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x121.size a ≤ S128x121.size a
  hwx7_1 : ∀ i : grid7.Coords, EltTy.bits .f32 = 32 ∨ (Rect.block (s := S128x121) S128x121.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x121.size a ≤ S1x121.size a
  hwx7_2 : ∀ i : grid7.Coords, EltTy.bits .f32 = 32 ∨ (Rect.block (s := S1x121) S1x121.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x121.size a ≤ S50000x121.size a
  hwx7_3 : ∀ i : grid7.Coords, EltTy.bits .f32 = 32 ∨ (Rect.block (s := S50000x121) S5000x121.size (cc7_transform_3 i) (hinb7_3 i)).WholeWords (EltTy.packing .f32)

variable [Facts₀]

def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x121_S5000x121_1_0_0_1_n_n : DotDims S5000x128 S128x121 S5000x121 where
  lhsContracting := [1]
  rhsContracting := [0]
  lhsNonContracting := [0]
  rhsNonContracting := [1]
  lhsBatch := []
  rhsBatch := []
  wf := dot_S5000x128_S128x121_S5000x121_1_0_0_1_n_n_wf

abbrev win0_0 : Pipeline.Window sig grid0 :=
  Pipeline.Window.ofSpec (Memref.whole main_arg0) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S50x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v52) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v82) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v98) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v101) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S128x121.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x121.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103) S5000x121.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x50 : Shape := ⟨2, ![50000, 50]⟩
abbrev S2x600000 : Shape := ⟨2, ![2, 600000]⟩
abbrev S600000 : Shape := ⟨1, ![600000]⟩
abbrev S50x128 : Shape := ⟨2, ![50, 128]⟩
abbrev S128 : Shape := ⟨1, ![128]⟩
abbrev S6x128x128 : Shape := ⟨3, ![6, 128, 128]⟩
abbrev S128x121 : Shape := ⟨2, ![128, 121]⟩
abbrev S121 : Shape := ⟨1, ![121]⟩
abbrev S1x600000 : Shape := ⟨2, ![1, 600000]⟩
abbrev S50000x128 : Shape := ⟨2, ![50000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S50000x121 : Shape := ⟨2, ![50000, 121]⟩
abbrev S1x121 : Shape := ⟨2, ![1, 121]⟩

abbrev nBuf : Space → Nat
  | .hbm => 245
  | .vmem => 0
  | .smem => 0
  | _ => 0

abbrev hbmTy0_0 (i : Nat) : BufTy := match i % 128 with
  | 0 => ⟨S50000x50, .f32⟩
  | 1 => ⟨S2x600000, .i32⟩
  | 2 => ⟨S600000, .f32⟩
  | 3 => ⟨S50x128, .f32⟩
  | 4 => ⟨S128, .f32⟩
  | 5 => ⟨S6x128x128, .f32⟩
  | 6 => ⟨S128x121, .f32⟩
  | 7 => ⟨S121, .f32⟩
  | 8 => ⟨S1x600000, .i32⟩
  | 9 => ⟨S600000, .i32⟩
  | 10 => ⟨S1x600000, .i32⟩
  | 11 => ⟨S600000, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S600000x1, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S600000x128, .f32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S_, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S600000x1, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128x128, .f32⟩
  | 120 => ⟨S128x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S_, .f32⟩
  | _ => ⟨S50000x50, .f32⟩

abbrev hbmTy0_1 (i : Nat) : BufTy := match i % 128 with
  | 0 => ⟨S50000x128, .f32⟩
  | 1 => ⟨S50000x128, .f32⟩
  | 2 => ⟨S600000x1, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S600000x128, .f32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128x128, .f32⟩
  | 29 => ⟨S128x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S600000x1, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x128, .f32⟩
  | 49 => ⟨S600000x128, .f32⟩
  | 50 => ⟨S600000x128, .f32⟩
  | 51 => ⟨S_, .f32⟩
  | 52 => ⟨S50000x128, .f32⟩
  | 53 => ⟨S600000x1, .i32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S600000x1, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x121, .f32⟩
  | 114 => ⟨S1x121, .f32⟩
  | 115 => ⟨S50000x121, .f32⟩
  | 116 => ⟨S50000x121, .f32⟩
  | _ => ⟨S50000x50, .f32⟩

abbrev hbmTy (i : Nat) : BufTy := match i / 128 with
  | 0 => hbmTy0_0 i
  | 1 => hbmTy0_1 i
  | _ => ⟨S50000x50, .f32⟩

abbrev bufTy : (tb : Table) → Fin (tcTables nBuf tb) → BufTy
  | .hbm, ⟨i, _⟩ => hbmTy i
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call3_cst : Ref sig .tc := ⟨.hbm, 127, rfl⟩
abbrev main_call3_v0 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_c_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_v107 : Ref sig .tc := ⟨.hbm, 148, rfl⟩
abbrev main_cst_23 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_25 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call4_cst : Ref sig .tc := ⟨.hbm, 164, rfl⟩
abbrev main_call4_v0 : Ref sig .tc := ⟨.hbm, 165, rfl⟩
abbrev main_v120 : Ref sig .tc := ⟨.hbm, 166, rfl⟩
abbrev main_v121 : Ref sig .tc := ⟨.hbm, 167, rfl⟩
abbrev main_c_26 : Ref sig .tc := ⟨.hbm, 168, rfl⟩
abbrev main_v122 : Ref sig .tc := ⟨.hbm, 169, rfl⟩
abbrev main_v123 : Ref sig .tc := ⟨.hbm, 170, rfl⟩
abbrev main_c_27 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_28 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_29 : Ref sig .tc := ⟨.hbm, 183, rfl⟩
abbrev main_v134 : Ref sig .tc := ⟨.hbm, 184, rfl⟩
abbrev main_v135 : Ref sig .tc := ⟨.hbm, 185, rfl⟩
abbrev main_cst_30 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_31 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_32 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_call5_cst : Ref sig .tc := ⟨.hbm, 201, rfl⟩
abbrev main_call5_v0 : Ref sig .tc := ⟨.hbm, 202, rfl⟩
abbrev main_v148 : Ref sig .tc := ⟨.hbm, 203, rfl⟩
abbrev main_v149 : Ref sig .tc := ⟨.hbm, 204, rfl⟩
abbrev main_c_33 : Ref sig .tc := ⟨.hbm, 205, rfl⟩
abbrev main_v150 : Ref sig .tc := ⟨.hbm, 206, rfl⟩
abbrev main_v151 : Ref sig .tc := ⟨.hbm, 207, rfl⟩
abbrev main_c_34 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_35 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_36 : Ref sig .tc := ⟨.hbm, 220, rfl⟩
abbrev main_v162 : Ref sig .tc := ⟨.hbm, 221, rfl⟩
abbrev main_v163 : Ref sig .tc := ⟨.hbm, 222, rfl⟩
abbrev main_cst_37 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_38 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_39 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_call6_cst : Ref sig .tc := ⟨.hbm, 238, rfl⟩
abbrev main_call6_v0 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  slices_S6x128x128_S1x128x128_0_0_0 : S6x128x128.Slices ![0, 0, 0] S1x128x128
  shapeCasts_S1x128x128_S128x128 : S1x128x128.ShapeCasts S128x128
  slices_S6x128x128_S1x128x128_1_0_0 : S6x128x128.Slices ![1, 0, 0] S1x128x128
  slices_S6x128x128_S1x128x128_2_0_0 : S6x128x128.Slices ![2, 0, 0] S1x128x128
  slices_S6x128x128_S1x128x128_3_0_0 : S6x128x128.Slices ![3, 0, 0] S1x128x128
  slices_S6x128x128_S1x128x128_4_0_0 : S6x128x128.Slices ![4, 0, 0] S1x128x128
  slices_S6x128x128_S1x128x128_5_0_0 : S6x128x128.Slices ![5, 0, 0] S1x128x128
  bcast_S121_S1x121_1 : S121.BroadcastsInDim S1x121 (![1] : Fin 1 → Fin S1x121.rank)
  bcast_S1x121_S50000x121_0_1 : S1x121.BroadcastsInDim S50000x121 (![0, 1] : Fin 2 → Fin S50000x121.rank)
  dot_S50000x50_S50x128_S50000x128_1_0_0_1_n_n_wf : DotDims.WF S50000x50 S50x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x121_S50000x121_1_0_0_1_n_n_wf : DotDims.WF S50000x128 S128x121 S50000x121 [1] [0] [0] [1] [] []

variable [Facts₀]

def dot_S50000x50_S50x128_S50000x128_1_0_0_1_n_n : DotDims S50000x50 S50x128 S50000x128 where
  lhsContracting := [1]
  rhsContracting := [0]
  lhsNonContracting := [0]
  rhsNonContracting := [1]
  lhsBatch := []
  rhsBatch := []
  wf := dot_S50000x50_S50x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x121_S50000x121_1_0_0_1_n_n : DotDims S50000x128 S128x121 S50000x121 where
  lhsContracting := [1]
  rhsContracting := [0]
  lhsNonContracting := [0]
  rhsNonContracting := [1]
  lhsBatch := []
  rhsBatch := []
  wf := dot_S50000x128_S128x121_S50000x121_1_0_0_1_n_n_wf

class Facts : Prop extends Facts₀ where

variable [Facts]
-- ==== Proof.Kernel.Reg0.lean ====
/-
  Region 0: the input projection, one block of 5000 rows at a time.

  At every grid point the body loads the point's block of the node features (5000 × 50), the whole weight matrix
  (50 × 128) and the bias row (1 × 128), and stores max(x·w + b, 0) over the whole output block (5000 × 128). This file
  states what the body leaves in each staging buffer as a function of the blocks it found, runs the body once against
  that statement, and packages the result as the pipeline's proof data with its body obligation, at any entry
  contents of the core's buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_S5000x50 : Rect S5000x50 := Rect.unit (s := S5000x50) ![0, 0] S5000x50.size inb_S5000x50_S5000x50_0_0
abbrev r0_S50x128 : Rect S50x128 := Rect.unit (s := S50x128) ![0, 0] S50x128.size inb_S50x128_S50x128_0_0
abbrev r0_S1x128 : Rect S1x128 := Rect.unit (s := S1x128) ![0, 0] S1x128.size inb_S1x128_S1x128_0_0
abbrev r0_S5000x128 : Rect S5000x128 := Rect.unit (s := S5000x128) ![0, 0] S5000x128.size inb_S5000x128_S5000x128_0_0

/-- The output block after the body, from the input blocks: its one store, over the whole block. -/
def out0_3 (x0 : Vec F S5000x50 .f32) (x1 : Vec F S50x128 .f32) (x2 : Vec F S1x128 .f32) : Vec F S5000x128 .f32 :=
  View.canon [⟨r0_S5000x128, k0_pay1 (View.ld x0 r0_S5000x50) (View.ld x1 r0_S50x128) (View.ld x2 r0_S1x128)⟩]

/-- The one store covers the block. -/
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 1000000 in
/-- The body on whole staging buffers, the inputs' at contents `x0 x1 x2` and the output's at anything, runs to the
    continuation with the inputs' unchanged and the output's at `out0_3` of them. -/
theorem sound_kernel0 (c : Dev nD) (E : Set ℕ) (i : grid0.Coords) (arg1 : Memref sig .tc .vmem S5000x50 .f32) (harg1 : arg1.IsWhole) (arg2 : Memref sig .tc .vmem S50x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x50 .f32) (x1 : Vec F S50x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Reg1.lean ====
/-
  Region 1: the combine step of layer 0, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
  In this layer the first layer's output IS the layer's input: two input windows read one array, and the core's
  whole share of that array is dealt to them as its two halves.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_S5000x128 : Rect S5000x128 := Rect.unit (s := S5000x128) ![0, 0] S5000x128.size inb_S5000x128_S5000x128_0_0
abbrev r1_S128x128 : Rect S128x128 := Rect.unit (s := S128x128) ![0, 0] S128x128.size inb_S128x128_S128x128_0_0

/-- The output block after the body, from the input blocks: its one store, over the whole block. -/
def out1_4 (x0 : Vec F S5000x128 .f32) (x1 : Vec F S5000x128 .f32) (x2 : Vec F S5000x128 .f32) (x3 : Vec F S128x128 .f32) : Vec F S5000x128 .f32 :=
  View.canon [⟨r1_S5000x128, k1_pay1 (View.ld x0 r1_S5000x128) (View.ld x1 r1_S5000x128) (View.ld x2 r1_S5000x128) (View.ld x3 r1_S128x128)⟩]

/-- The one store covers the block. -/
theorem cover1_4 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 1000000 in
/-- The body on whole staging buffers, the inputs' at contents `x0 x1 x2 x3` and the output's at anything, runs to the
    continuation with the inputs' unchanged and the output's at `out1_4` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer at its block and the output's at `out1_4` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.Kernel.Reg1Arrays.lean ====
/-
  Region 1's arrays among the core's unscoped buffers.

  Two of region 1's input windows read one array (in the first layer the layer's input is the first layer's output),
  so its five windows stand on four distinct buffers. The pipeline holds each window's array at a share of its own:
  the two windows on the common array hold the two halves of the full share, which are split off the whole buffer
  when the region is entered and joined again when it is left; every other window's array is held whole.
-/
import proofs.«112903_j84559316124075_1_alg».proof.Proof.Kernel.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind region 1's five windows, as a chain. -/
theorem arrBufs1_eq (c : Dev nD) (W : (b : Ref sig .tc) → Buf (Elt F) ((c : Thread nD τ).loc b)) :
    (Pipeline.arrBufs (cfgs (1 : Fin 8)).spec c W : sProp 𝕄) = iprop((((c : Thread nD τ).loc main_v18) ↦{fullShare} W main_v18) ∗ (((c : Thread nD τ).loc main_v5) ↦{fullShare} W main_v5)
      ∗ (((c : Thread nD τ).loc main_v20) ↦{fullShare} W main_v20) ∗ (((c : Thread nD τ).loc main_v21) ↦{fullShare} W main_v21)) :=
  bigSep_eq_bigSepL_of_eq [main_v18, main_v5, main_v20, main_v21] (by decide) (by decide) _

set_option maxHeartbeats 1000000 in
/-- ENTRY: the core's unscoped buffers at contents `V` are region 1's arrays at the proof data's entry contents — the
    array read by two windows dealt to them as the two halves of its full share — and the unscoped rest. -/
theorem split1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs (1 : Fin 8) winFacts₀1.arr_unscoped c (V c)]
  refine sep_mono ?_ .rfl
  rw [arrBufs1_eq]
  unfold Dat.arrays
  rw [bigSep_W1]
  have hs0 : (dat1 V c).share 0 = fullShare := rfl
  have hs1 : (dat1 V c).share 1 = fullShare.left := rfl
  have hs2 : (dat1 V c).share 2 = fullShare.right := rfl
  have hs3 : (dat1 V c).share 3 = fullShare := rfl
  have hs4 : (dat1 V c).share 4 = fullShare := rfl
  rw [hs0, hs1, hs2, hs3, hs4, (arr_whole1 0).set_eq_univ, (arr_whole1 1).set_eq_univ, (arr_whole1 3).set_eq_univ, (arr_whole1 4).set_eq_univ]
  beta_reduce
  iintro ⟨H18, H5, H20, H21⟩
  have hsp : (((c : Thread nD τ).loc main_v5) ↦{fullShare} V c main_v5 : sProp 𝕄)
      ⊢ iprop((((c : Thread nD τ).loc main_v5) ↦{fullShare.left} V c main_v5) ∗ (((c : Thread nD τ).loc main_v5) ↦{fullShare.right} V c main_v5)) :=
    (pointsTo_share (PosShare.mem_left_op_right fullShare)).1
  ihave H5' := hsp $$ H5
  icases H5' with ⟨H5l, H5r⟩
  isplitl [H18]; · iexact H18
  isplitl [H5l]; · iexact H5l
  isplitl [H5r]; · iexact H5r
  isplitl [H20]; · iexact H20
  iexact H21

set_option maxHeartbeats 1000000 in
/-- EXIT: region 1's arrays at their final contents — the two halves of the shared array rejoined — and the unscoped
    rest are the core's unscoped buffers at any contents that have the output array at what the pipeline leaves and
    agree with the entry contents elsewhere. -/
theorem join1 (c : Dev nD) (V' : (b : Ref sig .tc) → Buf (Elt F) ((c : Thread nD τ).loc b))
    (hout : V' main_v21 = (dat1 V c).arrAt 4 cfg1.N) (hrest : ∀ b, b ≠ main_v21 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs (1 : Fin 8) winFacts₀1.arr_unscoped c V']
  refine sep_mono ?_ (Entails.of_eq ?_)
  · rw [arrBufs1_eq]
    unfold Dat.arrays
    rw [bigSep_W1]
    have hs0 : (dat1 V c).share 0 = fullShare := rfl
    have hs1 : (dat1 V c).share 1 = fullShare.left := rfl
    have hs2 : (dat1 V c).share 2 = fullShare.right := rfl
    have hs3 : (dat1 V c).share 3 = fullShare := rfl
    have hs4 : (dat1 V c).share 4 = fullShare := rfl
    rw [hs0, hs1, hs2, hs3, hs4, (arr_whole1 0).set_eq_univ, (arr_whole1 1).set_eq_univ, (arr_whole1 3).set_eq_univ, (arr_whole1 4).set_eq_univ]
    rw [hrest main_v18 (by decide), hrest main_v5 (by decide), hrest main_v20 (by decide), hout]
    have e0 : (dat1 V c).arrAt 0 cfg1.N = V c main_v18 := ((dat1 V c).arrAt_in 0 rfl _).trans (A_eq1 V c 0)
    have e1 : (dat1 V c).arrAt 1 cfg1.N = V c main_v5 := ((dat1 V c).arrAt_in 1 rfl _).trans (A_eq1 V c 1)
    have e2 : (dat1 V c).arrAt 2 cfg1.N = V c main_v5 := ((dat1 V c).arrAt_in 2 rfl _).trans (A_eq1 V c 2)
    have e3 : (dat1 V c).arrAt 3 cfg1.N = V c main_v20 := ((dat1 V c).arrAt_in 3 rfl _).trans (A_eq1 V c 3)
    beta_reduce
    rw [e0, e1, e2, e3]
    have hjn : iprop((((c : Thread nD τ).loc main_v5) ↦{fullShare.left} V c main_v5) ∗ (((c : Thread nD τ).loc main_v5) ↦{fullShare.right} V c main_v5))
        ⊢ (((c : Thread nD τ).loc main_v5) ↦{fullShare} V c main_v5 : sProp 𝕄) :=
      (pointsTo_share (PosShare.mem_left_op_right fullShare)).2
    iintro ⟨H18, H5l, H5r, H20, H21⟩
    isplitl [H18]; · iexact H18
    isplitl [H5l H5r]
    · iapply hjn
      isplitl [H5l]; · iexact H5l
      iexact H5r
    isplitl [H20]; · iexact H20
    iexact H21
  · unfold Pipeline.unscopedRest
    exact bigSep_congr fun b hb => by
      rw [hrest b (fun e => (Finset.mem_sdiff.mp hb).2 (Finset.mem_image.mpr ⟨4, Finset.mem_univ _, e ▸ rfl⟩))]

end Cert.Kernel.Fr
end
-- ==== Proof.Kernel.Reg2.lean ====
/-
  Region 2: the combine step of layer 1, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_S5000x128 : Rect S5000x128 := Rect.unit (s := S5000x128) ![0, 0] S5000x128.size inb_S5000x128_S5000x128_0_0
abbrev r2_S128x128 : Rect S128x128 := Rect.unit (s := S128x128) ![0, 0] S128x128.size inb_S128x128_S128x128_0_0

/-- The output block after the body, from the input blocks: its one store, over the whole block. -/
def out2_4 (x0 : Vec F S5000x128 .f32) (x1 : Vec F S5000x128 .f32) (x2 : Vec F S5000x128 .f32) (x3 : Vec F S128x128 .f32) : Vec F S5000x128 .f32 :=
  View.canon [⟨r2_S5000x128, k2_pay1 (View.ld x0 r2_S5000x128) (View.ld x1 r2_S5000x128) (View.ld x2 r2_S5000x128) (View.ld x3 r2_S128x128)⟩]

/-- The one store covers the block. -/
theorem cover2_4 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 1000000 in
/-- The body on whole staging buffers, the inputs' at contents `x0 x1 x2 x3` and the output's at anything, runs to the
    continuation with the inputs' unchanged and the output's at `out2_4` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and the output's at `out2_4` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.Kernel.Reg3.lean ====
/-
  Region 3: the combine step of layer 2, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_S5000x128 : Rect S5000x128 := Rect.unit (s := S5000x128) ![0, 0] S5000x128.size inb_S5000x128_S5000x128_0_0
abbrev r3_S128x128 : Rect S128x128 := Rect.unit (s := S128x128) ![0, 0] S128x128.size inb_S128x128_S128x128_0_0

/-- The output block after the body, from the input blocks: its one store, over the whole block. -/
def out3_4 (x0 : Vec F S5000x128 .f32) (x1 : Vec F S5000x128 .f32) (x2 : Vec F S5000x128 .f32) (x3 : Vec F S128x128 .f32) : Vec F S5000x128 .f32 :=
  View.canon [⟨r3_S5000x128, k3_pay1 (View.ld x0 r3_S5000x128) (View.ld x1 r3_S5000x128) (View.ld x2 r3_S5000x128) (View.ld x3 r3_S128x128)⟩]

/-- The one store covers the block. -/
theorem cover3_4 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 1000000 in
/-- The body on whole staging buffers, the inputs' at contents `x0 x1 x2 x3` and the output's at anything, runs to the
    continuation with the inputs' unchanged and the output's at `out3_4` of them. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input's buffer at its block and the output's at `out3_4` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.Kernel.Reg4.lean ====
/-
  Region 4: the combine step of layer 3, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_S5000x128 : Rect S5000x128 := Rect.unit (s := S5000x128) ![0, 0] S5000x128.size inb_S5000x128_S5000x128_0_0
abbrev r4_S128x128 : Rect S128x128 := Rect.unit (s := S128x128) ![0, 0] S128x128.size inb_S128x128_S128x128_0_0

/-- The output block after the body, from the input blocks: its one store, over the whole block. -/
def out4_4 (x0 : Vec F S5000x128 .f32) (x1 : Vec F S5000x128 .f32) (x2 : Vec F S5000x128 .f32) (x3 : Vec F S128x128 .f32) : Vec F S5000x128 .f32 :=
  View.canon [⟨r4_S5000x128, k4_pay1 (View.ld x0 r4_S5000x128) (View.ld x1 r4_S5000x128) (View.ld x2 r4_S5000x128) (View.ld x3 r4_S128x128)⟩]

/-- The one store covers the block. -/
theorem cover4_4 (p0 : Vec F S5000x128 .f32) (y : S5000x128.Idx) :
    ∃ pc ∈ ([⟨r4_S5000x128, p0⟩] : List (View.Piece (Elt F) S5000x128 .f32)), y ∈ pc.1.set :=
  View.cover_of_tiled [⟨r4_S5000x128, p0⟩] S5000x128.size (by rfl) y

set_option maxHeartbeats 1000000 in
/-- The body on whole staging buffers, the inputs' at contents `x0 x1 x2 x3` and the output's at anything, runs to the
    continuation with the inputs' unchanged and the output's at `out4_4` of them. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.Kernel.Reg5.lean ====
/-
  Region 5: the combine step of layer 4, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0

/-- The output block after the body, from the input blocks: its one store, over the whole block. -/
def out5_4 (x0 : Vec F S5000x128 .f32) (x1 : Vec F S5000x128 .f32) (x2 : Vec F S5000x128 .f32) (x3 : Vec F S128x128 .f32) : Vec F S5000x128 .f32 :=
  View.canon [⟨r5_S5000x128, k5_pay1 (View.ld x0 r5_S5000x128) (View.ld x1 r5_S5000x128) (View.ld x2 r5_S5000x128) (View.ld x3 r5_S128x128)⟩]

/-- The one store covers the block. -/
theorem cover5_4 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 1000000 in
/-- The body on whole staging buffers, the inputs' at contents `x0 x1 x2 x3` and the output's at anything, runs to the
    continuation with the inputs' unchanged and the output's at `out5_4` of them. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input's buffer at its block and the output's at `out5_4` of the input blocks; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.Kernel.Reg6.lean ====
/-
  Region 6: the combine step of layer 5, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_S5000x128 : Rect S5000x128 := Rect.unit (s := S5000x128) ![0, 0] S5000x128.size inb_S5000x128_S5000x128_0_0
abbrev r6_S128x128 : Rect S128x128 := Rect.unit (s := S128x128) ![0, 0] S128x128.size inb_S128x128_S128x128_0_0

/-- The output block after the body, from the input blocks: its one store, over the whole block. -/
def out6_4 (x0 : Vec F S5000x128 .f32) (x1 : Vec F S5000x128 .f32) (x2 : Vec F S5000x128 .f32) (x3 : Vec F S128x128 .f32) : Vec F S5000x128 .f32 :=
  View.canon [⟨r6_S5000x128, k6_pay1 (View.ld x0 r6_S5000x128) (View.ld x1 r6_S5000x128) (View.ld x2 r6_S5000x128) (View.ld x3 r6_S128x128)⟩]

/-- The one store covers the block. -/
theorem cover6_4 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

set_option maxHeartbeats 1000000 in
/-- The body on whole staging buffers, the inputs' at contents `x0 x1 x2 x3` and the output's at anything, runs to the
    continuation with the inputs' unchanged and the output's at `out6_4` of them. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_kernel i arg1 harg1 arg2 harg2 arg3 harg3 arg4 harg4 arg5 harg5) K := by
  simp only [cc6__combine_kernel_eq_skeleton]; unfold cc6__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of pipeline 6 on core `c`: the arrays as the region finds them; after the body at point `t` each
    input's buffer at its block and the output's at `out6_4` of the input blocks; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.Kernel.Reg7.lean ====
/-
  Region 7: the output projection, one block of 5000 rows at a time.

  At every grid point the body loads the point's block of the last layer's output (5000 × 128), the whole weight
  matrix (128 × 121) and the bias row (1 × 121), and stores x·w + b over the whole output block (5000 × 121). This file
  states what the body leaves in each staging buffer as a function of the blocks it found, runs the body once against
  that statement, and packages the result as the pipeline's proof data with its body obligation, at any entry
  contents of the core's buffers and at any reading of the floats.
-/
import proofs.«112903_j84559316124075_1_alg».proof.Proof.Gen.Kernel.Launch
import proofs.«112903_j84559316124075_1_alg».proof.Proof.Gen.Kernel.Skeleton
import proofs.«112903_j84559316124075_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_S5000x128 : Rect S5000x128 := Rect.unit (s := S5000x128) ![0, 0] S5000x128.size inb_S5000x128_S5000x128_0_0
abbrev r7_S128x121 : Rect S128x121 := Rect.unit (s := S128x121) ![0, 0] S128x121.size inb_S128x121_S128x121_0_0
abbrev r7_S1x121 : Rect S1x121 := Rect.unit (s := S1x121) ![0, 0] S1x121.size inb_S1x121_S1x121_0_0
abbrev r7_S5000x121 : Rect S5000x121 := Rect.unit (s := S5000x121) ![0, 0] S5000x121.size inb_S5000x121_S5000x121_0_0

/-- The output block after the body, from the input blocks: its one store, over the whole block. -/
def out7_3 (x0 : Vec F S5000x128 .f32) (x1 : Vec F S128x121 .f32) (x2 : Vec F S1x121 .f32) : Vec F S5000x121 .f32 :=
  View.canon [⟨r7_S5000x121, k7_pay1 (View.ld x0 r7_S5000x128) (View.ld x1 r7_S128x121) (View.ld x2 r7_S1x121)⟩]

/-- The one store covers the block. -/
theorem cover7_3 (p0 : Vec F S5000x121 .f32) (y : S5000x121.Idx) :
    ∃ pc ∈ ([⟨r7_S5000x121, p0⟩] : List (View.Piece (Elt F) S5000x121 .f32)), y ∈ pc.1.set :=
  View.cover_of_tiled [⟨r7_S5000x121, p0⟩] S5000x121.size (by rfl) y

set_option maxHeartbeats 1000000 in
/-- The body on whole staging buffers, the inputs' at contents `x0 x1 x2` and the output's at anything, runs to the
    continuation with the inputs' unchanged and the output's at `out7_3` of them. -/
theorem sound_kernel7 (c : Dev nD) (E : Set ℕ) (i : grid7.Coords) (arg1 : Memref sig .tc .vmem S5000x128 .f32) (harg1 : arg1.IsWhole) (arg2 : Memref sig .tc .vmem S128x121 .f32) (harg2 : arg2.IsWhole) (arg3 : Memref sig .tc .vmem S1x121 .f32) (harg3 : arg3.IsWhole) (arg4 : Memref sig .tc .vmem S5000x121 .f32) (harg4 : arg4.IsWhole)
    (x0 : Vec F S5000x128 .f32) (x1 : Vec F S128x121 .f32) (x2 : Vec F S1x121 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core `c`: the arrays as the region finds them; after the body at point `t` each
    input's buffer at its block and the output's at `out7_3` of the input blocks; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.Kernel.Run.lean ====
/-
  The run of @main: eight kernel regions among stretches of host operations.

  The contents of a core's buffers are followed from the launch to the return as a fold: a host stretch leaves what
  its operations compute, a region leaves its output array at what the write-backs of its ten grid points make of it
  and every other buffer as it found it. Each region is entered with every buffer held whole at the fold's contents
  and left the same way, so the regions and the host stretches chain; at the end every buffer is read back at the
  last contents. No argument array is written by any host operation or region, so each ends as launched, and the
  result array ends at what the last region's write-backs leave.
-/
import proofs.«112903_j84559316124075_1_alg».proof.Proof.Kernel.Reg0
import proofs.«112903_j84559316124075_1_alg».proof.Proof.Kernel.Reg1
import proofs.«112903_j84559316124075_1_alg».proof.Proof.Kernel.Reg1Arrays
import proofs.«112903_j84559316124075_1_alg».proof.Proof.Kernel.Reg2
import proofs.«112903_j84559316124075_1_alg».proof.Proof.Kernel.Reg3
import proofs.«112903_j84559316124075_1_alg».proof.Proof.Kernel.Reg4
import proofs.«112903_j84559316124075_1_alg».proof.Proof.Kernel.Reg5
import proofs.«112903_j84559316124075_1_alg».proof.Proof.Kernel.Reg6
import proofs.«112903_j84559316124075_1_alg».proof.Proof.Kernel.Reg7
import proofs.«112903_j84559316124075_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the output array at what the pipeline leaves, every other buffer as entered (two of its
    input windows read one array, which it leaves alone). -/
def W4 (c : Dev nD) : Valuation τ sig (Elt F) :=
  Function.update (W3 m ρ c) (Proc.devRef .tc main_v21) ((dat1 (V3 m ρ) c).arrAt 4 cfg1.N)
theorem W4_out (c : Dev nD) : W4 m ρ c (Proc.devRef .tc main_v21) = (dat1 (V3 m ρ) c).arrAt 4 cfg1.N := by
  unfold W4; exact Function.update_self _ _ _
theorem W4_of_ne (c : Dev nD) (b : Ref sig .tc) (hb : b ≠ main_v21) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch before region 5. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch before region 6. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the host stretch before region 7. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-! ## The arguments end as launched -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := (W16_arr m ρ c 1).trans (((dat7 (V15 m ρ) c).arrAt_in 1 rfl _).trans (A_eq7 (V15 m ρ) c 1))
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0: entered from every unscoped buffer at `W1`, left at `W2`. Its arrays are split out of the unscoped
    buffers at entry and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Two of its windows read one array, so its arrays
    are split out of the unscoped buffers with that array's share halved, and put back with the halves rejoined; the
    rest is as for the other regions. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := split1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := join1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers at entry and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers at entry and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers at entry and put back at the exit contents; the generator register goes into the pipeline's invariant
    and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. Its arrays are split out of the unscoped
    buffers at entry and put back at the exit contents; the generator register goes into the pipeline's invariant
    and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W13`, left at `W14`. Its arrays are split out of the unscoped
    buffers at entry and put back at the exit contents; the generator register goes into the pipeline's invariant
    and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W15`, left at `W16`. Its arrays are split out of the unscoped
    buffers at entry and put back at the exit contents; the generator register goes into the pipeline's invariant
    and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

set_option backward.isDefEq.respectTransparency.types false in
/-- Every weakly fair execution of @main from memory `m` with zero counters terminates, nothing faulting, and in every
    final state each unscoped buffer of each core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c)⟩) (run_all m ρ)

/-- The run with the result array named: it ends at what the last region's write-backs leave. -/
theorem run_out : θ_run defs (onTc (τ := τ) (main (F := F))) ⟨m, fun _ => 0, ρ⟩ (fun r => ∀ c : Dev nD,
      r.2.mem ((c.tc : Thread nD τ).loc main_v103) = (dat7 (V15 m ρ) c).arrAt 3 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v103 (by decide))).trans (W16_arr m ρ c 3),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c)⟩) (run_all m ρ)

end Cert.Kernel.Fr

end
-- ==== Proof.KernelIdeal.Reg0.lean ====
/-
  Region 0: the input projection, one block of 5000 rows at a time.

  At every grid point the body loads the point's block of the node features (5000 × 50), the whole weight matrix
  (50 × 128) and the bias row (1 × 128), and stores max(x·w + b, 0) over the whole output block (5000 × 128). This file
  states what the body leaves in each staging buffer as a function of the blocks it found, runs the body once against
  that statement, and packages the result as the pipeline's proof data with its body obligation, at any entry
  contents of the core's buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_S5000x50 : Rect S5000x50 := Rect.unit (s := S5000x50) ![0, 0] S5000x50.size inb_S5000x50_S5000x50_0_0
abbrev r0_S50x128 : Rect S50x128 := Rect.unit (s := S50x128) ![0, 0] S50x128.size inb_S50x128_S50x128_0_0
abbrev r0_S1x128 : Rect S1x128 := Rect.unit (s := S1x128) ![0, 0] S1x128.size inb_S1x128_S1x128_0_0
abbrev r0_S5000x128 : Rect S5000x128 := Rect.unit (s := S5000x128) ![0, 0] S5000x128.size inb_S5000x128_S5000x128_0_0

/-- The output block after the body, from the input blocks: its one store, over the whole block. -/
def out0_3 (x0 : Vec F S5000x50 .f32) (x1 : Vec F S50x128 .f32) (x2 : Vec F S1x128 .f32) : Vec F S5000x128 .f32 :=
  View.canon [⟨r0_S5000x128, k0_pay1 (View.ld x0 r0_S5000x50) (View.ld x1 r0_S50x128) (View.ld x2 r0_S1x128)⟩]

/-- The one store covers the block. -/
theorem cover0_3 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 1000000 in
/-- The body on whole staging buffers, the inputs' at contents `x0 x1 x2` and the output's at anything, runs to the
    continuation with the inputs' unchanged and the output's at `out0_3` of them. -/
theorem sound_kernel0 (c : Dev nD) (E : Set ℕ) (i : grid0.Coords) (arg1 : Memref sig .tc .vmem S5000x50 .f32) (harg1 : arg1.IsWhole) (arg2 : Memref sig .tc .vmem S50x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x50 .f32) (x1 : Vec F S50x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Reg1.lean ====
/-
  Region 1: the combine step of layer 0, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
  In this layer the first layer's output IS the layer's input: two input windows read one array, and the core's
  whole share of that array is dealt to them as its two halves.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_S5000x128 : Rect S5000x128 := Rect.unit (s := S5000x128) ![0, 0] S5000x128.size inb_S5000x128_S5000x128_0_0
abbrev r1_S128x128 : Rect S128x128 := Rect.unit (s := S128x128) ![0, 0] S128x128.size inb_S128x128_S128x128_0_0

/-- The output block after the body, from the input blocks: its one store, over the whole block. -/
def out1_4 (x0 : Vec F S5000x128 .f32) (x1 : Vec F S5000x128 .f32) (x2 : Vec F S5000x128 .f32) (x3 : Vec F S128x128 .f32) : Vec F S5000x128 .f32 :=
  View.canon [⟨r1_S5000x128, k1_pay1 (View.ld x0 r1_S5000x128) (View.ld x1 r1_S5000x128) (View.ld x2 r1_S5000x128) (View.ld x3 r1_S128x128)⟩]

/-- The one store covers the block. -/
theorem cover1_4 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 1000000 in
/-- The body on whole staging buffers, the inputs' at contents `x0 x1 x2 x3` and the output's at anything, runs to the
    continuation with the inputs' unchanged and the output's at `out1_4` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input's buffer at its block and the output's at `out1_4` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdeal.Reg1Arrays.lean ====
/-
  Region 1's arrays among the core's unscoped buffers.

  Two of region 1's input windows read one array (in the first layer the layer's input is the first layer's output),
  so its five windows stand on four distinct buffers. The pipeline holds each window's array at a share of its own:
  the two windows on the common array hold the two halves of the full share, which are split off the whole buffer
  when the region is entered and joined again when it is left; every other window's array is held whole.
-/
import proofs.«112903_j84559316124075_1_alg».proof.Proof.KernelIdeal.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four distinct buffers behind region 1's five windows, as a chain. -/
theorem arrBufs1_eq (c : Dev nD) (W : (b : Ref sig .tc) → Buf (Elt F) ((c : Thread nD τ).loc b)) :
    (Pipeline.arrBufs (cfgs (1 : Fin 8)).spec c W : sProp 𝕄) = iprop((((c : Thread nD τ).loc main_v18) ↦{fullShare} W main_v18) ∗ (((c : Thread nD τ).loc main_v5) ↦{fullShare} W main_v5)
      ∗ (((c : Thread nD τ).loc main_v20) ↦{fullShare} W main_v20) ∗ (((c : Thread nD τ).loc main_v21) ↦{fullShare} W main_v21)) :=
  bigSep_eq_bigSepL_of_eq [main_v18, main_v5, main_v20, main_v21] (by decide) (by decide) _

set_option maxHeartbeats 1000000 in
/-- ENTRY: the core's unscoped buffers at contents `V` are region 1's arrays at the proof data's entry contents — the
    array read by two windows dealt to them as the two halves of its full share — and the unscoped rest. -/
theorem split1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs (1 : Fin 8) winFacts₀1.arr_unscoped c (V c)]
  refine sep_mono ?_ .rfl
  rw [arrBufs1_eq]
  unfold Dat.arrays
  rw [bigSep_W1]
  have hs0 : (dat1 V c).share 0 = fullShare := rfl
  have hs1 : (dat1 V c).share 1 = fullShare.left := rfl
  have hs2 : (dat1 V c).share 2 = fullShare.right := rfl
  have hs3 : (dat1 V c).share 3 = fullShare := rfl
  have hs4 : (dat1 V c).share 4 = fullShare := rfl
  rw [hs0, hs1, hs2, hs3, hs4, (arr_whole1 0).set_eq_univ, (arr_whole1 1).set_eq_univ, (arr_whole1 3).set_eq_univ, (arr_whole1 4).set_eq_univ]
  beta_reduce
  iintro ⟨H18, H5, H20, H21⟩
  have hsp : (((c : Thread nD τ).loc main_v5) ↦{fullShare} V c main_v5 : sProp 𝕄)
      ⊢ iprop((((c : Thread nD τ).loc main_v5) ↦{fullShare.left} V c main_v5) ∗ (((c : Thread nD τ).loc main_v5) ↦{fullShare.right} V c main_v5)) :=
    (pointsTo_share (PosShare.mem_left_op_right fullShare)).1
  ihave H5' := hsp $$ H5
  icases H5' with ⟨H5l, H5r⟩
  isplitl [H18]; · iexact H18
  isplitl [H5l]; · iexact H5l
  isplitl [H5r]; · iexact H5r
  isplitl [H20]; · iexact H20
  iexact H21

set_option maxHeartbeats 1000000 in
/-- EXIT: region 1's arrays at their final contents — the two halves of the shared array rejoined — and the unscoped
    rest are the core's unscoped buffers at any contents that have the output array at what the pipeline leaves and
    agree with the entry contents elsewhere. -/
theorem join1 (c : Dev nD) (V' : (b : Ref sig .tc) → Buf (Elt F) ((c : Thread nD τ).loc b))
    (hout : V' main_v21 = (dat1 V c).arrAt 4 cfg1.N) (hrest : ∀ b, b ≠ main_v21 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs (1 : Fin 8) winFacts₀1.arr_unscoped c V']
  refine sep_mono ?_ (Entails.of_eq ?_)
  · rw [arrBufs1_eq]
    unfold Dat.arrays
    rw [bigSep_W1]
    have hs0 : (dat1 V c).share 0 = fullShare := rfl
    have hs1 : (dat1 V c).share 1 = fullShare.left := rfl
    have hs2 : (dat1 V c).share 2 = fullShare.right := rfl
    have hs3 : (dat1 V c).share 3 = fullShare := rfl
    have hs4 : (dat1 V c).share 4 = fullShare := rfl
    rw [hs0, hs1, hs2, hs3, hs4, (arr_whole1 0).set_eq_univ, (arr_whole1 1).set_eq_univ, (arr_whole1 3).set_eq_univ, (arr_whole1 4).set_eq_univ]
    rw [hrest main_v18 (by decide), hrest main_v5 (by decide), hrest main_v20 (by decide), hout]
    have e0 : (dat1 V c).arrAt 0 cfg1.N = V c main_v18 := ((dat1 V c).arrAt_in 0 rfl _).trans (A_eq1 V c 0)
    have e1 : (dat1 V c).arrAt 1 cfg1.N = V c main_v5 := ((dat1 V c).arrAt_in 1 rfl _).trans (A_eq1 V c 1)
    have e2 : (dat1 V c).arrAt 2 cfg1.N = V c main_v5 := ((dat1 V c).arrAt_in 2 rfl _).trans (A_eq1 V c 2)
    have e3 : (dat1 V c).arrAt 3 cfg1.N = V c main_v20 := ((dat1 V c).arrAt_in 3 rfl _).trans (A_eq1 V c 3)
    beta_reduce
    rw [e0, e1, e2, e3]
    have hjn : iprop((((c : Thread nD τ).loc main_v5) ↦{fullShare.left} V c main_v5) ∗ (((c : Thread nD τ).loc main_v5) ↦{fullShare.right} V c main_v5))
        ⊢ (((c : Thread nD τ).loc main_v5) ↦{fullShare} V c main_v5 : sProp 𝕄) :=
      (pointsTo_share (PosShare.mem_left_op_right fullShare)).2
    iintro ⟨H18, H5l, H5r, H20, H21⟩
    isplitl [H18]; · iexact H18
    isplitl [H5l H5r]
    · iapply hjn
      isplitl [H5l]; · iexact H5l
      iexact H5r
    isplitl [H20]; · iexact H20
    iexact H21
  · unfold Pipeline.unscopedRest
    exact bigSep_congr fun b hb => by
      rw [hrest b (fun e => (Finset.mem_sdiff.mp hb).2 (Finset.mem_image.mpr ⟨4, Finset.mem_univ _, e ▸ rfl⟩))]

end Cert.KernelIdeal.Fr
end
-- ==== Proof.KernelIdeal.Reg2.lean ====
/-
  Region 2: the combine step of layer 1, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_S5000x128 : Rect S5000x128 := Rect.unit (s := S5000x128) ![0, 0] S5000x128.size inb_S5000x128_S5000x128_0_0
abbrev r2_S128x128 : Rect S128x128 := Rect.unit (s := S128x128) ![0, 0] S128x128.size inb_S128x128_S128x128_0_0

/-- The output block after the body, from the input blocks: its one store, over the whole block. -/
def out2_4 (x0 : Vec F S5000x128 .f32) (x1 : Vec F S5000x128 .f32) (x2 : Vec F S5000x128 .f32) (x3 : Vec F S128x128 .f32) : Vec F S5000x128 .f32 :=
  View.canon [⟨r2_S5000x128, k2_pay1 (View.ld x0 r2_S5000x128) (View.ld x1 r2_S5000x128) (View.ld x2 r2_S5000x128) (View.ld x3 r2_S128x128)⟩]

/-- The one store covers the block. -/
theorem cover2_4 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 1000000 in
/-- The body on whole staging buffers, the inputs' at contents `x0 x1 x2 x3` and the output's at anything, runs to the
    continuation with the inputs' unchanged and the output's at `out2_4` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and the output's at `out2_4` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KernelIdeal.Reg3.lean ====
/-
  Region 3: the combine step of layer 2, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_S5000x128 : Rect S5000x128 := Rect.unit (s := S5000x128) ![0, 0] S5000x128.size inb_S5000x128_S5000x128_0_0
abbrev r3_S128x128 : Rect S128x128 := Rect.unit (s := S128x128) ![0, 0] S128x128.size inb_S128x128_S128x128_0_0

/-- The output block after the body, from the input blocks: its one store, over the whole block. -/
def out3_4 (x0 : Vec F S5000x128 .f32) (x1 : Vec F S5000x128 .f32) (x2 : Vec F S5000x128 .f32) (x3 : Vec F S128x128 .f32) : Vec F S5000x128 .f32 :=
  View.canon [⟨r3_S5000x128, k3_pay1 (View.ld x0 r3_S5000x128) (View.ld x1 r3_S5000x128) (View.ld x2 r3_S5000x128) (View.ld x3 r3_S128x128)⟩]

/-- The one store covers the block. -/
theorem cover3_4 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 1000000 in
/-- The body on whole staging buffers, the inputs' at contents `x0 x1 x2 x3` and the output's at anything, runs to the
    continuation with the inputs' unchanged and the output's at `out3_4` of them. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input's buffer at its block and the output's at `out3_4` of the input blocks; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KernelIdeal.Reg4.lean ====
/-
  Region 4: the combine step of layer 3, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_S5000x128 : Rect S5000x128 := Rect.unit (s := S5000x128) ![0, 0] S5000x128.size inb_S5000x128_S5000x128_0_0
abbrev r4_S128x128 : Rect S128x128 := Rect.unit (s := S128x128) ![0, 0] S128x128.size inb_S128x128_S128x128_0_0

/-- The output block after the body, from the input blocks: its one store, over the whole block. -/
def out4_4 (x0 : Vec F S5000x128 .f32) (x1 : Vec F S5000x128 .f32) (x2 : Vec F S5000x128 .f32) (x3 : Vec F S128x128 .f32) : Vec F S5000x128 .f32 :=
  View.canon [⟨r4_S5000x128, k4_pay1 (View.ld x0 r4_S5000x128) (View.ld x1 r4_S5000x128) (View.ld x2 r4_S5000x128) (View.ld x3 r4_S128x128)⟩]

/-- The one store covers the block. -/
theorem cover4_4 (p0 : Vec F S5000x128 .f32) (y : S5000x128.Idx) :
    ∃ pc ∈ ([⟨r4_S5000x128, p0⟩] : List (View.Piece (Elt F) S5000x128 .f32)), y ∈ pc.1.set :=
  View.cover_of_tiled [⟨r4_S5000x128, p0⟩] S5000x128.size (by rfl) y

set_option maxHeartbeats 1000000 in
/-- The body on whole staging buffers, the inputs' at contents `x0 x1 x2 x3` and the output's at anything, runs to the
    continuation with the inputs' unchanged and the output's at `out4_4` of them. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_kernel i arg1 harg1 arg2 harg2 arg3 harg3 arg4 harg4 arg5 harg5) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KernelIdeal.Reg5.lean ====
/-
  Region 5: the combine step of layer 4, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0

/-- The output block after the body, from the input blocks: its one store, over the whole block. -/
def out5_4 (x0 : Vec F S5000x128 .f32) (x1 : Vec F S5000x128 .f32) (x2 : Vec F S5000x128 .f32) (x3 : Vec F S128x128 .f32) : Vec F S5000x128 .f32 :=
  View.canon [⟨r5_S5000x128, k5_pay1 (View.ld x0 r5_S5000x128) (View.ld x1 r5_S5000x128) (View.ld x2 r5_S5000x128) (View.ld x3 r5_S128x128)⟩]

/-- The one store covers the block. -/
theorem cover5_4 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 1000000 in
/-- The body on whole staging buffers, the inputs' at contents `x0 x1 x2 x3` and the output's at anything, runs to the
    continuation with the inputs' unchanged and the output's at `out5_4` of them. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input's buffer at its block and the output's at `out5_4` of the input blocks; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KernelIdeal.Reg6.lean ====
/-
  Region 6: the combine step of layer 5, one block of 5000 rows at a time.

  At every grid point the body loads the point's blocks of the aggregate, of the first layer's output and of the
  layer's input (5000 × 128 each) and the layer's whole weight matrix (128 × 128), and stores
  max((c₃·h + c₄·(h·W)) + x, 0) with h = c₁·a + c₂·x₀ over the whole output block. This file states what the body leaves
  in each staging buffer as a function of the blocks it found, runs the body once against that statement, and
  packages the result as the pipeline's proof data with its body obligation, at any entry contents of the core's
  buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_S5000x128 : Rect S5000x128 := Rect.unit (s := S5000x128) ![0, 0] S5000x128.size inb_S5000x128_S5000x128_0_0
abbrev r6_S128x128 : Rect S128x128 := Rect.unit (s := S128x128) ![0, 0] S128x128.size inb_S128x128_S128x128_0_0

/-- The output block after the body, from the input blocks: its one store, over the whole block. -/
def out6_4 (x0 : Vec F S5000x128 .f32) (x1 : Vec F S5000x128 .f32) (x2 : Vec F S5000x128 .f32) (x3 : Vec F S128x128 .f32) : Vec F S5000x128 .f32 :=
  View.canon [⟨r6_S5000x128, k6_pay1 (View.ld x0 r6_S5000x128) (View.ld x1 r6_S5000x128) (View.ld x2 r6_S5000x128) (View.ld x3 r6_S128x128)⟩]

/-- The one store covers the block. -/
theorem cover6_4 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

set_option maxHeartbeats 1000000 in
/-- The body on whole staging buffers, the inputs' at contents `x0 x1 x2 x3` and the output's at anything, runs to the
    continuation with the inputs' unchanged and the output's at `out6_4` of them. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x128 .f32) (x2 : Vec F S5000x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_kernel i arg1 harg1 arg2 harg2 arg3 harg3 arg4 harg4 arg5 harg5) K := by
  simp only [cc6__combine_kernel_eq_skeleton]; unfold cc6__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The proof data of pipeline 6 on core `c`: the arrays as the region finds them; after the body at point `t` each
    input's buffer at its block and the output's at `out6_4` of the input blocks; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' buffers hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KernelIdeal.Reg7.lean ====
/-
  Region 7: the output projection, one block of 5000 rows at a time.

  At every grid point the body loads the point's block of the last layer's output (5000 × 128), the whole weight
  matrix (128 × 121) and the bias row (1 × 121), and stores x·w + b over the whole output block (5000 × 121). This file
  states what the body leaves in each staging buffer as a function of the blocks it found, runs the body once against
  that statement, and packages the result as the pipeline's proof data with its body obligation, at any entry
  contents of the core's buffers and at any reading of the floats.
-/
import proofs.«112903_j84559316124075_1_alg».proof.Proof.Gen.KernelIdeal.Launch
import proofs.«112903_j84559316124075_1_alg».proof.Proof.Gen.KernelIdeal.Skeleton
import proofs.«112903_j84559316124075_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_S5000x128 : Rect S5000x128 := Rect.unit (s := S5000x128) ![0, 0] S5000x128.size inb_S5000x128_S5000x128_0_0
abbrev r7_S128x121 : Rect S128x121 := Rect.unit (s := S128x121) ![0, 0] S128x121.size inb_S128x121_S128x121_0_0
abbrev r7_S1x121 : Rect S1x121 := Rect.unit (s := S1x121) ![0, 0] S1x121.size inb_S1x121_S1x121_0_0
abbrev r7_S5000x121 : Rect S5000x121 := Rect.unit (s := S5000x121) ![0, 0] S5000x121.size inb_S5000x121_S5000x121_0_0

/-- The output block after the body, from the input blocks: its one store, over the whole block. -/
def out7_3 (x0 : Vec F S5000x128 .f32) (x1 : Vec F S128x121 .f32) (x2 : Vec F S1x121 .f32) : Vec F S5000x121 .f32 :=
  View.canon [⟨r7_S5000x121, k7_pay1 (View.ld x0 r7_S5000x128) (View.ld x1 r7_S128x121) (View.ld x2 r7_S1x121)⟩]

/-- The one store covers the block. -/
theorem cover7_3 (p0 : Vec F S5000x121 .f32) (y : S5000x121.Idx) :
    ∃ pc ∈ ([⟨r7_S5000x121, p0⟩] : List (View.Piece (Elt F) S5000x121 .f32)), y ∈ pc.1.set :=
  View.cover_of_tiled [⟨r7_S5000x121, p0⟩] S5000x121.size (by rfl) y

set_option maxHeartbeats 1000000 in
/-- The body on whole staging buffers, the inputs' at contents `x0 x1 x2` and the output's at anything, runs to the
    continuation with the inputs' unchanged and the output's at `out7_3` of them. -/
theorem sound_kernel7 (c : Dev nD) (E : Set ℕ) (i : grid7.Coords) (arg1 : Memref sig .tc .vmem S5000x128 .f32) (harg1 : arg1.IsWhole) (arg2 : Memref sig .tc .vmem S128x121 .f32) (harg2 : arg2.IsWhole) (arg3 : Memref sig .tc .vmem S1x121 .f32) (harg3 : arg3.IsWhole) (arg4 : Memref sig .tc .vmem S5000x121 .f32) (harg4 : arg4.IsWhole)
    (x0 : Vec F S5000x128 .f32) (x1 : Vec F S128x121 .f32) (x2 : Vec F S1x121 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of pipeline 7 on core `c`: the arrays as the region finds them; after the body at point `t` each
    input's buffer at its block and the output's at `out7_3` of the input blocks; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KernelIdeal.Run.lean ====
/-
  The run of @main: eight kernel regions among stretches of host operations.

  The contents of a core's buffers are followed from the launch to the return as a fold: a host stretch leaves what
  its operations compute, a region leaves its output array at what the write-backs of its ten grid points make of it
  and every other buffer as it found it. Each region is entered with every buffer held whole at the fold's contents
  and left the same way, so the regions and the host stretches chain; at the end every buffer is read back at the
  last contents. No argument array is written by any host operation or region, so each ends as launched, and the
  result array ends at what the last region's write-backs leave.
-/
import proofs.«112903_j84559316124075_1_alg».proof.Proof.KernelIdeal.Reg0
import proofs.«112903_j84559316124075_1_alg».proof.Proof.KernelIdeal.Reg1
import proofs.«112903_j84559316124075_1_alg».proof.Proof.KernelIdeal.Reg1Arrays
import proofs.«112903_j84559316124075_1_alg».proof.Proof.KernelIdeal.Reg2
import proofs.«112903_j84559316124075_1_alg».proof.Proof.KernelIdeal.Reg3
import proofs.«112903_j84559316124075_1_alg».proof.Proof.KernelIdeal.Reg4
import proofs.«112903_j84559316124075_1_alg».proof.Proof.KernelIdeal.Reg5
import proofs.«112903_j84559316124075_1_alg».proof.Proof.KernelIdeal.Reg6
import proofs.«112903_j84559316124075_1_alg».proof.Proof.KernelIdeal.Reg7
import proofs.«112903_j84559316124075_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the output array at what the pipeline leaves, every other buffer as entered (two of its
    input windows read one array, which it leaves alone). -/
def W4 (c : Dev nD) : Valuation τ sig (Elt F) :=
  Function.update (W3 m ρ c) (Proc.devRef .tc main_v21) ((dat1 (V3 m ρ) c).arrAt 4 cfg1.N)
theorem W4_out (c : Dev nD) : W4 m ρ c (Proc.devRef .tc main_v21) = (dat1 (V3 m ρ) c).arrAt 4 cfg1.N := by
  unfold W4; exact Function.update_self _ _ _
theorem W4_of_ne (c : Dev nD) (b : Ref sig .tc) (hb : b ≠ main_v21) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch before region 5. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch before region 6. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- After the host stretch before region 7. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-! ## The arguments end as launched -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W16_main_arg4 (c : Dev nD) : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W16_main_arg5 (c : Dev nD) : W16 m ρ c (Proc.devRef .tc main_arg5) = m ((c : Thread nD τ).loc main_arg5) :=
  calc W16 m ρ c (Proc.devRef .tc main_arg5)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W16_main_arg6 (c : Dev nD) : W16 m ρ c (Proc.devRef .tc main_arg6) = m ((c : Thread nD τ).loc main_arg6) :=
  calc W16 m ρ c (Proc.devRef .tc main_arg6)
    _ = W15 m ρ c (Proc.devRef .tc main_arg6) := (W16_arr m ρ c 1).trans (((dat7 (V15 m ρ) c).arrAt_in 1 rfl _).trans (A_eq7 (V15 m ρ) c 1))
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W16 m ρ c) ∗ ∃ r, prngReg c r)

/-! ## The regions as segments -/

set_option backward.isDefEq.respectTransparency.types false in
/-- Region 0: entered from every unscoped buffer at `W1`, left at `W2`. Its arrays are split out of the unscoped
    buffers at entry and put back at the exit contents; the generator register goes into the pipeline's invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Two of its windows read one array, so its arrays
    are split out of the unscoped buffers with that array's share halved, and put back with the halves rejoined; the
    rest is as for the other regions. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := split1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := join1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. Its arrays are split out of the unscoped
    buffers at entry and put back at the exit contents; the generator register goes into the pipeline's invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. Its arrays are split out of the unscoped
    buffers at entry and put back at the exit contents; the generator register goes into the pipeline's invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. Its arrays are split out of the unscoped
    buffers at entry and put back at the exit contents; the generator register goes into the pipeline's invariant
    and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. Its arrays are split out of the unscoped
    buffers at entry and put back at the exit contents; the generator register goes into the pipeline's invariant
    and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W13`, left at `W14`. Its arrays are split out of the unscoped
    buffers at entry and put back at the exit contents; the generator register goes into the pipeline's invariant
    and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W15`, left at `W16`. Its arrays are split out of the unscoped
    buffers at entry and put back at the exit contents; the generator register goes into the pipeline's invariant
    and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ) ]

set_option backward.isDefEq.respectTransparency.types false in
/-- Every weakly fair execution of @main from memory `m` with zero counters terminates, nothing faulting, and in every
    final state each unscoped buffer of each core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c)⟩) (run_all m ρ)

/-- The run with the result array named: it ends at what the last region's write-backs leave. -/
theorem run_out : θ_run defs (onTc (τ := τ) (main (F := F))) ⟨m, fun _ => 0, ρ⟩ (fun r => ∀ c : Dev nD,
      r.2.mem ((c.tc : Thread nD τ).loc main_v103) = (dat7 (V15 m ρ) c).arrAt 3 cfg7.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v103 (by decide))).trans (W16_arr m ρ c 3),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c)⟩) (run_all m ρ)

end Cert.KernelIdeal.Fr

end
-- ==== Proof.Spec.lean ====
/-
  The function both programs compute, written once over plain index types.

  A graph network of six layers over 50000 nodes with 128 hidden features. With `x₀ = max(x·w_in + b_in, 0)`, each
  layer `l` takes the neighbourhood aggregate `a = agg xₗ` (a weighted gather of rows followed by a scatter-add,
  kept here as an abstract function of the layer's input), mixes it with the first layer's output,
  `h = c₁·a + c₂·x₀`, and leaves `xₗ₊₁ = max((c₃·h + c₄·(h·Wₗ)) + xₗ, 0)`, where `Wₗ` is the `l`-th slice of the stacked
  weights and `c₃`, `c₄` are the layer's two constants. The result is `x₆·w_out + b_out`.
  Every sum is a finite sum of extended reals; no law beyond the definitions is used here.
-/
import Idealize.ShloMosaic.PureOps.Ideal
import Idealize.ShloMosaic.Lib.ValueIdx

noncomputable section

open Idealize.ShloMosaic Idealize.ShloMosaic.ValueIdx
open scoped BigOperators

namespace Cert.Spec

/-- Arrays of extended reals of rank one, two and three. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- A dense layer: row `r` of `x` against column `j` of `w`, plus the bias at `j`. -/
def lin {K J : Nat} (x : A2 50000 K) (w : A2 K J) (b : A1 J) : A2 50000 J := fun i =>
  let r : Fin 50000 := i 0
  let j : Fin J := i 1
  (∑ k : Fin K, x (ix2 r k) * w (ix2 k j)) + b (ix1 j)

/-- The positive part, entry by entry. -/
def relu {a b : Nat} (y : A2 a b) : A2 a b := fun i => max (y i) 0

/-- The mix of the aggregate with the first layer's output. -/
def mix (c1 c2 : EReal) (a x0 : A2 50000 128) : A2 50000 128 := fun i => c1 * a i + c2 * x0 i

/-- One layer's combine step. -/
def comb (c1 c2 c3 c4 : EReal) (a x0 x : A2 50000 128) (w : A2 128 128) : A2 50000 128 := fun i =>
  let r : Fin 50000 := i 0
  let j : Fin 128 := i 1
  max ((c3 * mix c1 c2 a x0 i + c4 * ∑ k : Fin 128, mix c1 c2 a x0 (ix2 r k) * w (ix2 k j)) + x i) 0

/-- The `l`-th matrix of the stacked layer weights. -/
def wslice (l : Fin 6) (cw : A3 6 128 128) : A2 128 128 := fun i =>
  let k : Fin 128 := i 0
  let j : Fin 128 := i 1
  cw (ix3 l k j)

/-- The constants, as the binary values both programs carry. -/
def c1 : EReal := Ideal.ofBits .f32 0x3F666666#32
def c2 : EReal := Ideal.ofBits .f32 0x3DCCCCCD#32
def ca : Fin 6 → EReal
  | ⟨0, _⟩ => Ideal.ofBits .f32 0x3F183370#32
  | ⟨1, _⟩ => Ideal.ofBits .f32 0x3F46E010#32
  | ⟨2, _⟩ => Ideal.ofBits .f32 0x3F588995#32
  | ⟨3, _⟩ => Ideal.ofBits .f32 0x3F61D8F9#32
  | ⟨4, _⟩ => Ideal.ofBits .f32 0x3F6799C1#32
  | ⟨5, _⟩ => Ideal.ofBits .f32 0x3F6B8252#32
def cb : Fin 6 → EReal
  | ⟨0, _⟩ => Ideal.ofBits .f32 0x3ECF991F#32
  | ⟨1, _⟩ => Ideal.ofBits .f32 0x3E647FBE#32
  | ⟨2, _⟩ => Ideal.ofBits .f32 0x3E1DD9AD#32
  | ⟨3, _⟩ => Ideal.ofBits .f32 0x3DF1383B#32
  | ⟨4, _⟩ => Ideal.ofBits .f32 0x3DC331FC#32
  | ⟨5, _⟩ => Ideal.ofBits .f32 0x3DA3ED6E#32

/-- Layer `l` from the first layer's output `x0` and the layer's input `x`. -/
def layer (agg : A2 50000 128 → A2 50000 128) (cw : A3 6 128 128) (l : Fin 6) (x0 x : A2 50000 128) : A2 50000 128 :=
  comb c1 c2 (ca l) (cb l) (agg x) x0 x (wslice l cw)

/-- The first layer's output. -/
def first (x : A2 50000 50) (w_in : A2 50 128) (b_in : A1 128) : A2 50000 128 := relu (lin x w_in b_in)

/-- The whole network. -/
def out (agg : A2 50000 128 → A2 50000 128) (x : A2 50000 50) (w_in : A2 50 128) (b_in : A1 128)
    (cw : A3 6 128 128) (w_out : A2 128 121) (b_out : A1 121) : A2 50000 121 :=
  let x0 := first x w_in b_in
  let x1 := layer agg cw 0 x0 x0
  let x2 := layer agg cw 1 x0 x1
  let x3 := layer agg cw 2 x0 x2
  let x4 := layer agg cw 3 x0 x3
  let x5 := layer agg cw 4 x0 x4
  let x6 := layer agg cw 5 x0 x5
  lin x6 w_out b_out

end Cert.Spec

end
-- ==== Proof.KPay.lean ====
/-
  The kernel's eight stored values, each read at one entry, as plain arithmetic on extended reals.

  Each of the eight stored values is a composition of entrywise operations (products, sums, maxima, scalars broadcast
  to every entry, changes of number format, which do nothing to an extended real), of one row broadcast over all rows,
  and of one matrix product accumulated into zeros. Read at the entry `(r, j)`, the entrywise operations act on the
  operands' entries at `(r, j)`, the broadcast row gives its entry at `(0, j)`, and the matrix product gives the sum over
  `k` of the left operand at `(r, k)` times the right operand at `(k, j)`: the contraction index has one axis, so the sum
  over it is re-indexed by that axis's coordinate.
-/
import proofs.«112903_j84559316124075_1_alg».proof.Proof.Gen.KernelIdeal.Skeleton
import proofs.«112903_j84559316124075_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx Idealize.SL.Sem
open Cert.KernelIdeal Cert.KernelIdeal.Gen
open scoped BigOperators

namespace Cert.KPay

/-! ## The three matrix products into zeros, read at an entry -/

theorem mm_in_lhs0 (i : S5000x128.Idx) (q : dot_S5000x50_S50x128_S5000x128_1_0_0_1_n_n.contr.Idx) :
    (dot_S5000x50_S50x128_S5000x128_1_0_0_1_n_n.lhsIdx i q 0).val = (i 0).val := by
  unfold DotDims.lhsIdx
  rw [dif_neg (show ¬(0 : Fin S5000x50.rank) ∈ dot_S5000x50_S50x128_S5000x128_1_0_0_1_n_n.lhsBatch by decide),
    dif_pos (show (0 : Fin S5000x50.rank) ∈ dot_S5000x50_S50x128_S5000x128_1_0_0_1_n_n.lhsNonContracting by decide)]
  rfl
theorem mm_in_rhs1 (i : S5000x128.Idx) (q : dot_S5000x50_S50x128_S5000x128_1_0_0_1_n_n.contr.Idx) :
    (dot_S5000x50_S50x128_S5000x128_1_0_0_1_n_n.rhsIdx i q 1).val = (i 1).val := by
  unfold DotDims.rhsIdx
  rw [dif_neg (show ¬(1 : Fin S50x128.rank) ∈ dot_S5000x50_S50x128_S5000x128_1_0_0_1_n_n.rhsBatch by decide),
    dif_pos (show (1 : Fin S50x128.rank) ∈ dot_S5000x50_S50x128_S5000x128_1_0_0_1_n_n.rhsNonContracting by decide)]
  rfl
/-- The input layer's product: `[5000, 50]` by `[50, 128]`. -/
theorem mm_in (x : FVec Ideal S5000x50 .bf16) (w : FVec Ideal S50x128 .bf16) (r : Fin 5000) (j : Fin 128) :
    matmul dot_S5000x50_S50x128_S5000x128_1_0_0_1_n_n none x w (constant S5000x128 .f32 0x00000000#32) (ix2 r j)
      = ∑ k : Fin 50, x (ix2 r k) * w (ix2 k j) := by
  refine (Ideal.matmul_constant_zero_apply dot_S5000x50_S50x128_S5000x128_1_0_0_1_n_n none x w (ix2 r j)).trans ?_
  rw [← Equiv.sum_comp (contrEquiv1 dot_S5000x50_S50x128_S5000x128_1_0_0_1_n_n 50 rfl rfl).symm]
  refine Finset.sum_congr rfl fun k _ => ?_
  have hk := contrEquiv1_symm_val dot_S5000x50_S50x128_S5000x128_1_0_0_1_n_n 50 rfl rfl k
  have el : dot_S5000x50_S50x128_S5000x128_1_0_0_1_n_n.lhsIdx (ix2 r j) ((contrEquiv1 dot_S5000x50_S50x128_S5000x128_1_0_0_1_n_n 50 rfl rfl).symm k) = ix2 r k :=
    funext fun a => Fin.ext (by
      match a with
      | ⟨0, _⟩ => exact mm_in_lhs0 _ _
      | ⟨1, _⟩ => exact (dot_S5000x50_S50x128_S5000x128_1_0_0_1_n_n.lhsIdx_val_of_single rfl _ _).trans hk)
  have er : dot_S5000x50_S50x128_S5000x128_1_0_0_1_n_n.rhsIdx (ix2 r j) ((contrEquiv1 dot_S5000x50_S50x128_S5000x128_1_0_0_1_n_n 50 rfl rfl).symm k) = ix2 k j :=
    funext fun a => Fin.ext (by
      match a with
      | ⟨0, _⟩ => exact (dot_S5000x50_S50x128_S5000x128_1_0_0_1_n_n.rhsIdx_val_of_single rfl _ _).trans hk
      | ⟨1, _⟩ => exact mm_in_rhs1 _ _)
  rw [el, er]

theorem mm_layer_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem mm_layer_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl
/-- A combine layer's product: `[5000, 128]` by `[128, 128]`. -/
theorem mm_layer (x : FVec Ideal S5000x128 .bf16) (w : FVec Ideal S128x128 .bf16) (r : Fin 5000) (j : Fin 128) :
    matmul dot_S5000x128_S128x128_S5000x128_1_0_0_1_n_n none x w (constant S5000x128 .f32 0x00000000#32) (ix2 r j)
      = ∑ k : Fin 128, x (ix2 r k) * w (ix2 k j) := by
  refine (Ideal.matmul_constant_zero_apply dot_S5000x128_S128x128_S5000x128_1_0_0_1_n_n none x w (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact mm_layer_lhs0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (dot_S5000x128_S128x128_S5000x128_1_0_0_1_n_n.rhsIdx_val_of_single rfl _ _).trans hk
      | ⟨1, _⟩ => exact mm_layer_rhs1 _ _)
  rw [el, er]

theorem mm_out_lhs0 (i : S5000x121.Idx) (q : dot_S5000x128_S128x121_S5000x121_1_0_0_1_n_n.contr.Idx) :
    (dot_S5000x128_S128x121_S5000x121_1_0_0_1_n_n.lhsIdx i q 0).val = (i 0).val := by
  unfold DotDims.lhsIdx
  rw [dif_neg (show ¬(0 : Fin S5000x128.rank) ∈ dot_S5000x128_S128x121_S5000x121_1_0_0_1_n_n.lhsBatch by decide),
    dif_pos (show (0 : Fin S5000x128.rank) ∈ dot_S5000x128_S128x121_S5000x121_1_0_0_1_n_n.lhsNonContracting by decide)]
  rfl
theorem mm_out_rhs1 (i : S5000x121.Idx) (q : dot_S5000x128_S128x121_S5000x121_1_0_0_1_n_n.contr.Idx) :
    (dot_S5000x128_S128x121_S5000x121_1_0_0_1_n_n.rhsIdx i q 1).val = (i 1).val := by
  unfold DotDims.rhsIdx
  rw [dif_neg (show ¬(1 : Fin S128x121.rank) ∈ dot_S5000x128_S128x121_S5000x121_1_0_0_1_n_n.rhsBatch by decide),
    dif_pos (show (1 : Fin S128x121.rank) ∈ dot_S5000x128_S128x121_S5000x121_1_0_0_1_n_n.rhsNonContracting by decide)]
  rfl
/-- The output layer's product: `[5000, 128]` by `[128, 121]`. -/
theorem mm_out (x : FVec Ideal S5000x128 .bf16) (w : FVec Ideal S128x121 .bf16) (r : Fin 5000) (j : Fin 121) :
    matmul dot_S5000x128_S128x121_S5000x121_1_0_0_1_n_n none x w (constant S5000x121 .f32 0x00000000#32) (ix2 r j)
      = ∑ k : Fin 128, x (ix2 r k) * w (ix2 k j) := by
  refine (Ideal.matmul_constant_zero_apply dot_S5000x128_S128x121_S5000x121_1_0_0_1_n_n none x w (ix2 r j)).trans ?_
  rw [← Equiv.sum_comp (contrEquiv1 dot_S5000x128_S128x121_S5000x121_1_0_0_1_n_n 128 rfl rfl).symm]
  refine Finset.sum_congr rfl fun k _ => ?_
  have hk := contrEquiv1_symm_val dot_S5000x128_S128x121_S5000x121_1_0_0_1_n_n 128 rfl rfl k
  have el : dot_S5000x128_S128x121_S5000x121_1_0_0_1_n_n.lhsIdx (ix2 r j) ((contrEquiv1 dot_S5000x128_S128x121_S5000x121_1_0_0_1_n_n 128 rfl rfl).symm k) = ix2 r k :=
    funext fun a => Fin.ext (by
      match a with
      | ⟨0, _⟩ => exact mm_out_lhs0 _ _
      | ⟨1, _⟩ => exact (dot_S5000x128_S128x121_S5000x121_1_0_0_1_n_n.lhsIdx_val_of_single rfl _ _).trans hk)
  have er : dot_S5000x128_S128x121_S5000x121_1_0_0_1_n_n.rhsIdx (ix2 r j) ((contrEquiv1 dot_S5000x128_S128x121_S5000x121_1_0_0_1_n_n 128 rfl rfl).symm k) = ix2 k j :=
    funext fun a => Fin.ext (by
      match a with
      | ⟨0, _⟩ => exact (dot_S5000x128_S128x121_S5000x121_1_0_0_1_n_n.rhsIdx_val_of_single rfl _ _).trans hk
      | ⟨1, _⟩ => exact mm_out_rhs1 _ _)
  rw [el, er]

/-! ## The input layer -/

/-- The input layer's stored value at `(r, j)`: the positive part of row `r` of the input against column `j` of the
    weights, plus the bias at `j`. -/
theorem pay0 (x : Vec Ideal S5000x50 .f32) (w : Vec Ideal S50x128 .f32) (b : Vec Ideal S1x128 .f32) (r : Fin 5000) (j : Fin 128) :
    Cert.KernelIdeal.Gen.k0_pay1 (F := Ideal) x w b (ix2 r j)
      = max ((∑ k : Fin 50, x (ix2 r k) * w (ix2 k j)) + b (ix2 0 j)) 0 := by
  unfold Cert.KernelIdeal.Gen.k0_pay1
  refine (maximumf_apply _ _ _).trans ?_
  rw [addf_apply, mm_in, broadcastTo_1b_ab_apply, broadcast_apply]
  simp only [shapeCast_self, truncf_apply, Ideal.ofBits_def, Ideal.ofBits_zero_f32]

/-! ## The six combine layers -/

/-- The mix of the aggregate `a` with the first layer's output `x0`, entry by entry. -/
def hmix (a x0 : Vec Ideal S5000x128 .f32) : S5000x128.Idx → EReal := fun i =>
  Cert.Spec.c1 * a i + Cert.Spec.c2 * x0 i

/-- Combine layer 1's stored value at `(r, j)`: with `h` the mix, the positive part of
    `(ca·h(r, j) + cb·∑ₖ h(r, k)·w(k, j)) + x(r, j)`, `ca` and `cb` the layer's two constants. -/
theorem payC1 (a x0 x : Vec Ideal S5000x128 .f32) (w : Vec Ideal S128x128 .f32) (r : Fin 5000) (j : Fin 128) :
    Cert.KernelIdeal.Gen.k1_pay1 (F := Ideal) a x0 x w (ix2 r j)
      = max ((Cert.Spec.ca 0 * hmix a x0 (ix2 r j)
          + Cert.Spec.cb 0 * ∑ k : Fin 128, hmix a x0 (ix2 r k) * w (ix2 k j)) + x (ix2 r j)) 0 := by
  unfold Cert.KernelIdeal.Gen.k1_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-- Combine layer 2's stored value at `(r, j)`: with `h` the mix, the positive part of
    `(ca·h(r, j) + cb·∑ₖ h(r, k)·w(k, j)) + x(r, j)`, `ca` and `cb` the layer's two constants. -/
theorem payC2 (a x0 x : Vec Ideal S5000x128 .f32) (w : Vec Ideal S128x128 .f32) (r : Fin 5000) (j : Fin 128) :
    Cert.KernelIdeal.Gen.k2_pay1 (F := Ideal) a x0 x w (ix2 r j)
      = max ((Cert.Spec.ca 1 * hmix a x0 (ix2 r j)
          + Cert.Spec.cb 1 * ∑ k : Fin 128, hmix a x0 (ix2 r k) * w (ix2 k j)) + x (ix2 r j)) 0 := by
  unfold Cert.KernelIdeal.Gen.k2_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-- Combine layer 3's stored value at `(r, j)`: with `h` the mix, the positive part of
    `(ca·h(r, j) + cb·∑ₖ h(r, k)·w(k, j)) + x(r, j)`, `ca` and `cb` the layer's two constants. -/
theorem payC3 (a x0 x : Vec Ideal S5000x128 .f32) (w : Vec Ideal S128x128 .f32) (r : Fin 5000) (j : Fin 128) :
    Cert.KernelIdeal.Gen.k3_pay1 (F := Ideal) a x0 x w (ix2 r j)
      = max ((Cert.Spec.ca 2 * hmix a x0 (ix2 r j)
          + Cert.Spec.cb 2 * ∑ k : Fin 128, hmix a x0 (ix2 r k) * w (ix2 k j)) + x (ix2 r j)) 0 := by
  unfold Cert.KernelIdeal.Gen.k3_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-- Combine layer 4's stored value at `(r, j)`: with `h` the mix, the positive part of
    `(ca·h(r, j) + cb·∑ₖ h(r, k)·w(k, j)) + x(r, j)`, `ca` and `cb` the layer's two constants. -/
theorem payC4 (a x0 x : Vec Ideal S5000x128 .f32) (w : Vec Ideal S128x128 .f32) (r : Fin 5000) (j : Fin 128) :
    Cert.KernelIdeal.Gen.k4_pay1 (F := Ideal) a x0 x w (ix2 r j)
      = max ((Cert.Spec.ca 3 * hmix a x0 (ix2 r j)
          + Cert.Spec.cb 3 * ∑ k : Fin 128, hmix a x0 (ix2 r k) * w (ix2 k j)) + x (ix2 r j)) 0 := by
  unfold Cert.KernelIdeal.Gen.k4_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-- Combine layer 5's stored value at `(r, j)`: with `h` the mix, the positive part of
    `(ca·h(r, j) + cb·∑ₖ h(r, k)·w(k, j)) + x(r, j)`, `ca` and `cb` the layer's two constants. -/
theorem payC5 (a x0 x : Vec Ideal S5000x128 .f32) (w : Vec Ideal S128x128 .f32) (r : Fin 5000) (j : Fin 128) :
    Cert.KernelIdeal.Gen.k5_pay1 (F := Ideal) a x0 x w (ix2 r j)
      = max ((Cert.Spec.ca 4 * hmix a x0 (ix2 r j)
          + Cert.Spec.cb 4 * ∑ k : Fin 128, hmix a x0 (ix2 r k) * w (ix2 k j)) + x (ix2 r j)) 0 := by
  unfold Cert.KernelIdeal.Gen.k5_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-- Combine layer 6's stored value at `(r, j)`: with `h` the mix, the positive part of
    `(ca·h(r, j) + cb·∑ₖ h(r, k)·w(k, j)) + x(r, j)`, `ca` and `cb` the layer's two constants. -/
theorem payC6 (a x0 x : Vec Ideal S5000x128 .f32) (w : Vec Ideal S128x128 .f32) (r : Fin 5000) (j : Fin 128) :
    Cert.KernelIdeal.Gen.k6_pay1 (F := Ideal) a x0 x w (ix2 r j)
      = max ((Cert.Spec.ca 5 * hmix a x0 (ix2 r j)
          + Cert.Spec.cb 5 * ∑ k : Fin 128, hmix a x0 (ix2 r k) * w (ix2 k j)) + x (ix2 r j)) 0 := by
  unfold Cert.KernelIdeal.Gen.k6_pay1
  refine (maximumf_apply _ _ _).trans ?_
  rw [addf_apply, addf_apply, mulf_apply, mulf_apply, mm_layer]
  simp only [shapeCast_self, truncf_apply, broadcast_apply, addf_apply, mulf_apply, Ideal.ofBits_def,
    Ideal.ofBits_zero_f32]
  rfl

/-! ## The output layer -/

/-- The output layer's stored value at `(r, j)`: row `r` of the input against column `j` of the weights, plus the bias at `j`. -/
theorem pay7 (x : Vec Ideal S5000x128 .f32) (w : Vec Ideal S128x121 .f32) (b : Vec Ideal S1x121 .f32) (r : Fin 5000) (j : Fin 121) :
    Cert.KernelIdeal.Gen.k7_pay1 (F := Ideal) x w b (ix2 r j)
      = (∑ k : Fin 128, x (ix2 r k) * w (ix2 k j)) + b (ix2 0 j) := by
  unfold Cert.KernelIdeal.Gen.k7_pay1
  refine (addf_apply _ _ _).trans ?_
  rw [mm_out, broadcastTo_1b_ab_apply]
  simp only [shapeCast_self, truncf_apply]

end Cert.KPay

end
-- ==== Proof.KValBase.lean ====
/-
  Shared by the per-region value modules: the one row of a `[1, J]` array as a rank-one array, and the zero offsets of
  a whole-block rectangle.
-/
import proofs.«112903_j84559316124075_1_alg».proof.Proof.Spec
import Idealize.ShloMosaic.Lib.ValueIdx

noncomputable section

namespace Cert.KVal

open Idealize.ShloMosaic Idealize.ShloMosaic.ValueIdx

/-- The one row of a `[1, J]` array, as a rank-one array. -/
def rowOf {J : Nat} (b : Cert.Spec.A2 1 J) : Cert.Spec.A1 J := fun i => b (ix2 0 (i 0))

/-- The zero offsets of a rank-two rectangle, as the constant function. -/
theorem hz : (![0, 0] : Fin 2 → Nat) = fun _ => 0 := funext fun a => by fin_cases a <;> rfl

end Cert.KVal

end
-- ==== Proof.KVal0.lean ====
/-
  Region 0, from blocks to the whole array, at the extended reals.

  The region's ten points each write back one block of 5000 rows of the output. What a point writes back is the stored
  value of the point's input blocks; the node-feature block at point `t` is rows `5000·t … 5000·t + 4999` of its array
  and the weight and bias blocks are their whole arrays, so the entry `(r, j)` of the block written at point `t` is the
  input layer of the whole arrays at `(5000·t + r, j)`. The ten blocks tile the output, so the output array ends as the
  input layer of the arrays the region found.
-/
import proofs.«112903_j84559316124075_1_alg».proof.Proof.KernelIdeal.Reg0
import proofs.«112903_j84559316124075_1_alg».proof.Proof.KPay
import proofs.«112903_j84559316124075_1_alg».proof.Proof.Spec
import proofs.«112903_j84559316124075_1_alg».proof.Proof.KValBase
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## One entry of a block -/

/-- The stored value at `(r, j)` of a block whose input rows are rows of the whole arrays: the input layer at row `R`. -/
theorem point0 (X : Vec Ideal S5000x50 .f32) (W : Vec Ideal S50x128 .f32) (B : Vec Ideal S1x128 .f32)
    (AX : Cert.Spec.A2 50000 50) (AW : Cert.Spec.A2 50 128) (AB : Cert.Spec.A2 1 128)
    (R : Fin 50000) (r : Fin 5000) (j : Fin 128)
    (hX : ∀ k : Fin 50, X (ix2 r k) = AX (ix2 R k)) (hW : ∀ k : Fin 50, W (ix2 k j) = AW (ix2 k j))
    (hB : B (ix2 0 j) = AB (ix2 0 j)) :
    k0_pay1 (F := Ideal) X W B (ix2 r j) = Cert.Spec.relu (Cert.Spec.lin AX AW (rowOf AB)) (ix2 R j) := by
  rw [Cert.KPay.pay0]
  show _ = max ((∑ k : Fin 50, AX (ix2 R k) * AW (ix2 k j)) + AB (ix2 0 j)) 0
  simp only [hX, hW, hB]

/-! ## The index maps over the grid -/

/-- The printed index maps, decided over the ten points: the node features and the output move one block of rows per
    point, the weights and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as rows of their arrays -/

/-- The node-feature block at point `t` is rows `5000·t … 5000·t + 4999` of the array. -/
theorem iblk0_0_apply (c : Dev nD) (t : Fin cfg0.N) (r : Fin 5000) (k : Fin 50) (R : Fin 50000)
    (hR : R.val = 5000 * t.val + r.val) :
    (iblk0 V c 0 t : Vec Ideal S5000x50 .f32) (ix2 r k) = (V c (Pipeline.arrRef spec0 0) : Cert.Spec.A2 50000 50) (ix2 R k) := by
  obtain ⟨e0, e1, -⟩ := idx_facts0 t
  show V c (Pipeline.arrRef spec0 0) (((cfg0.win 0).blk t).view.emb (ix2 r k)) = V c (Pipeline.arrRef spec0 0) (ix2 R k)
  refine congrArg _ (funext fun a => Fin.ext ?_)
  match a with
  | ⟨0, _⟩ => show win0_0.index t (0 : Fin 2) * 5000 + 1 * r.val = R.val; omega
  | ⟨1, _⟩ => show win0_0.index t (1 : Fin 2) * 50 + 1 * k.val = k.val; omega

/-- The weight block at every point is the whole matrix. -/
theorem iblk0_1_apply (c : Dev nD) (t : Fin cfg0.N) (k : Fin 50) (j : Fin 128) :
    (iblk0 V c 1 t : Vec Ideal S50x128 .f32) (ix2 k j) = (V c (Pipeline.arrRef spec0 1) : Cert.Spec.A2 50 128) (ix2 k j) := by
  obtain ⟨-, -, e0, e1, -⟩ := idx_facts0 t
  show V c (Pipeline.arrRef spec0 1) (((cfg0.win 1).blk t).view.emb (ix2 k j)) = V c (Pipeline.arrRef spec0 1) (ix2 k j)
  refine congrArg _ (funext fun a => Fin.ext ?_)
  match a with
  | ⟨0, _⟩ => show win0_1.index t (0 : Fin 2) * 50 + 1 * k.val = k.val; omega
  | ⟨1, _⟩ => show win0_1.index t (1 : Fin 2) * 128 + 1 * j.val = j.val; omega

/-- The bias block at every point is the whole row. -/
theorem iblk0_2_apply (c : Dev nD) (t : Fin cfg0.N) (j : Fin 128) :
    (iblk0 V c 2 t : Vec Ideal S1x128 .f32) (ix2 0 j) = (V c (Pipeline.arrRef spec0 2) : Cert.Spec.A2 1 128) (ix2 0 j) := by
  obtain ⟨-, -, -, -, e0, e1, -⟩ := idx_facts0 t
  show V c (Pipeline.arrRef spec0 2) (((cfg0.win 2).blk t).view.emb (ix2 0 j)) = V c (Pipeline.arrRef spec0 2) (ix2 0 j)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * j.val = j.val; omega

/-! ## What a point writes back, and the whole array -/

/-- The array the region leaves: the input layer of the whole arrays. -/
abbrev G0 (c : Dev nD) : Cert.Spec.A2 50000 128 :=
  Cert.Spec.relu (Cert.Spec.lin (V c (Pipeline.arrRef spec0 0)) (V c (Pipeline.arrRef spec0 1)) (rowOf (V c (Pipeline.arrRef spec0 2))))

/-- What point `t` writes back is block `t` of that array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x50) hz, View.ld_unit_zero (S := S50x128) hz, View.ld_unit_zero (S := S1x128) hz]
  obtain ⟨-, -, -, -, -, -, e0, e1⟩ := idx_facts0 t
  have hN : t.val < 10 := lt_of_lt_of_eq t.isLt N_0
  funext y
  have h0 : (y 0).val < 5000 := (y 0).isLt
  have h1 : (y 1).val < 128 := (y 1).isLt
  have ex : (cfg0.win 3).xinj (grid0.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg0.win 3).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win0_3.index t (0 : Fin 2) * 5000 + 1 * (y 0).val = 5000 * t.val + (y 0).val; omega
      | ⟨1, _⟩ => show win0_3.index t (1 : Fin 2) * 128 + 1 * (y 1).val = (y 1).val; omega)
  show k0_pay1 (F := Ideal) (iblk0 V c 0 t) (iblk0 V c 1 t) (iblk0 V c 2 t) ((cfg0.win 3).xinj (grid0.coords t) y)
    = G0 V c (((cfg0.win 3).blk t).view.emb y)
  rw [ex, ee]
  exact point0 _ _ _ _ _ _ _ _ _ (fun k => iblk0_0_apply V c t _ k _ rfl) (fun k => iblk0_1_apply V c t k _)
    (iblk0_2_apply V c t _)

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Every row of the array is in some point's block: row `R` in that of point `R / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := idx_facts0 t
  have et : t.val = (i 0).val / 5000 := rfl
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY region 0 leaves is the input layer of the arrays it found. -/
theorem final0 (c : Dev nD) : (dat0 V c).arrAt 3 cfg0.N
    = Cert.Spec.relu (Cert.Spec.lin (V c (Pipeline.arrRef spec0 0)) (V c (Pipeline.arrRef spec0 1)) (rowOf (V c (Pipeline.arrRef spec0 2)))) :=
  (dat0 V c).arrAt_eq_of_cover 3 (G0 V c) (fun t _ => flushed0_eq V c t) cover0

end Cert.KVal

end
-- ==== Proof.KValComb.lean ====
/-
  Shared by the six combine regions: the combine step's stored value at one entry of a block, once the block's input
  rows are known to be rows of the whole arrays, is the specification's combine step at the corresponding row.
-/
import proofs.«112903_j84559316124075_1_alg».proof.Proof.KPay
import proofs.«112903_j84559316124075_1_alg».proof.Proof.Spec

noncomputable section

namespace Cert.KVal

open Cert.KernelIdeal Cert.KernelIdeal.Gen
open Idealize.ShloMosaic Idealize.ShloMosaic.ValueIdx
open scoped BigOperators

/-- With `h` the mix of the aggregate block and the first layer's block, `max ((ca·h(r, j) + cb·∑ₖ h(r, k)·W(k, j)) +
    X(r, j)) 0` is the combine step of the whole arrays at `(R, j)` when row `r` of each block is row `R` of its array. -/
theorem comb_of_rows (ca cb : EReal) (A X0 X : Vec Ideal S5000x128 .f32) (W : Vec Ideal S128x128 .f32)
    (AA AX0 AX : Cert.Spec.A2 50000 128) (AW : Cert.Spec.A2 128 128) (R : Fin 50000) (r : Fin 5000) (j : Fin 128)
    (hA : ∀ k : Fin 128, A (ix2 r k) = AA (ix2 R k)) (hX0 : ∀ k : Fin 128, X0 (ix2 r k) = AX0 (ix2 R k))
    (hX : X (ix2 r j) = AX (ix2 R j)) (hW : ∀ k : Fin 128, W (ix2 k j) = AW (ix2 k j)) :
    max ((ca * Cert.KPay.hmix A X0 (ix2 r j) + cb * ∑ k : Fin 128, Cert.KPay.hmix A X0 (ix2 r k) * W (ix2 k j)) + X (ix2 r j)) 0
      = Cert.Spec.comb Cert.Spec.c1 Cert.Spec.c2 ca cb AA AX0 AX AW (ix2 R j) := by
  show _ = max ((ca * Cert.Spec.mix Cert.Spec.c1 Cert.Spec.c2 AA AX0 (ix2 R j)
    + cb * ∑ k : Fin 128, Cert.Spec.mix Cert.Spec.c1 Cert.Spec.c2 AA AX0 (ix2 R k) * AW (ix2 k j)) + AX (ix2 R j)) 0
  simp only [Cert.KPay.hmix, Cert.Spec.mix, hA, hX0, hX, hW]

end Cert.KVal

end
-- ==== Proof.KVal1.lean ====
/-
  Region 1, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 0's constants, of the arrays the region found.
-/
import proofs.«112903_j84559316124075_1_alg».proof.Proof.KernelIdeal.Reg1
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks as rows of their arrays -/

/-- The aggregate block at point `t` is rows `5000·t … 5000·t + 4999` of its array. -/
theorem iblk1_0_apply (c : Dev nD) (t : Fin cfg1.N) (r : Fin 5000) (k : Fin 128) (R : Fin 50000)
    (hR : R.val = 5000 * t.val + r.val) :
    (iblk1 V c 0 t : Vec Ideal S5000x128 .f32) (ix2 r k) = (V c (Pipeline.arrRef spec1 0) : Cert.Spec.A2 50000 128) (ix2 R k) := by
  obtain ⟨a0, a1, b0, b1, c0, c1, -⟩ := idx_facts1 t
  show V c (Pipeline.arrRef spec1 0) (((cfg1.win 0).blk t).view.emb (ix2 r k)) = V c (Pipeline.arrRef spec1 0) (ix2 R k)
  refine congrArg _ (funext fun a => Fin.ext ?_)
  match a with
  | ⟨0, _⟩ => show win1_0.index t (0 : Fin 2) * 5000 + 1 * r.val = R.val; omega
  | ⟨1, _⟩ => show win1_0.index t (1 : Fin 2) * 128 + 1 * k.val = k.val; omega

/-- The first layer's block at point `t` is rows `5000·t … 5000·t + 4999` of its array. -/
theorem iblk1_1_apply (c : Dev nD) (t : Fin cfg1.N) (r : Fin 5000) (k : Fin 128) (R : Fin 50000)
    (hR : R.val = 5000 * t.val + r.val) :
    (iblk1 V c 1 t : Vec Ideal S5000x128 .f32) (ix2 r k) = (V c (Pipeline.arrRef spec1 1) : Cert.Spec.A2 50000 128) (ix2 R k) := by
  obtain ⟨a0, a1, b0, b1, c0, c1, -⟩ := idx_facts1 t
  show V c (Pipeline.arrRef spec1 1) (((cfg1.win 1).blk t).view.emb (ix2 r k)) = V c (Pipeline.arrRef spec1 1) (ix2 R k)
  refine congrArg _ (funext fun a => Fin.ext ?_)
  match a with
  | ⟨0, _⟩ => show win1_1.index t (0 : Fin 2) * 5000 + 1 * r.val = R.val; omega
  | ⟨1, _⟩ => show win1_1.index t (1 : Fin 2) * 128 + 1 * k.val = k.val; omega

/-- The layer input's block at point `t` is rows `5000·t … 5000·t + 4999` of its array. -/
theorem iblk1_2_apply (c : Dev nD) (t : Fin cfg1.N) (r : Fin 5000) (k : Fin 128) (R : Fin 50000)
    (hR : R.val = 5000 * t.val + r.val) :
    (iblk1 V c 2 t : Vec Ideal S5000x128 .f32) (ix2 r k) = (V c (Pipeline.arrRef spec1 2) : Cert.Spec.A2 50000 128) (ix2 R k) := by
  obtain ⟨a0, a1, b0, b1, c0, c1, -⟩ := idx_facts1 t
  show V c (Pipeline.arrRef spec1 2) (((cfg1.win 2).blk t).view.emb (ix2 r k)) = V c (Pipeline.arrRef spec1 2) (ix2 R k)
  refine congrArg _ (funext fun a => Fin.ext ?_)
  match a with
  | ⟨0, _⟩ => show win1_2.index t (0 : Fin 2) * 5000 + 1 * r.val = R.val; omega
  | ⟨1, _⟩ => show win1_2.index t (1 : Fin 2) * 128 + 1 * k.val = k.val; omega

/-- The weight block at every point is the whole matrix. -/
theorem iblk1_3_apply (c : Dev nD) (t : Fin cfg1.N) (k : Fin 128) (j : Fin 128) :
    (iblk1 V c 3 t : Vec Ideal S128x128 .f32) (ix2 k j) = (V c (Pipeline.arrRef spec1 3) : Cert.Spec.A2 128 128) (ix2 k j) := by
  obtain ⟨-, -, -, -, -, -, e0, e1, -⟩ := idx_facts1 t
  show V c (Pipeline.arrRef spec1 3) (((cfg1.win 3).blk t).view.emb (ix2 k j)) = V c (Pipeline.arrRef spec1 3) (ix2 k j)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-! ## What a point writes back, and the whole array -/

/-- The array the region leaves: the combine step of the whole arrays. -/
abbrev G1 (c : Dev nD) : Cert.Spec.A2 50000 128 :=
  Cert.Spec.comb Cert.Spec.c1 Cert.Spec.c2 (Cert.Spec.ca 0) (Cert.Spec.cb 0) (V c (Pipeline.arrRef spec1 0))
    (V c (Pipeline.arrRef spec1 1)) (V c (Pipeline.arrRef spec1 2)) (V c (Pipeline.arrRef spec1 3))

/-- What point `t` writes back is block `t` of that array. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  obtain ⟨-, -, -, -, -, -, -, -, e0, e1⟩ := idx_facts1 t
  have hN : t.val < 10 := lt_of_lt_of_eq t.isLt N_1
  funext y
  have h0 : (y 0).val < 5000 := (y 0).isLt
  have h1 : (y 1).val < 128 := (y 1).isLt
  have ex : (cfg1.win 4).xinj (grid1.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg1.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win1_4.index t (0 : Fin 2) * 5000 + 1 * (y 0).val = 5000 * t.val + (y 0).val; omega
      | ⟨1, _⟩ => show win1_4.index t (1 : Fin 2) * 128 + 1 * (y 1).val = (y 1).val; omega)
  show k1_pay1 (F := Ideal) (iblk1 V c 0 t) (iblk1 V c 1 t) (iblk1 V c 2 t) (iblk1 V c 3 t)
      ((cfg1.win 4).xinj (grid1.coords t) y)
    = G1 V c (((cfg1.win 4).blk t).view.emb y)
  rw [ex, ee]
  refine (Cert.KPay.payC1 _ _ _ _ _ _).trans ?_
  exact comb_of_rows _ _ _ _ _ _ _ _ _ _ _ _ _ (fun k => iblk1_0_apply V c t _ k _ rfl)
    (fun k => iblk1_1_apply V c t _ k _ rfl) (iblk1_2_apply V c t _ _ _ rfl) (fun k => iblk1_3_apply V c t k _)

/-- An index of the array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v21).slice (win1_4.rect t)).set ↔ _
  rw [View.set_slice_whole, Rect.mem_set_unit]
  exact Iff.rfl

/-- Every row of the array is in some point's block: row `R` in that of point `R / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e0, e1⟩ := idx_facts1 t
  have et : t.val = (i 0).val / 5000 := rfl
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- THE ARRAY region 1 leaves is the combine step, with layer 0's constants, of the arrays it found. -/
theorem final1 (c : Dev nD) : (dat1 V c).arrAt 4 cfg1.N
    = Cert.Spec.comb Cert.Spec.c1 Cert.Spec.c2 (Cert.Spec.ca 0) (Cert.Spec.cb 0) (V c (Pipeline.arrRef spec1 0))
        (V c (Pipeline.arrRef spec1 1)) (V c (Pipeline.arrRef spec1 2)) (V c (Pipeline.arrRef spec1 3)) :=
  (dat1 V c).arrAt_eq_of_cover 4 (G1 V c) (fun t _ => flushed1_eq V c t) cover1

end Cert.KVal

end
-- ==== Proof.KVal2.lean ====
/-
  Region 2, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 1's constants, of the arrays the region found.
-/
import proofs.«112903_j84559316124075_1_alg».proof.Proof.KernelIdeal.Reg2
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The input blocks as rows of their arrays -/

/-- The aggregate block at point `t` is rows `5000·t … 5000·t + 4999` of its array. -/
theorem iblk2_0_apply (c : Dev nD) (t : Fin cfg2.N) (r : Fin 5000) (k : Fin 128) (R : Fin 50000)
    (hR : R.val = 5000 * t.val + r.val) :
    (iblk2 V c 0 t : Vec Ideal S5000x128 .f32) (ix2 r k) = (V c (Pipeline.arrRef spec2 0) : Cert.Spec.A2 50000 128) (ix2 R k) := by
  obtain ⟨a0, a1, b0, b1, c0, c1, -⟩ := idx_facts2 t
  show V c (Pipeline.arrRef spec2 0) (((cfg2.win 0).blk t).view.emb (ix2 r k)) = V c (Pipeline.arrRef spec2 0) (ix2 R k)
  refine congrArg _ (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

/-- The first layer's block at point `t` is rows `5000·t … 5000·t + 4999` of its array. -/
theorem iblk2_1_apply (c : Dev nD) (t : Fin cfg2.N) (r : Fin 5000) (k : Fin 128) (R : Fin 50000)
    (hR : R.val = 5000 * t.val + r.val) :
    (iblk2 V c 1 t : Vec Ideal S5000x128 .f32) (ix2 r k) = (V c (Pipeline.arrRef spec2 1) : Cert.Spec.A2 50000 128) (ix2 R k) := by
  obtain ⟨a0, a1, b0, b1, c0, c1, -⟩ := idx_facts2 t
  show V c (Pipeline.arrRef spec2 1) (((cfg2.win 1).blk t).view.emb (ix2 r k)) = V c (Pipeline.arrRef spec2 1) (ix2 R k)
  refine congrArg _ (funext fun a => Fin.ext ?_)
  match a with
  | ⟨0, _⟩ => show win2_1.index t (0 : Fin 2) * 5000 + 1 * r.val = R.val; omega
  | ⟨1, _⟩ => show win2_1.index t (1 : Fin 2) * 128 + 1 * k.val = k.val; omega

/-- The layer input's block at point `t` is rows `5000·t … 5000·t + 4999` of its array. -/
theorem iblk2_2_apply (c : Dev nD) (t : Fin cfg2.N) (r : Fin 5000) (k : Fin 128) (R : Fin 50000)
    (hR : R.val = 5000 * t.val + r.val) :
    (iblk2 V c 2 t : Vec Ideal S5000x128 .f32) (ix2 r k) = (V c (Pipeline.arrRef spec2 2) : Cert.Spec.A2 50000 128) (ix2 R k) := by
  obtain ⟨a0, a1, b0, b1, c0, c1, -⟩ := idx_facts2 t
  show V c (Pipeline.arrRef spec2 2) (((cfg2.win 2).blk t).view.emb (ix2 r k)) = V c (Pipeline.arrRef spec2 2) (ix2 R k)
  refine congrArg _ (funext fun a => Fin.ext ?_)
  match a with
  | ⟨0, _⟩ => show win2_2.index t (0 : Fin 2) * 5000 + 1 * r.val = R.val; omega
  | ⟨1, _⟩ => show win2_2.index t (1 : Fin 2) * 128 + 1 * k.val = k.val; omega

/-- The weight block at every point is the whole matrix. -/
theorem iblk2_3_apply (c : Dev nD) (t : Fin cfg2.N) (k : Fin 128) (j : Fin 128) :
    (iblk2 V c 3 t : Vec Ideal S128x128 .f32) (ix2 k j) = (V c (Pipeline.arrRef spec2 3) : Cert.Spec.A2 128 128) (ix2 k j) := by
  obtain ⟨-, -, -, -, -, -, e0, e1, -⟩ := idx_facts2 t
  show V c (Pipeline.arrRef spec2 3) (((cfg2.win 3).blk t).view.emb (ix2 k j)) = V c (Pipeline.arrRef spec2 3) (ix2 k j)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * j.val = j.val; omega

/-! ## What a point writes back, and the whole array -/

/-- The array the region leaves: the combine step of the whole arrays. -/
abbrev G2 (c : Dev nD) : Cert.Spec.A2 50000 128 :=
  Cert.Spec.comb Cert.Spec.c1 Cert.Spec.c2 (Cert.Spec.ca 1) (Cert.Spec.cb 1) (V c (Pipeline.arrRef spec2 0))
    (V c (Pipeline.arrRef spec2 1)) (V c (Pipeline.arrRef spec2 2)) (V c (Pipeline.arrRef spec2 3))

/-- What point `t` writes back is block `t` of that array. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨-, -, -, -, -, -, -, -, e0, e1⟩ := idx_facts2 t
  have hN : t.val < 10 := lt_of_lt_of_eq t.isLt N_2
  funext y
  have h0 : (y 0).val < 5000 := (y 0).isLt
  have h1 : (y 1).val < 128 := (y 1).isLt
  have ex : (cfg2.win 4).xinj (grid2.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg2.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win2_4.index t (0 : Fin 2) * 5000 + 1 * (y 0).val = 5000 * t.val + (y 0).val; omega
      | ⟨1, _⟩ => show win2_4.index t (1 : Fin 2) * 128 + 1 * (y 1).val = (y 1).val; omega)
  show k2_pay1 (F := Ideal) (iblk2 V c 0 t) (iblk2 V c 1 t) (iblk2 V c 2 t) (iblk2 V c 3 t)
      ((cfg2.win 4).xinj (grid2.coords t) y)
    = G2 V c (((cfg2.win 4).blk t).view.emb y)
  rw [ex, ee]
  refine (Cert.KPay.payC2 _ _ _ _ _ _).trans ?_
  exact comb_of_rows _ _ _ _ _ _ _ _ _ _ _ _ _ (fun k => iblk2_0_apply V c t _ k _ rfl)
    (fun k => iblk2_1_apply V c t _ k _ rfl) (iblk2_2_apply V c t _ _ _ rfl) (fun k => iblk2_3_apply V c t k _)

/-- An index of the array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v37).slice (win2_4.rect t)).set ↔ _
  rw [View.set_slice_whole, Rect.mem_set_unit]
  exact Iff.rfl

/-- Every row of the array is in some point's block: row `R` in that of point `R / 5000`. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, e0, e1⟩ := idx_facts2 t
  have et : t.val = (i 0).val / 5000 := rfl
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- THE ARRAY region 2 leaves is the combine step, with layer 1's constants, of the arrays it found. -/
theorem final2 (c : Dev nD) : (dat2 V c).arrAt 4 cfg2.N
    = Cert.Spec.comb Cert.Spec.c1 Cert.Spec.c2 (Cert.Spec.ca 1) (Cert.Spec.cb 1) (V c (Pipeline.arrRef spec2 0))
        (V c (Pipeline.arrRef spec2 1)) (V c (Pipeline.arrRef spec2 2)) (V c (Pipeline.arrRef spec2 3)) :=
  (dat2 V c).arrAt_eq_of_cover 4 (G2 V c) (fun t _ => flushed2_eq V c t) cover2

end Cert.KVal

end
-- ==== Proof.KVal3.lean ====
/-
  Region 3, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 2's constants, of the arrays the region found.
-/
import proofs.«112903_j84559316124075_1_alg».proof.Proof.KernelIdeal.Reg3
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## The input blocks as rows of their arrays -/

/-- The aggregate block at point `t` is rows `5000·t … 5000·t + 4999` of its array. -/
theorem iblk3_0_apply (c : Dev nD) (t : Fin cfg3.N) (r : Fin 5000) (k : Fin 128) (R : Fin 50000)
    (hR : R.val = 5000 * t.val + r.val) :
    (iblk3 V c 0 t : Vec Ideal S5000x128 .f32) (ix2 r k) = (V c (Pipeline.arrRef spec3 0) : Cert.Spec.A2 50000 128) (ix2 R k) := by
  obtain ⟨a0, a1, b0, b1, c0, c1, -⟩ := idx_facts3 t
  show V c (Pipeline.arrRef spec3 0) (((cfg3.win 0).blk t).view.emb (ix2 r k)) = V c (Pipeline.arrRef spec3 0) (ix2 R k)
  refine congrArg _ (funext fun a => Fin.ext ?_)
  match a with
  | ⟨0, _⟩ => show win3_0.index t (0 : Fin 2) * 5000 + 1 * r.val = R.val; omega
  | ⟨1, _⟩ => show win3_0.index t (1 : Fin 2) * 128 + 1 * k.val = k.val; omega

/-- The first layer's block at point `t` is rows `5000·t … 5000·t + 4999` of its array. -/
theorem iblk3_1_apply (c : Dev nD) (t : Fin cfg3.N) (r : Fin 5000) (k : Fin 128) (R : Fin 50000)
    (hR : R.val = 5000 * t.val + r.val) :
    (iblk3 V c 1 t : Vec Ideal S5000x128 .f32) (ix2 r k) = (V c (Pipeline.arrRef spec3 1) : Cert.Spec.A2 50000 128) (ix2 R k) := by
  obtain ⟨a0, a1, b0, b1, c0, c1, -⟩ := idx_facts3 t
  show V c (Pipeline.arrRef spec3 1) (((cfg3.win 1).blk t).view.emb (ix2 r k)) = V c (Pipeline.arrRef spec3 1) (ix2 R k)
  refine congrArg _ (funext fun a => Fin.ext ?_)
  match a with
  | ⟨0, _⟩ => show win3_1.index t (0 : Fin 2) * 5000 + 1 * r.val = R.val; omega
  | ⟨1, _⟩ => show win3_1.index t (1 : Fin 2) * 128 + 1 * k.val = k.val; omega

/-- The layer input's block at point `t` is rows `5000·t … 5000·t + 4999` of its array. -/
theorem iblk3_2_apply (c : Dev nD) (t : Fin cfg3.N) (r : Fin 5000) (k : Fin 128) (R : Fin 50000)
    (hR : R.val = 5000 * t.val + r.val) :
    (iblk3 V c 2 t : Vec Ideal S5000x128 .f32) (ix2 r k) = (V c (Pipeline.arrRef spec3 2) : Cert.Spec.A2 50000 128) (ix2 R k) := by
  obtain ⟨a0, a1, b0, b1, c0, c1, -⟩ := idx_facts3 t
  show V c (Pipeline.arrRef spec3 2) (((cfg3.win 2).blk t).view.emb (ix2 r k)) = V c (Pipeline.arrRef spec3 2) (ix2 R k)
  refine congrArg _ (funext fun a => Fin.ext ?_)
  match a with
  | ⟨0, _⟩ => show win3_2.index t (0 : Fin 2) * 5000 + 1 * r.val = R.val; omega
  | ⟨1, _⟩ => show win3_2.index t (1 : Fin 2) * 128 + 1 * k.val = k.val; omega

/-- The weight block at every point is the whole matrix. -/
theorem iblk3_3_apply (c : Dev nD) (t : Fin cfg3.N) (k : Fin 128) (j : Fin 128) :
    (iblk3 V c 3 t : Vec Ideal S128x128 .f32) (ix2 k j) = (V c (Pipeline.arrRef spec3 3) : Cert.Spec.A2 128 128) (ix2 k j) := by
  obtain ⟨-, -, -, -, -, -, e0, e1, -⟩ := idx_facts3 t
  show V c (Pipeline.arrRef spec3 3) (((cfg3.win 3).blk t).view.emb (ix2 k j)) = V c (Pipeline.arrRef spec3 3) (ix2 k j)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * j.val = j.val; omega

/-! ## What a point writes back, and the whole array -/

/-- The array the region leaves: the combine step of the whole arrays. -/
abbrev G3 (c : Dev nD) : Cert.Spec.A2 50000 128 :=
  Cert.Spec.comb Cert.Spec.c1 Cert.Spec.c2 (Cert.Spec.ca 2) (Cert.Spec.cb 2) (V c (Pipeline.arrRef spec3 0))
    (V c (Pipeline.arrRef spec3 1)) (V c (Pipeline.arrRef spec3 2)) (V c (Pipeline.arrRef spec3 3))

/-- What point `t` writes back is block `t` of that array. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz]
  obtain ⟨-, -, -, -, -, -, -, -, e0, e1⟩ := idx_facts3 t
  have hN : t.val < 10 := lt_of_lt_of_eq t.isLt N_3
  funext y
  have h0 : (y 0).val < 5000 := (y 0).isLt
  have h1 : (y 1).val < 128 := (y 1).isLt
  have ex : (cfg3.win 4).xinj (grid3.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg3.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win3_4.index t (0 : Fin 2) * 5000 + 1 * (y 0).val = 5000 * t.val + (y 0).val; omega
      | ⟨1, _⟩ => show win3_4.index t (1 : Fin 2) * 128 + 1 * (y 1).val = (y 1).val; omega)
  show k3_pay1 (F := Ideal) (iblk3 V c 0 t) (iblk3 V c 1 t) (iblk3 V c 2 t) (iblk3 V c 3 t)
      ((cfg3.win 4).xinj (grid3.coords t) y)
    = G3 V c (((cfg3.win 4).blk t).view.emb y)
  rw [ex, ee]
  refine (Cert.KPay.payC3 _ _ _ _ _ _).trans ?_
  exact comb_of_rows _ _ _ _ _ _ _ _ _ _ _ _ _ (fun k => iblk3_0_apply V c t _ k _ rfl)
    (fun k => iblk3_1_apply V c t _ k _ rfl) (iblk3_2_apply V c t _ _ _ rfl) (fun k => iblk3_3_apply V c t k _)

/-- An index of the array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v53).slice (win3_4.rect t)).set ↔ _
  rw [View.set_slice_whole, Rect.mem_set_unit]
  exact Iff.rfl

/-- Every row of the array is in some point's block: row `R` in that of point `R / 5000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, e0, e1⟩ := idx_facts3 t
  have et : t.val = (i 0).val / 5000 := rfl
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- THE ARRAY region 3 leaves is the combine step, with layer 2's constants, of the arrays it found. -/
theorem final3 (c : Dev nD) : (dat3 V c).arrAt 4 cfg3.N
    = Cert.Spec.comb Cert.Spec.c1 Cert.Spec.c2 (Cert.Spec.ca 2) (Cert.Spec.cb 2) (V c (Pipeline.arrRef spec3 0))
        (V c (Pipeline.arrRef spec3 1)) (V c (Pipeline.arrRef spec3 2)) (V c (Pipeline.arrRef spec3 3)) :=
  (dat3 V c).arrAt_eq_of_cover 4 (G3 V c) (fun t _ => flushed3_eq V c t) cover3

end Cert.KVal

end
-- ==== Proof.KVal4.lean ====
/-
  Region 4, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 3's constants, of the arrays the region found.
-/
import proofs.«112903_j84559316124075_1_alg».proof.Proof.KernelIdeal.Reg4
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-! ## The input blocks as rows of their arrays -/

/-- The aggregate block at point `t` is rows `5000·t … 5000·t + 4999` of its array. -/
theorem iblk4_0_apply (c : Dev nD) (t : Fin cfg4.N) (r : Fin 5000) (k : Fin 128) (R : Fin 50000)
    (hR : R.val = 5000 * t.val + r.val) :
    (iblk4 V c 0 t : Vec Ideal S5000x128 .f32) (ix2 r k) = (V c (Pipeline.arrRef spec4 0) : Cert.Spec.A2 50000 128) (ix2 R k) := by
  obtain ⟨a0, a1, b0, b1, c0, c1, -⟩ := idx_facts4 t
  show V c (Pipeline.arrRef spec4 0) (((cfg4.win 0).blk t).view.emb (ix2 r k)) = V c (Pipeline.arrRef spec4 0) (ix2 R k)
  refine congrArg _ (funext fun a => Fin.ext ?_)
  match a with
  | ⟨0, _⟩ => show win4_0.index t (0 : Fin 2) * 5000 + 1 * r.val = R.val; omega
  | ⟨1, _⟩ => show win4_0.index t (1 : Fin 2) * 128 + 1 * k.val = k.val; omega

/-- The first layer's block at point `t` is rows `5000·t … 5000·t + 4999` of its array. -/
theorem iblk4_1_apply (c : Dev nD) (t : Fin cfg4.N) (r : Fin 5000) (k : Fin 128) (R : Fin 50000)
    (hR : R.val = 5000 * t.val + r.val) :
    (iblk4 V c 1 t : Vec Ideal S5000x128 .f32) (ix2 r k) = (V c (Pipeline.arrRef spec4 1) : Cert.Spec.A2 50000 128) (ix2 R k) := by
  obtain ⟨a0, a1, b0, b1, c0, c1, -⟩ := idx_facts4 t
  show V c (Pipeline.arrRef spec4 1) (((cfg4.win 1).blk t).view.emb (ix2 r k)) = V c (Pipeline.arrRef spec4 1) (ix2 R k)
  refine congrArg _ (funext fun a => Fin.ext ?_)
  match a with
  | ⟨0, _⟩ => show win4_1.index t (0 : Fin 2) * 5000 + 1 * r.val = R.val; omega
  | ⟨1, _⟩ => show win4_1.index t (1 : Fin 2) * 128 + 1 * k.val = k.val; omega

/-- The layer input's block at point `t` is rows `5000·t … 5000·t + 4999` of its array. -/
theorem iblk4_2_apply (c : Dev nD) (t : Fin cfg4.N) (r : Fin 5000) (k : Fin 128) (R : Fin 50000)
    (hR : R.val = 5000 * t.val + r.val) :
    (iblk4 V c 2 t : Vec Ideal S5000x128 .f32) (ix2 r k) = (V c (Pipeline.arrRef spec4 2) : Cert.Spec.A2 50000 128) (ix2 R k) := by
  obtain ⟨a0, a1, b0, b1, c0, c1, -⟩ := idx_facts4 t
  show V c (Pipeline.arrRef spec4 2) (((cfg4.win 2).blk t).view.emb (ix2 r k)) = V c (Pipeline.arrRef spec4 2) (ix2 R k)
  refine congrArg _ (funext fun a => Fin.ext ?_)
  match a with
  | ⟨0, _⟩ => show win4_2.index t (0 : Fin 2) * 5000 + 1 * r.val = R.val; omega
  | ⟨1, _⟩ => show win4_2.index t (1 : Fin 2) * 128 + 1 * k.val = k.val; omega

/-- The weight block at every point is the whole matrix. -/
theorem iblk4_3_apply (c : Dev nD) (t : Fin cfg4.N) (k : Fin 128) (j : Fin 128) :
    (iblk4 V c 3 t : Vec Ideal S128x128 .f32) (ix2 k j) = (V c (Pipeline.arrRef spec4 3) : Cert.Spec.A2 128 128) (ix2 k j) := by
  obtain ⟨-, -, -, -, -, -, e0, e1, -⟩ := idx_facts4 t
  show V c (Pipeline.arrRef spec4 3) (((cfg4.win 3).blk t).view.emb (ix2 k j)) = V c (Pipeline.arrRef spec4 3) (ix2 k j)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * j.val = j.val; omega

/-! ## What a point writes back, and the whole array -/

/-- The array the region leaves: the combine step of the whole arrays. -/
abbrev G4 (c : Dev nD) : Cert.Spec.A2 50000 128 :=
  Cert.Spec.comb Cert.Spec.c1 Cert.Spec.c2 (Cert.Spec.ca 3) (Cert.Spec.cb 3) (V c (Pipeline.arrRef spec4 0))
    (V c (Pipeline.arrRef spec4 1)) (V c (Pipeline.arrRef spec4 2)) (V c (Pipeline.arrRef spec4 3))

/-- What point `t` writes back is block `t` of that array. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz]
  obtain ⟨-, -, -, -, -, -, -, -, e0, e1⟩ := idx_facts4 t
  have hN : t.val < 10 := lt_of_lt_of_eq t.isLt N_4
  funext y
  have h0 : (y 0).val < 5000 := (y 0).isLt
  have h1 : (y 1).val < 128 := (y 1).isLt
  have ex : (cfg4.win 4).xinj (grid4.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg4.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win4_4.index t (0 : Fin 2) * 5000 + 1 * (y 0).val = 5000 * t.val + (y 0).val; omega
      | ⟨1, _⟩ => show win4_4.index t (1 : Fin 2) * 128 + 1 * (y 1).val = (y 1).val; omega)
  show k4_pay1 (F := Ideal) (iblk4 V c 0 t) (iblk4 V c 1 t) (iblk4 V c 2 t) (iblk4 V c 3 t)
      ((cfg4.win 4).xinj (grid4.coords t) y)
    = G4 V c (((cfg4.win 4).blk t).view.emb y)
  rw [ex, ee]
  refine (Cert.KPay.payC4 _ _ _ _ _ _).trans ?_
  exact comb_of_rows _ _ _ _ _ _ _ _ _ _ _ _ _ (fun k => iblk4_0_apply V c t _ k _ rfl)
    (fun k => iblk4_1_apply V c t _ k _ rfl) (iblk4_2_apply V c t _ _ _ rfl) (fun k => iblk4_3_apply V c t k _)

/-- An index of the array is in point `t`'s block iff each coordinate is in the block's range on its axis. -/
theorem mem_blk4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v69).slice (win4_4.rect t)).set ↔ _
  rw [View.set_slice_whole, Rect.mem_set_unit]
  exact Iff.rfl

/-- Every row of the array is in some point's block: row `R` in that of point `R / 5000`. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, -, -, e0, e1⟩ := idx_facts4 t
  have et : t.val = (i 0).val / 5000 := rfl
  refine ⟨t, flush4_4 t, ?_⟩
  rw [mem_blk4]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

/-- THE ARRAY region 4 leaves is the combine step, with layer 3's constants, of the arrays it found. -/
theorem final4 (c : Dev nD) : (dat4 V c).arrAt 4 cfg4.N
    = Cert.Spec.comb Cert.Spec.c1 Cert.Spec.c2 (Cert.Spec.ca 3) (Cert.Spec.cb 3) (V c (Pipeline.arrRef spec4 0))
        (V c (Pipeline.arrRef spec4 1)) (V c (Pipeline.arrRef spec4 2)) (V c (Pipeline.arrRef spec4 3)) :=
  (dat4 V c).arrAt_eq_of_cover 4 (G4 V c) (fun t _ => flushed4_eq V c t) cover4

end Cert.KVal

end
-- ==== Proof.KVal5.lean ====
/-
  Region 5, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 4's constants, of the arrays the region found.
-/
import proofs.«112903_j84559316124075_1_alg».proof.Proof.KernelIdeal.Reg5
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-! ## The input blocks as rows of their arrays -/

/-- The aggregate block at point `t` is rows `5000·t … 5000·t + 4999` of its array. -/
theorem iblk5_0_apply (c : Dev nD) (t : Fin cfg5.N) (r : Fin 5000) (k : Fin 128) (R : Fin 50000)
    (hR : R.val = 5000 * t.val + r.val) :
    (iblk5 V c 0 t : Vec Ideal S5000x128 .f32) (ix2 r k) = (V c (Pipeline.arrRef spec5 0) : Cert.Spec.A2 50000 128) (ix2 R k) := by
  obtain ⟨a0, a1, b0, b1, c0, c1, -⟩ := idx_facts5 t
  show V c (Pipeline.arrRef spec5 0) (((cfg5.win 0).blk t).view.emb (ix2 r k)) = V c (Pipeline.arrRef spec5 0) (ix2 R k)
  refine congrArg _ (funext fun a => Fin.ext ?_)
  match a with
  | ⟨0, _⟩ => show win5_0.index t (0 : Fin 2) * 5000 + 1 * r.val = R.val; omega
  | ⟨1, _⟩ => show win5_0.index t (1 : Fin 2) * 128 + 1 * k.val = k.val; omega

/-- The first layer's block at point `t` is rows `5000·t … 5000·t + 4999` of its array. -/
theorem iblk5_1_apply (c : Dev nD) (t : Fin cfg5.N) (r : Fin 5000) (k : Fin 128) (R : Fin 50000)
    (hR : R.val = 5000 * t.val + r.val) :
    (iblk5 V c 1 t : Vec Ideal S5000x128 .f32) (ix2 r k) = (V c (Pipeline.arrRef spec5 1) : Cert.Spec.A2 50000 128) (ix2 R k) := by
  obtain ⟨a0, a1, b0, b1, c0, c1, -⟩ := idx_facts5 t
  show V c (Pipeline.arrRef spec5 1) (((cfg5.win 1).blk t).view.emb (ix2 r k)) = V c (Pipeline.arrRef spec5 1) (ix2 R k)
  refine congrArg _ (funext fun a => Fin.ext ?_)
  match a with
  | ⟨0, _⟩ => show win5_1.index t (0 : Fin 2) * 5000 + 1 * r.val = R.val; omega
  | ⟨1, _⟩ => show win5_1.index t (1 : Fin 2) * 128 + 1 * k.val = k.val; omega

/-- The layer input's block at point `t` is rows `5000·t … 5000·t + 4999` of its array. -/
theorem iblk5_2_apply (c : Dev nD) (t : Fin cfg5.N) (r : Fin 5000) (k : Fin 128) (R : Fin 50000)
    (hR : R.val = 5000 * t.val + r.val) :
    (iblk5 V c 2 t : Vec Ideal S5000x128 .f32) (ix2 r k) = (V c (Pipeline.arrRef spec5 2) : Cert.Spec.A2 50000 128) (ix2 R k) := by
  obtain ⟨a0, a1, b0, b1, c0, c1, -⟩ := idx_facts5 t
  show V c (Pipeline.arrRef spec5 2) (((cfg5.win 2).blk t).view.emb (ix2 r k)) = V c (Pipeline.arrRef spec5 2) (ix2 R k)
  refine congrArg _ (funext fun a => Fin.ext ?_)
  match a with
  | ⟨0, _⟩ => show win5_2.index t (0 : Fin 2) * 5000 + 1 * r.val = R.val; omega
  | ⟨1, _⟩ => show win5_2.index t (1 : Fin 2) * 128 + 1 * k.val = k.val; omega

/-- The weight block at every point is the whole matrix. -/
theorem iblk5_3_apply (c : Dev nD) (t : Fin cfg5.N) (k : Fin 128) (j : Fin 128) :
    (iblk5 V c 3 t : Vec Ideal S128x128 .f32) (ix2 k j) = (V c (Pipeline.arrRef spec5 3) : Cert.Spec.A2 128 128) (ix2 k j) := by
  obtain ⟨-, -, -, -, -, -, e0, e1, -⟩ := idx_facts5 t
  show V c (Pipeline.arrRef spec5 3) (((cfg5.win 3).blk t).view.emb (ix2 k j)) = V c (Pipeline.arrRef spec5 3) (ix2 k j)
  refine congrArg _ (funext fun a => Fin.ext ?_)
  match a with
  | ⟨0, _⟩ => show win5_3.index t (0 : Fin 2) * 128 + 1 * k.val = k.val; omega
  | ⟨1, _⟩ => show win5_3.index t (1 : Fin 2) * 128 + 1 * j.val = j.val; omega

/-! ## What a point writes back, and the whole array -/

/-- The array the region leaves: the combine step of the whole arrays. -/
abbrev G5 (c : Dev nD) : Cert.Spec.A2 50000 128 :=
  Cert.Spec.comb Cert.Spec.c1 Cert.Spec.c2 (Cert.Spec.ca 4) (Cert.Spec.cb 4) (V c (Pipeline.arrRef spec5 0))
    (V c (Pipeline.arrRef spec5 1)) (V c (Pipeline.arrRef spec5 2)) (V c (Pipeline.arrRef spec5 3))

/-- What point `t` writes back is block `t` of that array. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5_4
  rw [View.canon_unit_zero hz]
  simp only [View.ld_unit_zero (S := S5000x128) hz, View.ld_unit_zero (S := S128x128) hz]
  obtain ⟨-, -, -, -, -, -, -, -, e0, e1⟩ := idx_facts5 t
  have hN : t.val < 10 := lt_of_lt_of_eq t.isLt N_5
  funext y
  have h0 : (y 0).val < 5000 := (y 0).isLt
  have h1 : (y 1).val < 128 := (y 1).isLt
  have ex : (cfg5.win 4).xinj (grid5.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg5.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win5_4.index t (0 : Fin 2) * 5000 + 1 * (y 0).val = 5000 * t.val + (y 0).val; omega
      | ⟨1, _⟩ => show win5_4.index t (1 : Fin 2) * 128 + 1 * (y 1).val = (y 1).val; omega)
  show k5_pay1 (F := Ideal) (iblk5 V c 0 t) (iblk5 V c 1 t) (iblk5 V c 2 t) (iblk5 V c 3 t)
      ((cfg5.win 4).xinj (grid5.coords t) y)
    = G5 V c (((cfg5.win 4).blk t).view.emb y)
  rw [ex, ee]
  refine (Cert.KPay.payC5 _ _ _ _ _ _).trans ?_
  exact comb_of_rows _ _ _ _ _ _ _ _ _ _ _ _ _ (fun k => iblk5_0_apply V c t _ k _ rfl)
    (fun k => iblk5_1_apply V c t _ k _ rfl) (iblk5_2_apply V c t _ _ _ rfl) (fun k => iblk5_3_apply V c t k _)

/-- An index of the array is in point `t`'s block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v85).slice (win5_4.rect t)).set ↔ _
  rw [View.set_slice_whole, Rect.mem_set_unit]
  exact Iff.rfl

/-- Every row of the array is in some point's block: row `R` in that of point `R / 5000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, e0, e1⟩ := idx_facts5 t
  have et : t.val = (i 0).val / 5000 := rfl
  refine ⟨t, flush5_4 t, ?_⟩
  rw [mem_blk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- THE ARRAY region 5 leaves is the combine step, with layer 4's constants, of the arrays it found. -/
theorem final5 (c : Dev nD) : (dat5 V c).arrAt 4 cfg5.N
    = Cert.Spec.comb Cert.Spec.c1 Cert.Spec.c2 (Cert.Spec.ca 4) (Cert.Spec.cb 4) (V c (Pipeline.arrRef spec5 0))
        (V c (Pipeline.arrRef spec5 1)) (V c (Pipeline.arrRef spec5 2)) (V c (Pipeline.arrRef spec5 3)) :=
  (dat5 V c).arrAt_eq_of_cover 4 (G5 V c) (fun t _ => flushed5_eq V c t) cover5

end Cert.KVal

end
-- ==== Proof.KVal6.lean ====
/-
  Region 6, from blocks to the whole array, at the extended reals.

  The region's ten points each write back one block of 5000 rows of the output. What a point writes back is the stored
  value of the point's input blocks; the aggregate, first-layer and layer-input blocks at point `t` are rows
  `5000·t … 5000·t + 4999` of their arrays and the weight block is its whole array, so the entry `(r, j)` of the block
  written at point `t` is the combine step of the whole arrays at `(5000·t + r, j)`. The ten blocks tile the output, so the
  output array ends as the combine step, with layer 5's constants, of the arrays the region found.
-/
import proofs.«112903_j84559316124075_1_alg».proof.Proof.KernelIdeal.Reg6
import proofs.«112903_j84559316124075_1_alg».proof.Proof.KPay
import proofs.«112903_j84559316124075_1_alg».proof.Proof.Spec
import proofs.«112903_j84559316124075_1_alg».proof.Proof.KValBase
import proofs.«112903_j84559316124075_1_alg».proof.Proof.KValComb
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps over the grid -/

/-- The printed index maps, decided over the ten points: the aggregate, the first layer's output, the layer's input and
    the output move one block of rows per point, the weights stay. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-! ## The input blocks as rows of their arrays -/

/-- The aggregate block at point `t` is rows `5000·t … 5000·t + 4999` of its array. -/
theorem iblk6_0_apply (c : Dev nD) (t : Fin cfg6.N) (r : Fin 5000) (k : Fin 128) (R : Fin 50000)
    (hR : R.val = 5000 * t.val + r.val) :
    (iblk6 V c 0 t : Vec Ideal S5000x128 .f32) (ix2 r k) = (V c (Pipeline.arrRef spec6 0) : Cert.Spec.A2 50000 128) (ix2 R k) := by
  obtain ⟨a0, a1, b0, b1, c0, c1, -⟩ := idx_facts6 t
  show V c (Pipeline.arrRef spec6 0) (((cfg6.win 0).blk t).view.emb (ix2 r k)) = V c (Pipeline.arrRef spec6 0) (ix2 R k)
  refine congrArg _ (funext fun a => Fin.ext ?_)
  match a with
  | ⟨0, _⟩ => show win6_0.index t (0 : Fin 2) * 5000 + 1 * r.val = R.val; omega
  | ⟨1, _⟩ => show win6_0.index t (1 : Fin 2) * 128 + 1 * k.val = k.val; omega

/-- The first layer's block at point `t` is rows `5000·t … 5000·t + 4999` of its array. -/
theorem iblk6_1_apply (c : Dev nD) (t : Fin cfg6.N) (r : Fin 5000) (k : Fin 128) (R : Fin 50000)
    (hR : R.val = 5000 * t.val + r.val) :
    (iblk6 V c 1 t : Vec Ideal S5000x128 .f32) (ix2 r k) = (V c (Pipeline.arrRef spec6 1) : Cert.Spec.A2 50000 128) (ix2 R k) := by
  obtain ⟨a0, a1, b0, b1, c0, c1, -⟩ := idx_facts6 t
  show V c (Pipeline.arrRef spec6 1) (((cfg6.win 1).blk t).view.emb (ix2 r k)) = V c (Pipeline.arrRef spec6 1) (ix2 R k)
  refine congrArg _ (funext fun a => Fin.ext ?_)
  match a with
  | ⟨0, _⟩ => show win6_1.index t (0 : Fin 2) * 5000 + 1 * r.val = R.val; omega
  | ⟨1, _⟩ => show win6_1.index t (1 : Fin 2) * 128 + 1 * k.val = k.val; omega

/-- The layer input's block at point `t` is rows `5000·t … 5000·t + 4999` of its array. -/
theorem iblk6_2_apply (c : Dev nD) (t : Fin cfg6.N) (r : Fin 5000) (k : Fin 128) (R : Fin 50000)
    (hR : R.val = 5000 * t.val + r.val) :
    (iblk6 V c 2 t : Vec Ideal S5000x128 .f32) (ix2 r k) = (V c (Pipeline.arrRef spec6 2) : Cert.Spec.A2 50000 128) (ix2 R k) := by
  obtain ⟨a0, a1, b0, b1, c0, c1, -⟩ := idx_facts6 t
  show V c (Pipeline.arrRef spec6 2) (((cfg6.win 2).blk t).view.emb (ix2 r k)) = V c (Pipeline.arrRef spec6 2) (ix2 R k)
  refine congrArg _ (funext fun a => Fin.ext ?_)
  match a with
  | ⟨0, _⟩ => show win6_2.index t (0 : Fin 2) * 5000 + 1 * r.val = R.val; omega
  | ⟨1, _⟩ => show win6_2.index t (1 : Fin 2) * 128 + 1 * k.val = k.val; omega

/-- The weight block at every point is the whole matrix. -/
theorem iblk6_3_apply (c : Dev nD) (t : Fin cfg6.N) (k : Fin 128) (j : Fin 128) :
    (iblk6 V c 3 t : Vec Ideal S128x128 .f32) (ix2 k j) = (V c (Pipeline.arrRef spec6 3) : Cert.Spec.A2 128 128) (ix2 k j) := by
  obtain ⟨-, -, -, -, -, -, e0, e1, -⟩ := idx_facts6 t
  show V c (Pipeline.arrRef spec6 3) (((cfg6.win 3).blk t).view.emb (ix2 k j)) = V c (Pipeline.arrRef spec6 3) (ix2 k j)
  refine congrArg _ (funext fun a => Fin.ext ?_)
  match a with
  | ⟨0, _⟩ => show win6_3.index t (0 : Fin 2) * 128 + 1 * k.val = k.val; omega
  | ⟨1, _⟩ => show win6_3.index t (1 : Fin 2) * 128 + 1 * j.val = j.val; omega

/-! ## What a point writes back, and the whole array -/

/-- The array the region leaves: the combine step of the whole arrays. -/
abbrev G6 (c : Dev nD) : Cert.Spec.A2 50000 128 :=
  Cert.Spec.comb Cert.Spec.c1 Cert.Spec.c2 (Cert.Spec.ca 5) (Cert.Spec.cb 5) (V c (Pipeline.arrRef spec6 0))
    (V c (Pipeline.arrRef spec6 1)) (V c (Pipeline.arrRef spec6 2)) (V c (Pipeline.arrRef spec6 3))

/-- What point `t` writes back is block `t` of that array. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x128) hz]
  obtain ⟨-, -, -, -, -, -, -, -, e0, e1⟩ := idx_facts6 t
  have hN : t.val < 10 := lt_of_lt_of_eq t.isLt N_6
  funext y
  have h0 : (y 0).val < 5000 := (y 0).isLt
  have h1 : (y 1).val < 128 := (y 1).isLt
  have ex : (cfg6.win 4).xinj (grid6.coords t) y = (ix2 (⟨(y 0).val, h0⟩ : Fin 5000) (⟨(y 1).val, h1⟩ : Fin 128) : S5000x128.Idx) :=
    funext fun a => by
      match a with
      | ⟨0, _⟩ => rfl
      | ⟨1, _⟩ => rfl
  have ee : ((cfg6.win 4).blk t).view.emb y
      = (ix2 (⟨5000 * t.val + (y 0).val, by omega⟩ : Fin 50000) (⟨(y 1).val, h1⟩ : Fin 128) : S50000x128.Idx) :=
    funext fun a => Fin.ext (by
      match a with
      | ⟨0, _⟩ => show win6_4.index t (0 : Fin 2) * 5000 + 1 * (y 0).val = 5000 * t.val + (y 0).val; omega
      | ⟨1, _⟩ => show win6_4.index t (1 : Fin 2) * 128 + 1 * (y 1).val = (y 1).val; omega)
  show k6_pay1 (F := Ideal) (iblk6 V c 0 t) (iblk6 V c 1 t) (iblk6 V c 2 t) (iblk6 V c 3 t)
      ((cfg6.win 4).xinj (grid6.coords t) y)
    = G6 V c (((cfg6.win 4).blk t).view.emb y)
  rw [ex, ee]
  refine (Cert.KPay.payC6 _ _ _ _ _ _).trans ?_
  exact comb_of_rows _ _ _ _ _ _ _ _ _ _ _ _ _ (fun k => iblk6_0_apply V c t _ k _ rfl)
    (fun k => iblk6_1_apply V c t _ k _ rfl) (iblk6_2_apply V c t _ _ _ rfl) (fun k => iblk6_3_apply V c t k _)

/-- An index of the array is in point `t`'s block iff each coordinate is in the block's range on its axis. -/
theorem mem_blk6 (t : Fin cfg6.N) (i : S50000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v101).slice (win6_4.rect t)).set ↔ _
  rw [View.set_slice_whole, Rect.mem_set_unit]
  exact Iff.rfl

/-- Every row of the array is in some point's block: row `R` in that of point `R / 5000`. -/
theorem cover6 (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, -, -, e0, e1⟩ := idx_facts6 t
  have et : t.val = (i 0).val / 5000 := rfl
  refine ⟨t, flush6_4 t, ?_⟩
  rw [mem_blk6]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

/-- THE ARRAY region 6 leaves is the combine step, with layer 5's constants, of the arrays it found. -/
theorem final6 (c : Dev nD) : (dat6 V c).arrAt 4 cfg6.N
    = Cert.Spec.comb Cert.Spec.c1 Cert.Spec.c2 (Cert.Spec.ca 5) (Cert.Spec.cb 5) (V c (Pipeline.arrRef spec6 0))
        (V c (Pipeline.arrRef spec6 1)) (V c (Pipeline.arrRef spec6 2)) (V c (Pipeline.arrRef spec6 3)) :=
  (dat6 V c).arrAt_eq_of_cover 4 (G6 V c) (fun t _ => flushed6_eq V c t) cover6

end Cert.KVal

end
-- ==== Proof.KVal7.lean ====
/-
  Region 7, from blocks to the whole array, at the extended reals.

  The region's ten points each write back one block of 5000 rows of the result. What a point writes back is the stored
  value of the point's input blocks; the input block at point `t` is rows `5000·t … 5000·t + 4999` of its array and the
  weight and bias blocks are their whole arrays, so the entry `(r, j)` of the block written at point `t` is the output
  layer of the whole arrays at `(5000·t + r, j)`. The ten blocks tile the result, so the result array ends as the output
  layer of the arrays the region found.
-/
import proofs.«112903_j84559316124075_1_alg».proof.Proof.KernelIdeal.Reg7
import proofs.«112903_j84559316124075_1_alg».proof.Proof.KPay
import proofs.«112903_j84559316124075_1_alg».proof.Proof.Spec
import proofs.«112903_j84559316124075_1_alg».proof.Proof.KValBase
import Idealize.ShloMosaic.Lib.Pipeline.Value

noncomputable section

namespace Cert.KVal

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## One entry of a block -/

/-- The stored value at `(r, j)` of a block whose input rows are rows of the whole arrays: the output layer at row `R`. -/
theorem point7 (X : Vec Ideal S5000x128 .f32) (W : Vec Ideal S128x121 .f32) (B : Vec Ideal S1x121 .f32)
    (AX : Cert.Spec.A2 50000 128) (AW : Cert.Spec.A2 128 121) (AB : Cert.Spec.A2 1 121)
    (R : Fin 50000) (r : Fin 5000) (j : Fin 121)
    (hX : ∀ k : Fin 128, X (ix2 r k) = AX (ix2 R k)) (hW : ∀ k : Fin 128, W (ix2 k j) = AW (ix2 k j))
    (hB : B (ix2 0 j) = AB (ix2 0 j)) :
    k7_pay1 (F := Ideal) X W B (ix2 r j) = Cert.Spec.lin AX AW (rowOf AB) (ix2 R j) := by
  rw [Cert.KPay.pay7]
  show _ = (∑ k : Fin 128, AX (ix2 R k) * AW (ix2 k j)) + AB (ix2 0 j)
  simp only [hX, hW, hB]

/-! ## The index maps over the grid -/

/-- The printed index maps, decided over the ten points: the last layer's output and the result move one block of rows
    per point, the weights and the bias stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-! ## The input blocks as rows of their arrays -/

/-- The input block at point `t` is rows `5000·t … 5000·t + 4999` of the array. -/
theorem iblk7_0_apply (c : Dev nD) (t : Fin cfg7.N) (r : Fin 5000) (k : Fin 128) (R : Fin 50000)
    (hR : R.val = 5000 * t.val + r.val) :
    (iblk7 V c 0 t : Vec Ideal S5000x128 .f32) (ix2 r k) = (V c (Pipeline.arrRef spec7 0) : Cert.Spec.A2 50000 128) (ix2 R k) := by
  obtain ⟨e0, e1, -⟩ := idx_facts7 t
  show V c (Pipeline.arrRef spec7 0) (((cfg7.win 0).blk t).view.emb (ix2 r k)) = V c (Pipeline.arrRef spec7 0) (ix2 R k)
  refine congrArg _ (funext fun a => Fin.ext ?_)
  match a with
  | ⟨0, _⟩ => show win7_0.index t (0 : Fin 2) * 5000 + 1 * r.val = R.val; omega
  | ⟨1, _⟩ => show win7_0.index t (1 : Fin 2) * 128 + 1 * k.val = k.val; omega

/-- The weight block at every point is the whole matrix. -/
theorem iblk7_1_apply (c : Dev nD) (t : Fin cfg7.N) (k : Fin 128) (j : Fin 121) :
    (iblk7 V c 1 t : Vec Ideal S128x121 .f32) (ix2 k j) = (V c (Pipeline.arrRef spec7 1) : Cert.Spec.A2 128 121) (ix2 k j) := by
  obtain ⟨-, -, e0, e1, -⟩ := idx_facts7 t
  show V c (Pipeline.arrRef spec7 1) (((cfg7.win 1).blk t).view.emb (ix2 k j)) = V c (Pipeline.arrRef spec7 1) (ix2 k j)
  refine congrArg _ (funext fun a => Fin.ext ?_)
  match a with
  | ⟨0, _⟩ => show win7_1.index t (0 : Fin 2) * 128 + 1 * k.val = k.val; omega
  | ⟨1, _⟩ => show win7_1.index t (1 : Fin 2) * 121 + 1 * j.val = j.val; omega

/-- The bias block at every point is the whole row. -/
theorem iblk7_2_apply (c : Dev nD) (t : Fin cfg7.N) (j : Fin 121) :
    (iblk7 V c 2 t : Vec Ideal S1x121 .f32) (ix2 0 j) = (V c (Pipeline.arrRef spec7 2) : Cert.Spec.A2 1 121) (ix2 0 j) := by
  obtain ⟨-, -, -, -, e0, e1, -⟩ := idx_facts7 t
  show V c (Pipeline.arrRef spec7 2) (((cfg7.win 2).blk t).view.emb (ix2 0 j)) = V c (Pipeline.arrRef spec7 2) (ix2 0 j)
  refine congrArg _ (funext fun a => Fin.ext ?_)
  match a with
  | ⟨0, _⟩ => show win7_2.index t (0 : Fin 2) * 1 + 1 * (0 : Fin 1).val = (0 : Fin 1).val; omega
  | ⟨1, _⟩ => show win7_2.index t (1 : Fin 2) * 121 + 1 * j.val = j.val; omega

/-! ## What a point writes back, and the whole array -/

/-- The array the region leaves: the output layer of the whole arrays. -/
abbrev G7 (c : Dev nD) : Cert.Spec.A2 50000 121 :=
  Cert.Spec.lin (V c (Pipeline.arrRef spec7 0)) (V c (Pipeline.arrRef spec7 1)) (rowOf (V c (Pipeline.arrRef spec7 2)))

/-- What point `t` writes back is block `t` of that array. -/
theorem flushed7_eq (c : Dev nD) (t : Fin cfg7.N) :
    (dat7 V c).flushed 3 t = ((cfg7.win 3).blk t).view.read (Elt Ideal) (G7 V c) := by
  show (cfg7.win 3).cut (grid7.coords t) ((dat7 V c).after 3 t) = _
  rw [after7_3]
  unfold out7_3
  rw [View.canon_unit_zero hz]
  simp only [View.ld_unit_zero (S := S5000x128) hz, View.ld_unit_zero (S := S128x121) hz, View.ld_unit_zero (S := S1x121) hz]
  obtain ⟨-, -, -, -, -, -, e0, e1⟩ := idx_facts7 t
  have hN : t.val < 10 := lt_of_lt_of_eq t.isLt N_7
  funext y
  have h0 : (y 0).val < 5000 := (y 0).isLt
  have h1 : (y 1).val < 121 := (y 1).isLt
  have ex : (cfg7.win 3).xinj (grid7.coords t) y = (ix2 (⟨(y 0).val, h0⟩ : Fin 5000) (⟨(y 1).val, h1⟩ : Fin 121) : S5000x121.Idx) :=
    funext fun a => by
      match a with
      | ⟨0, _⟩ => rfl
      | ⟨1, _⟩ => rfl
  have ee : ((cfg7.win 3).blk t).view.emb y
      = (ix2 (⟨5000 * t.val + (y 0).val, by omega⟩ : Fin 50000) (⟨(y 1).val, h1⟩ : Fin 121) : S50000x121.Idx) :=
    funext fun a => Fin.ext (by
      match a with
      | ⟨0, _⟩ => show win7_3.index t (0 : Fin 2) * 5000 + 1 * (y 0).val = 5000 * t.val + (y 0).val; omega
      | ⟨1, _⟩ => show win7_3.index t (1 : Fin 2) * 121 + 1 * (y 1).val = (y 1).val; omega)
  show k7_pay1 (F := Ideal) (iblk7 V c 0 t) (iblk7 V c 1 t) (iblk7 V c 2 t) ((cfg7.win 3).xinj (grid7.coords t) y)
    = G7 V c (((cfg7.win 3).blk t).view.emb y)
  rw [ex, ee]
  exact point7 _ _ _ _ _ _ _ _ _ (fun k => iblk7_0_apply V c t _ k _ rfl) (fun k => iblk7_1_apply V c t k _)
    (iblk7_2_apply V c t _)

/-- An index of the array is in point `t`'s block iff each coordinate is in the block's range on its axis. -/
theorem mem_blk7 (t : Fin cfg7.N) (i : S50000x121.Idx) :
    i ∈ ((cfg7.win 3).blk t).view.set ↔ ∀ a : Fin 2, win7_3.index t a * S5000x121.size a ≤ (i a).val
      ∧ (i a).val < win7_3.index t a * S5000x121.size a + S5000x121.size a := by
  show i ∈ ((View.whole main_v103).slice (win7_3.rect t)).set ↔ _
  rw [View.set_slice_whole, Rect.mem_set_unit]
  exact Iff.rfl

/-- Every row of the array is in some point's block: row `R` in that of point `R / 5000`. -/
theorem cover7 (i : S50000x121.Idx) :
    ∃ t : Fin cfg7.N, (cfg7.win 3).flush t = true ∧ i ∈ ((cfg7.win 3).blk t).view.set := by
  have hi0 : (i 0).val < 50000 := (i 0).isLt
  have hi1 : (i 1).val < 121 := (i 1).isLt
  have hN : cfg7.N = 10 := N_7
  let t : Fin cfg7.N := ⟨(i 0).val / 5000, by rw [hN]; omega⟩
  obtain ⟨-, -, -, -, -, -, e0, e1⟩ := idx_facts7 t
  have et : t.val = (i 0).val / 5000 := rfl
  refine ⟨t, flush7_3 t, ?_⟩
  rw [mem_blk7]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 121 ≤ (i 1).val ∧ (i 1).val < win7_3.index t (1 : Fin 2) * 121 + 121
    omega

/-- THE ARRAY region 7 leaves is the output layer of the arrays it found. -/
theorem final7 (c : Dev nD) : (dat7 V c).arrAt 3 cfg7.N
    = Cert.Spec.lin (V c (Pipeline.arrRef spec7 0)) (V c (Pipeline.arrRef spec7 1)) (rowOf (V c (Pipeline.arrRef spec7 2))) :=
  (dat7 V c).arrAt_eq_of_cover 3 (G7 V c) (fun t _ => flushed7_eq V c t) cover7

end Cert.KVal

end
-- ==== Proof.KVal.lean ====
/-
  The eight regions' value theorems together: each region's output array, after the region, as the specification's
  function of the arrays the region found (`final0`, `final1` … `final6`, `final7`).
-/
import proofs.«112903_j84559316124075_1_alg».proof.Proof.KVal0
import proofs.«112903_j84559316124075_1_alg».proof.Proof.KVal1
import proofs.«112903_j84559316124075_1_alg».proof.Proof.KVal2
import proofs.«112903_j84559316124075_1_alg».proof.Proof.KVal3
import proofs.«112903_j84559316124075_1_alg».proof.Proof.KVal4
import proofs.«112903_j84559316124075_1_alg».proof.Proof.KVal5
import proofs.«112903_j84559316124075_1_alg».proof.Proof.KVal6
import proofs.«112903_j84559316124075_1_alg».proof.Proof.KVal7
-- ==== Proof.KHostOps.lean ====
/-
  The host stretches of the kernel's program, read off from any contents of the buffers.

  Before each combine region the host computes the neighbourhood aggregate of the previous layer's output — the rows the
  edge list's second row names, scaled by the edge weights, added into zeros at the rows its first row names — and cuts
  the layer's matrix out of the stacked weights. The aggregate is named here as ONE function of the edge list, the edge
  weights and the node array, the same for all six layers and never opened; each stretch's results are stated from an
  arbitrary valuation of the buffers, so that the run's particular contents are substituted afterwards.
-/
import proofs.«112903_j84559316124075_1_alg».proof.Proof.Gen.KernelIdeal.Launch
import proofs.«112903_j84559316124075_1_alg».proof.Proof.Spec
import proofs.«112903_j84559316124075_1_alg».proof.Proof.KValBase
import Idealize.ShloMosaic.Lib.StableHlo.Run
import Idealize.ShloMosaic.Lib.ValueLayout
import Idealize.ShloMosaic.Lib.Pipeline.Value

noncomputable section

namespace Cert.KHost

open Cert.KernelIdeal Cert.KernelIdeal.Gen
open Idealize.ShloMosaic Idealize.ShloMosaic.TcCoe Idealize.ShloMosaic.ValueIdx Idealize.SL.Sem
open Idealize.ShloMosaic.StableHlo

/-! ## The aggregate as one function -/

/-- The first row of the edge list, as a rank-one array. -/
def edgeRow (e : (⟨S2x600000, .i32⟩ : BufTy).Contents (Elt Ideal)) : (⟨S600000, .i32⟩ : BufTy).Contents (Elt Ideal) :=
  shapeCast S600000 (extractStridedSlice S1x600000 ![0, 0] e slices_S2x600000_S1x600000_0_0) shapeCasts_S1x600000_S600000

/-- The second row of the edge list, as a rank-one array. -/
def edgeCol (e : (⟨S2x600000, .i32⟩ : BufTy).Contents (Elt Ideal)) : (⟨S600000, .i32⟩ : BufTy).Contents (Elt Ideal) :=
  shapeCast S600000 (extractStridedSlice S1x600000 ![1, 0] e slices_S2x600000_S1x600000_1_0) shapeCasts_S1x600000_S600000

/-- The neighbourhood aggregate from the edge weights `w`, the two rows `cols`, `rows` of the edge list and the node
    array `X`: the rows of `X` the (wrapped) `cols` name, each scaled by its edge's weight, added into zeros at the rows
    `rows` name. -/
def aggRaw (w : (⟨S600000, .f32⟩ : BufTy).Contents (Elt Ideal)) (cols rows : (⟨S600000, .i32⟩ : BufTy).Contents (Elt Ideal))
    (X : (⟨S50000x128, .f32⟩ : BufTy).Contents (Elt Ideal)) : (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 rows)
    (mulf (broadcastInDim S600000x128 ![0, 1] bcast_S600000x1_S600000x128_0_1 (broadcastInDim S600000x1 ![0] bcast_S600000_S600000x1_0 w))
      (Host.gather gather_S50000x128_S600000x1_S600000x128_1_0_n_n_0_1_1128 X
        (broadcastInDim S600000x1 ![0] bcast_S600000_S600000x1_0
          (select (cmpi .slt cols (broadcastInDim S600000 ![] bcast_S_S600000 (constantI S_ 32 0#32)))
            (addi cols (broadcastInDim S600000 ![] bcast_S_S600000 (constantI S_ 32 50000#32))) cols))))

/-- The aggregate of `X` over the edge list `e` with edge weights `w`. -/
def aggK (e : (⟨S2x600000, .i32⟩ : BufTy).Contents (Elt Ideal)) (w : (⟨S600000, .f32⟩ : BufTy).Contents (Elt Ideal))
    (X : FVec Ideal S50000x128 .f32) : FVec Ideal S50000x128 .f32 :=
  aggRaw w (edgeCol e) (edgeRow e) X

/-! ## A reshaped row and a reshaped slice, read at an index -/

/-- A rank-one array reshaped to one row has that array as its row. -/
theorem rowOf_reshape {J : Nat} (x : (⟨1, ![J]⟩ : Shape).Idx → EReal) (h : (⟨1, ![J]⟩ : Shape).ShapeCasts ⟨2, ![1, J]⟩) :
    Cert.KVal.rowOf (shapeCast ⟨2, ![1, J]⟩ x h) = x := by
  funext i
  obtain ⟨j, rfl⟩ : ∃ j : Fin J, i = ix1 j := ⟨i 0, eq_ix1 i⟩
  exact shapeCast_a_1a_apply x h 0 j

/-- Matrix 0 of the stacked weights, cut out and reshaped to rank two, is the specification's slice 0. -/
theorem wslice_0 (cw : (⟨S6x128x128, .f32⟩ : BufTy).Contents (Elt Ideal)) :
    shapeCast S128x128 (extractStridedSlice S1x128x128 ![0, 0, 0] cw slices_S6x128x128_S1x128x128_0_0_0) shapeCasts_S1x128x128_S128x128
      = Cert.Spec.wslice 0 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![0, 0, 0] cw slices_S6x128x128_S1x128x128_0_0_0 (ix3 (0 : Fin 1) k j) (ix3 (0 : Fin 6) k j) (fun a => match a with
    | ⟨0, _⟩ => by show 0 = 0 + 0; rfl
    | ⟨1, _⟩ => by show k.val = 0 + k.val; omega
    | ⟨2, _⟩ => by show j.val = 0 + j.val; omega)

/-- Matrix 1 of the stacked weights, cut out and reshaped to rank two, is the specification's slice 1. -/
theorem wslice_1 (cw : (⟨S6x128x128, .f32⟩ : BufTy).Contents (Elt Ideal)) :
    shapeCast S128x128 (extractStridedSlice S1x128x128 ![1, 0, 0] cw slices_S6x128x128_S1x128x128_1_0_0) shapeCasts_S1x128x128_S128x128
      = Cert.Spec.wslice 1 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![1, 0, 0] cw slices_S6x128x128_S1x128x128_1_0_0 (ix3 (0 : Fin 1) k j) (ix3 (1 : Fin 6) k j) (fun a => match a with
    | ⟨0, _⟩ => by show 1 = 1 + 0; rfl
    | ⟨1, _⟩ => by show k.val = 0 + k.val; omega
    | ⟨2, _⟩ => by show j.val = 0 + j.val; omega)

/-- Matrix 2 of the stacked weights, cut out and reshaped to rank two, is the specification's slice 2. -/
theorem wslice_2 (cw : (⟨S6x128x128, .f32⟩ : BufTy).Contents (Elt Ideal)) :
    shapeCast S128x128 (extractStridedSlice S1x128x128 ![2, 0, 0] cw slices_S6x128x128_S1x128x128_2_0_0) shapeCasts_S1x128x128_S128x128
      = Cert.Spec.wslice 2 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![2, 0, 0] cw slices_S6x128x128_S1x128x128_2_0_0 (ix3 (0 : Fin 1) k j) (ix3 (2 : Fin 6) k j) (fun a => match a with
    | ⟨0, _⟩ => by show 2 = 2 + 0; rfl
    | ⟨1, _⟩ => by show k.val = 0 + k.val; omega
    | ⟨2, _⟩ => by show j.val = 0 + j.val; omega)

/-- Matrix 3 of the stacked weights, cut out and reshaped to rank two, is the specification's slice 3. -/
theorem wslice_3 (cw : (⟨S6x128x128, .f32⟩ : BufTy).Contents (Elt Ideal)) :
    shapeCast S128x128 (extractStridedSlice S1x128x128 ![3, 0, 0] cw slices_S6x128x128_S1x128x128_3_0_0) shapeCasts_S1x128x128_S128x128
      = Cert.Spec.wslice 3 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![3, 0, 0] cw slices_S6x128x128_S1x128x128_3_0_0 (ix3 (0 : Fin 1) k j) (ix3 (3 : Fin 6) k j) (fun a => match a with
    | ⟨0, _⟩ => by show 3 = 3 + 0; rfl
    | ⟨1, _⟩ => by show k.val = 0 + k.val; omega
    | ⟨2, _⟩ => by show j.val = 0 + j.val; omega)

/-- Matrix 4 of the stacked weights, cut out and reshaped to rank two, is the specification's slice 4. -/
theorem wslice_4 (cw : (⟨S6x128x128, .f32⟩ : BufTy).Contents (Elt Ideal)) :
    shapeCast S128x128 (extractStridedSlice S1x128x128 ![4, 0, 0] cw slices_S6x128x128_S1x128x128_4_0_0) shapeCasts_S1x128x128_S128x128
      = Cert.Spec.wslice 4 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![4, 0, 0] cw slices_S6x128x128_S1x128x128_4_0_0 (ix3 (0 : Fin 1) k j) (ix3 (4 : Fin 6) k j) (fun a => match a with
    | ⟨0, _⟩ => by show 4 = 4 + 0; rfl
    | ⟨1, _⟩ => by show k.val = 0 + k.val; omega
    | ⟨2, _⟩ => by show j.val = 0 + j.val; omega)

/-- Matrix 5 of the stacked weights, cut out and reshaped to rank two, is the specification's slice 5. -/
theorem wslice_5 (cw : (⟨S6x128x128, .f32⟩ : BufTy).Contents (Elt Ideal)) :
    shapeCast S128x128 (extractStridedSlice S1x128x128 ![5, 0, 0] cw slices_S6x128x128_S1x128x128_5_0_0) shapeCasts_S1x128x128_S128x128
      = Cert.Spec.wslice 5 cw := by
  funext i
  obtain ⟨k, j, rfl⟩ : ∃ (k : Fin 128) (j : Fin 128), i = ix2 k j := ⟨i 0, i 1, eq_ix2 i⟩
  refine (shapeCast_1ab_ab_apply _ shapeCasts_S1x128x128_S128x128 k j).trans ?_
  exact extractStridedSlice_apply ![5, 0, 0] cw slices_S6x128x128_S1x128x128_5_0_0 (ix3 (0 : Fin 1) k j) (ix3 (5 : Fin 6) k j) (fun a => match a with
    | ⟨0, _⟩ => by show 5 = 5 + 0; rfl
    | ⟨1, _⟩ => by show k.val = 0 + k.val; omega
    | ⟨2, _⟩ => by show j.val = 0 + j.val; omega)

/-! ## What a host stretch leaves, from any contents -/

variable (Wp : Valuation τ sig (Elt Ideal))

/-- The first stretch leaves the edge list's two rows as rank-one arrays, and the input bias as one row. -/
theorem stretch0_v1 : StableHlo.after (hostOps0 (F := Ideal)) Wp (Proc.devRef .tc main_v1) = edgeRow (Wp (Proc.devRef .tc main_arg1)) := by
  after_results; rfl
theorem stretch0_v3 : StableHlo.after (hostOps0 (F := Ideal)) Wp (Proc.devRef .tc main_v3) = edgeCol (Wp (Proc.devRef .tc main_arg1)) := by
  after_results; rfl
theorem stretch0_v4 : StableHlo.after (hostOps0 (F := Ideal)) Wp (Proc.devRef .tc main_v4)
    = shapeCast S1x128 (Wp (Proc.devRef .tc main_arg4) : (⟨S128, .f32⟩ : BufTy).Contents (Elt Ideal)) shapeCasts_S128_S1x128 := by
  after_results; rfl
/-- The last stretch leaves the output bias as one row. -/
theorem stretch7_v102 : StableHlo.after (hostOps7 (F := Ideal)) Wp (Proc.devRef .tc main_v102)
    = shapeCast S1x121 (Wp (Proc.devRef .tc main_arg7) : (⟨S121, .f32⟩ : BufTy).Contents (Elt Ideal)) shapeCasts_S121_S1x121 := by
  after_results; rfl

set_option maxHeartbeats 1000000 in
/-- The stretch before region 1 leaves the aggregate of the previous layer's output, and matrix 0 of the stacked weights. -/
theorem stretch1_agg : StableHlo.after (hostOps1 (F := Ideal)) Wp (Proc.devRef .tc main_v18)
    = aggRaw (Wp (Proc.devRef .tc main_arg2)) (Wp (Proc.devRef .tc main_v3)) (Wp (Proc.devRef .tc main_v1)) (Wp (Proc.devRef .tc main_v5)) := by
  after_results_simp; rfl
set_option maxHeartbeats 1000000 in
theorem stretch1_w : StableHlo.after (hostOps1 (F := Ideal)) Wp (Proc.devRef .tc main_v20)
    = Cert.Spec.wslice 0 (Wp (Proc.devRef .tc main_arg5)) := by
  refine Eq.trans ?_ (wslice_0 (Wp (Proc.devRef .tc main_arg5)))
  after_results_simp; rfl

set_option maxHeartbeats 1000000 in
/-- The stretch before region 2 leaves the aggregate of the previous layer's output, and matrix 1 of the stacked weights. -/
theorem stretch2_agg : StableHlo.after (hostOps2 (F := Ideal)) Wp (Proc.devRef .tc main_v34)
    = aggRaw (Wp (Proc.devRef .tc main_arg2)) (Wp (Proc.devRef .tc main_v3)) (Wp (Proc.devRef .tc main_v1)) (Wp (Proc.devRef .tc main_v21)) := by
  after_results_simp; rfl
set_option maxHeartbeats 1000000 in
theorem stretch2_w : StableHlo.after (hostOps2 (F := Ideal)) Wp (Proc.devRef .tc main_v36)
    = Cert.Spec.wslice 1 (Wp (Proc.devRef .tc main_arg5)) := by
  refine Eq.trans ?_ (wslice_1 (Wp (Proc.devRef .tc main_arg5)))
  after_results_simp; rfl

set_option maxHeartbeats 1000000 in
/-- The stretch before region 3 leaves the aggregate of the previous layer's output, and matrix 2 of the stacked weights. -/
theorem stretch3_agg : StableHlo.after (hostOps3 (F := Ideal)) Wp (Proc.devRef .tc main_v50)
    = aggRaw (Wp (Proc.devRef .tc main_arg2)) (Wp (Proc.devRef .tc main_v3)) (Wp (Proc.devRef .tc main_v1)) (Wp (Proc.devRef .tc main_v37)) := by
  after_results_simp; rfl
set_option maxHeartbeats 1000000 in
theorem stretch3_w : StableHlo.after (hostOps3 (F := Ideal)) Wp (Proc.devRef .tc main_v52)
    = Cert.Spec.wslice 2 (Wp (Proc.devRef .tc main_arg5)) := by
  refine Eq.trans ?_ (wslice_2 (Wp (Proc.devRef .tc main_arg5)))
  after_results_simp; rfl

set_option maxHeartbeats 1000000 in
/-- The stretch before region 4 leaves the aggregate of the previous layer's output, and matrix 3 of the stacked weights. -/
theorem stretch4_agg : StableHlo.after (hostOps4 (F := Ideal)) Wp (Proc.devRef .tc main_v66)
    = aggRaw (Wp (Proc.devRef .tc main_arg2)) (Wp (Proc.devRef .tc main_v3)) (Wp (Proc.devRef .tc main_v1)) (Wp (Proc.devRef .tc main_v53)) := by
  after_results_simp; rfl
set_option maxHeartbeats 1000000 in
theorem stretch4_w : StableHlo.after (hostOps4 (F := Ideal)) Wp (Proc.devRef .tc main_v68)
    = Cert.Spec.wslice 3 (Wp (Proc.devRef .tc main_arg5)) := by
  refine Eq.trans ?_ (wslice_3 (Wp (Proc.devRef .tc main_arg5)))
  after_results_simp; rfl

set_option maxHeartbeats 1000000 in
/-- The stretch before region 5 leaves the aggregate of the previous layer's output, and matrix 4 of the stacked weights. -/
theorem stretch5_agg : StableHlo.after (hostOps5 (F := Ideal)) Wp (Proc.devRef .tc main_v82)
    = aggRaw (Wp (Proc.devRef .tc main_arg2)) (Wp (Proc.devRef .tc main_v3)) (Wp (Proc.devRef .tc main_v1)) (Wp (Proc.devRef .tc main_v69)) := by
  after_results_simp; rfl
set_option maxHeartbeats 1000000 in
theorem stretch5_w : StableHlo.after (hostOps5 (F := Ideal)) Wp (Proc.devRef .tc main_v84)
    = Cert.Spec.wslice 4 (Wp (Proc.devRef .tc main_arg5)) := by
  refine Eq.trans ?_ (wslice_4 (Wp (Proc.devRef .tc main_arg5)))
  after_results_simp; rfl

set_option maxHeartbeats 1000000 in
/-- The stretch before region 6 leaves the aggregate of the previous layer's output, and matrix 5 of the stacked weights. -/
theorem stretch6_agg : StableHlo.after (hostOps6 (F := Ideal)) Wp (Proc.devRef .tc main_v98)
    = aggRaw (Wp (Proc.devRef .tc main_arg2)) (Wp (Proc.devRef .tc main_v3)) (Wp (Proc.devRef .tc main_v1)) (Wp (Proc.devRef .tc main_v85)) := by
  after_results_simp; rfl
set_option maxHeartbeats 1000000 in
theorem stretch6_w : StableHlo.after (hostOps6 (F := Ideal)) Wp (Proc.devRef .tc main_v100)
    = Cert.Spec.wslice 5 (Wp (Proc.devRef .tc main_arg5)) := by
  refine Eq.trans ?_ (wslice_5 (Wp (Proc.devRef .tc main_arg5)))
  after_results_simp; rfl

end Cert.KHost

end
-- ==== Proof.KHost.lean ====
/-
  The kernel program's host side: what each region's input arrays hold when the region is entered.

  The buffers' contents are followed from the launch through the host stretches and the regions. A buffer that no
  operation of a stretch writes and that is no output array of a region passes through unchanged, so the arguments, the
  two rows of the edge list and the first layer's output reach every later boundary as they were; what a stretch itself
  computes — the aggregate of the previous layer's output, the layer's matrix cut out of the stacked weights, a bias
  reshaped to one row — is read off the stretch at those contents.
-/
import proofs.«112903_j84559316124075_1_alg».proof.Proof.KernelIdeal.Run
import proofs.«112903_j84559316124075_1_alg».proof.Proof.KHostOps
import proofs.«112903_j84559316124075_1_alg».proof.Proof.Spec
import proofs.«112903_j84559316124075_1_alg».proof.Proof.KValBase

noncomputable section

namespace Cert.KHost

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Buffers that reach a boundary unchanged -/

/-- No stretch and no region writes the edge weights, the stacked weights, the output weights or the output bias. -/
theorem at_main_arg2_0 (c : Dev nD) : W0 m ρ c (Proc.devRef .tc main_arg2) = m ((c : Thread nD τ).loc main_arg2) := rfl
theorem at_main_arg2_1 (c : Dev nD) : W1 m ρ c (Proc.devRef .tc main_arg2) = m ((c : Thread nD τ).loc main_arg2) :=
  (StableHlo.after_of_writes_sub hostOps0 _ hostOps0_writes (by decide) : W1 m ρ c (Proc.devRef .tc main_arg2) = W0 m ρ c (Proc.devRef .tc main_arg2)).trans (at_main_arg2_0 m ρ c)
theorem at_main_arg2_2 (c : Dev nD) : W2 m ρ c (Proc.devRef .tc main_arg2) = m ((c : Thread nD τ).loc main_arg2) :=
  (W2_of_ne m ρ c main_arg2 (by decide) : W2 m ρ c (Proc.devRef .tc main_arg2) = W1 m ρ c (Proc.devRef .tc main_arg2)).trans (at_main_arg2_1 m ρ c)
theorem at_main_arg2_3 (c : Dev nD) : W3 m ρ c (Proc.devRef .tc main_arg2) = m ((c : Thread nD τ).loc main_arg2) :=
  (StableHlo.after_of_writes_sub hostOps1 _ hostOps1_writes (by decide) : W3 m ρ c (Proc.devRef .tc main_arg2) = W2 m ρ c (Proc.devRef .tc main_arg2)).trans (at_main_arg2_2 m ρ c)
theorem at_main_arg2_4 (c : Dev nD) : W4 m ρ c (Proc.devRef .tc main_arg2) = m ((c : Thread nD τ).loc main_arg2) :=
  (W4_of_ne m ρ c main_arg2 (by decide) : W4 m ρ c (Proc.devRef .tc main_arg2) = W3 m ρ c (Proc.devRef .tc main_arg2)).trans (at_main_arg2_3 m ρ c)
theorem at_main_arg2_5 (c : Dev nD) : W5 m ρ c (Proc.devRef .tc main_arg2) = m ((c : Thread nD τ).loc main_arg2) :=
  (StableHlo.after_of_writes_sub hostOps2 _ hostOps2_writes (by decide) : W5 m ρ c (Proc.devRef .tc main_arg2) = W4 m ρ c (Proc.devRef .tc main_arg2)).trans (at_main_arg2_4 m ρ c)
theorem at_main_arg2_6 (c : Dev nD) : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (at_main_arg2_5 m ρ c)
theorem at_main_arg2_7 (c : Dev nD) : W7 m ρ c (Proc.devRef .tc main_arg2) = m ((c : Thread nD τ).loc main_arg2) :=
  (StableHlo.after_of_writes_sub hostOps3 _ hostOps3_writes (by decide) : W7 m ρ c (Proc.devRef .tc main_arg2) = W6 m ρ c (Proc.devRef .tc main_arg2)).trans (at_main_arg2_6 m ρ c)
theorem at_main_arg2_8 (c : Dev nD) : W8 m ρ c (Proc.devRef .tc main_arg2) = m ((c : Thread nD τ).loc main_arg2) :=
  (W8_of_ne m ρ c main_arg2 (by decide) : W8 m ρ c (Proc.devRef .tc main_arg2) = W7 m ρ c (Proc.devRef .tc main_arg2)).trans (at_main_arg2_7 m ρ c)
theorem at_main_arg2_9 (c : Dev nD) : W9 m ρ c (Proc.devRef .tc main_arg2) = m ((c : Thread nD τ).loc main_arg2) :=
  (StableHlo.after_of_writes_sub hostOps4 _ hostOps4_writes (by decide) : W9 m ρ c (Proc.devRef .tc main_arg2) = W8 m ρ c (Proc.devRef .tc main_arg2)).trans (at_main_arg2_8 m ρ c)
theorem at_main_arg2_10 (c : Dev nD) : W10 m ρ c (Proc.devRef .tc main_arg2) = m ((c : Thread nD τ).loc main_arg2) :=
  (W10_of_ne m ρ c main_arg2 (by decide) : W10 m ρ c (Proc.devRef .tc main_arg2) = W9 m ρ c (Proc.devRef .tc main_arg2)).trans (at_main_arg2_9 m ρ c)
theorem at_main_arg2_11 (c : Dev nD) : W11 m ρ c (Proc.devRef .tc main_arg2) = m ((c : Thread nD τ).loc main_arg2) :=
  (StableHlo.after_of_writes_sub hostOps5 _ hostOps5_writes (by decide) : W11 m ρ c (Proc.devRef .tc main_arg2) = W10 m ρ c (Proc.devRef .tc main_arg2)).trans (at_main_arg2_10 m ρ c)
theorem at_main_arg2_12 (c : Dev nD) : W12 m ρ c (Proc.devRef .tc main_arg2) = m ((c : Thread nD τ).loc main_arg2) :=
  (W12_of_ne m ρ c main_arg2 (by decide) : W12 m ρ c (Proc.devRef .tc main_arg2) = W11 m ρ c (Proc.devRef .tc main_arg2)).trans (at_main_arg2_11 m ρ c)

theorem at_main_arg5_0 (c : Dev nD) : W0 m ρ c (Proc.devRef .tc main_arg5) = m ((c : Thread nD τ).loc main_arg5) := rfl
theorem at_main_arg5_1 (c : Dev nD) : W1 m ρ c (Proc.devRef .tc main_arg5) = m ((c : Thread nD τ).loc main_arg5) :=
  (StableHlo.after_of_writes_sub hostOps0 _ hostOps0_writes (by decide) : W1 m ρ c (Proc.devRef .tc main_arg5) = W0 m ρ c (Proc.devRef .tc main_arg5)).trans (at_main_arg5_0 m ρ c)
theorem at_main_arg5_2 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (at_main_arg5_1 m ρ c)
theorem at_main_arg5_3 (c : Dev nD) : W3 m ρ c (Proc.devRef .tc main_arg5) = m ((c : Thread nD τ).loc main_arg5) :=
  (StableHlo.after_of_writes_sub hostOps1 _ hostOps1_writes (by decide) : W3 m ρ c (Proc.devRef .tc main_arg5) = W2 m ρ c (Proc.devRef .tc main_arg5)).trans (at_main_arg5_2 m ρ c)
theorem at_main_arg5_4 (c : Dev nD) : W4 m ρ c (Proc.devRef .tc main_arg5) = m ((c : Thread nD τ).loc main_arg5) :=
  (W4_of_ne m ρ c main_arg5 (by decide) : W4 m ρ c (Proc.devRef .tc main_arg5) = W3 m ρ c (Proc.devRef .tc main_arg5)).trans (at_main_arg5_3 m ρ c)
theorem at_main_arg5_5 (c : Dev nD) : W5 m ρ c (Proc.devRef .tc main_arg5) = m ((c : Thread nD τ).loc main_arg5) :=
  (StableHlo.after_of_writes_sub hostOps2 _ hostOps2_writes (by decide) : W5 m ρ c (Proc.devRef .tc main_arg5) = W4 m ρ c (Proc.devRef .tc main_arg5)).trans (at_main_arg5_4 m ρ c)
theorem at_main_arg5_6 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (at_main_arg5_5 m ρ c)
theorem at_main_arg5_7 (c : Dev nD) : W7 m ρ c (Proc.devRef .tc main_arg5) = m ((c : Thread nD τ).loc main_arg5) :=
  (StableHlo.after_of_writes_sub hostOps3 _ hostOps3_writes (by decide) : W7 m ρ c (Proc.devRef .tc main_arg5) = W6 m ρ c (Proc.devRef .tc main_arg5)).trans (at_main_arg5_6 m ρ c)
theorem at_main_arg5_8 (c : Dev nD) : W8 m ρ c (Proc.devRef .tc main_arg5) = m ((c : Thread nD τ).loc main_arg5) :=
  (W8_of_ne m ρ c main_arg5 (by decide) : W8 m ρ c (Proc.devRef .tc main_arg5) = W7 m ρ c (Proc.devRef .tc main_arg5)).trans (at_main_arg5_7 m ρ c)
theorem at_main_arg5_9 (c : Dev nD) : W9 m ρ c (Proc.devRef .tc main_arg5) = m ((c : Thread nD τ).loc main_arg5) :=
  (StableHlo.after_of_writes_sub hostOps4 _ hostOps4_writes (by decide) : W9 m ρ c (Proc.devRef .tc main_arg5) = W8 m ρ c (Proc.devRef .tc main_arg5)).trans (at_main_arg5_8 m ρ c)
theorem at_main_arg5_10 (c : Dev nD) : W10 m ρ c (Proc.devRef .tc main_arg5) = m ((c : Thread nD τ).loc main_arg5) :=
  (W10_of_ne m ρ c main_arg5 (by decide) : W10 m ρ c (Proc.devRef .tc main_arg5) = W9 m ρ c (Proc.devRef .tc main_arg5)).trans (at_main_arg5_9 m ρ c)
theorem at_main_arg5_11 (c : Dev nD) : W11 m ρ c (Proc.devRef .tc main_arg5) = m ((c : Thread nD τ).loc main_arg5) :=
  (StableHlo.after_of_writes_sub hostOps5 _ hostOps5_writes (by decide) : W11 m ρ c (Proc.devRef .tc main_arg5) = W10 m ρ c (Proc.devRef .tc main_arg5)).trans (at_main_arg5_10 m ρ c)
theorem at_main_arg5_12 (c : Dev nD) : W12 m ρ c (Proc.devRef .tc main_arg5) = m ((c : Thread nD τ).loc main_arg5) :=
  (W12_of_ne m ρ c main_arg5 (by decide) : W12 m ρ c (Proc.devRef .tc main_arg5) = W11 m ρ c (Proc.devRef .tc main_arg5)).trans (at_main_arg5_11 m ρ c)

theorem at_main_arg6_0 (c : Dev nD) : W0 m ρ c (Proc.devRef .tc main_arg6) = m ((c : Thread nD τ).loc main_arg6) := rfl
theorem at_main_arg6_1 (c : Dev nD) : W1 m ρ c (Proc.devRef .tc main_arg6) = m ((c : Thread nD τ).loc main_arg6) :=
  (StableHlo.after_of_writes_sub hostOps0 _ hostOps0_writes (by decide) : W1 m ρ c (Proc.devRef .tc main_arg6) = W0 m ρ c (Proc.devRef .tc main_arg6)).trans (at_main_arg6_0 m ρ c)
theorem at_main_arg6_2 (c : Dev nD) : W2 m ρ c (Proc.devRef .tc main_arg6) = m ((c : Thread nD τ).loc main_arg6) :=
  (W2_of_ne m ρ c main_arg6 (by decide) : W2 m ρ c (Proc.devRef .tc main_arg6) = W1 m ρ c (Proc.devRef .tc main_arg6)).trans (at_main_arg6_1 m ρ c)
theorem at_main_arg6_3 (c : Dev nD) : W3 m ρ c (Proc.devRef .tc main_arg6) = m ((c : Thread nD τ).loc main_arg6) :=
  (StableHlo.after_of_writes_sub hostOps1 _ hostOps1_writes (by decide) : W3 m ρ c (Proc.devRef .tc main_arg6) = W2 m ρ c (Proc.devRef .tc main_arg6)).trans (at_main_arg6_2 m ρ c)
theorem at_main_arg6_4 (c : Dev nD) : W4 m ρ c (Proc.devRef .tc main_arg6) = m ((c : Thread nD τ).loc main_arg6) :=
  (W4_of_ne m ρ c main_arg6 (by decide) : W4 m ρ c (Proc.devRef .tc main_arg6) = W3 m ρ c (Proc.devRef .tc main_arg6)).trans (at_main_arg6_3 m ρ c)
theorem at_main_arg6_5 (c : Dev nD) : W5 m ρ c (Proc.devRef .tc main_arg6) = m ((c : Thread nD τ).loc main_arg6) :=
  (StableHlo.after_of_writes_sub hostOps2 _ hostOps2_writes (by decide) : W5 m ρ c (Proc.devRef .tc main_arg6) = W4 m ρ c (Proc.devRef .tc main_arg6)).trans (at_main_arg6_4 m ρ c)
theorem at_main_arg6_6 (c : Dev nD) : W6 m ρ c (Proc.devRef .tc main_arg6) = m ((c : Thread nD τ).loc main_arg6) :=
  (W6_of_ne m ρ c main_arg6 (by decide) : W6 m ρ c (Proc.devRef .tc main_arg6) = W5 m ρ c (Proc.devRef .tc main_arg6)).trans (at_main_arg6_5 m ρ c)
theorem at_main_arg6_7 (c : Dev nD) : W7 m ρ c (Proc.devRef .tc main_arg6) = m ((c : Thread nD τ).loc main_arg6) :=
  (StableHlo.after_of_writes_sub hostOps3 _ hostOps3_writes (by decide) : W7 m ρ c (Proc.devRef .tc main_arg6) = W6 m ρ c (Proc.devRef .tc main_arg6)).trans (at_main_arg6_6 m ρ c)
theorem at_main_arg6_8 (c : Dev nD) : W8 m ρ c (Proc.devRef .tc main_arg6) = m ((c : Thread nD τ).loc main_arg6) :=
  (W8_of_ne m ρ c main_arg6 (by decide) : W8 m ρ c (Proc.devRef .tc main_arg6) = W7 m ρ c (Proc.devRef .tc main_arg6)).trans (at_main_arg6_7 m ρ c)
theorem at_main_arg6_9 (c : Dev nD) : W9 m ρ c (Proc.devRef .tc main_arg6) = m ((c : Thread nD τ).loc main_arg6) :=
  (StableHlo.after_of_writes_sub hostOps4 _ hostOps4_writes (by decide) : W9 m ρ c (Proc.devRef .tc main_arg6) = W8 m ρ c (Proc.devRef .tc main_arg6)).trans (at_main_arg6_8 m ρ c)
theorem at_main_arg6_10 (c : Dev nD) : W10 m ρ c (Proc.devRef .tc main_arg6) = m ((c : Thread nD τ).loc main_arg6) :=
  (W10_of_ne m ρ c main_arg6 (by decide) : W10 m ρ c (Proc.devRef .tc main_arg6) = W9 m ρ c (Proc.devRef .tc main_arg6)).trans (at_main_arg6_9 m ρ c)
theorem at_main_arg6_11 (c : Dev nD) : W11 m ρ c (Proc.devRef .tc main_arg6) = m ((c : Thread nD τ).loc main_arg6) :=
  (StableHlo.after_of_writes_sub hostOps5 _ hostOps5_writes (by decide) : W11 m ρ c (Proc.devRef .tc main_arg6) = W10 m ρ c (Proc.devRef .tc main_arg6)).trans (at_main_arg6_10 m ρ c)
theorem at_main_arg6_12 (c : Dev nD) : W12 m ρ c (Proc.devRef .tc main_arg6) = m ((c : Thread nD τ).loc main_arg6) :=
  (W12_of_ne m ρ c main_arg6 (by decide) : W12 m ρ c (Proc.devRef .tc main_arg6) = W11 m ρ c (Proc.devRef .tc main_arg6)).trans (at_main_arg6_11 m ρ c)
theorem at_main_arg6_13 (c : Dev nD) : W13 m ρ c (Proc.devRef .tc main_arg6) = m ((c : Thread nD τ).loc main_arg6) :=
  (StableHlo.after_of_writes_sub hostOps6 _ hostOps6_writes (by decide) : W13 m ρ c (Proc.devRef .tc main_arg6) = W12 m ρ c (Proc.devRef .tc main_arg6)).trans (at_main_arg6_12 m ρ c)
theorem at_main_arg6_14 (c : Dev nD) : W14 m ρ c (Proc.devRef .tc main_arg6) = m ((c : Thread nD τ).loc main_arg6) :=
  (W14_of_ne m ρ c main_arg6 (by decide) : W14 m ρ c (Proc.devRef .tc main_arg6) = W13 m ρ c (Proc.devRef .tc main_arg6)).trans (at_main_arg6_13 m ρ c)
theorem at_main_arg6_15 (c : Dev nD) : W15 m ρ c (Proc.devRef .tc main_arg6) = m ((c : Thread nD τ).loc main_arg6) :=
  (StableHlo.after_of_writes_sub hostOps7 _ hostOps7_writes (by decide) : W15 m ρ c (Proc.devRef .tc main_arg6) = W14 m ρ c (Proc.devRef .tc main_arg6)).trans (at_main_arg6_14 m ρ c)

theorem at_main_arg7_0 (c : Dev nD) : W0 m ρ c (Proc.devRef .tc main_arg7) = m ((c : Thread nD τ).loc main_arg7) := rfl
theorem at_main_arg7_1 (c : Dev nD) : W1 m ρ c (Proc.devRef .tc main_arg7) = m ((c : Thread nD τ).loc main_arg7) :=
  (StableHlo.after_of_writes_sub hostOps0 _ hostOps0_writes (by decide) : W1 m ρ c (Proc.devRef .tc main_arg7) = W0 m ρ c (Proc.devRef .tc main_arg7)).trans (at_main_arg7_0 m ρ c)
theorem at_main_arg7_2 (c : Dev nD) : W2 m ρ c (Proc.devRef .tc main_arg7) = m ((c : Thread nD τ).loc main_arg7) :=
  (W2_of_ne m ρ c main_arg7 (by decide) : W2 m ρ c (Proc.devRef .tc main_arg7) = W1 m ρ c (Proc.devRef .tc main_arg7)).trans (at_main_arg7_1 m ρ c)
theorem at_main_arg7_3 (c : Dev nD) : W3 m ρ c (Proc.devRef .tc main_arg7) = m ((c : Thread nD τ).loc main_arg7) :=
  (StableHlo.after_of_writes_sub hostOps1 _ hostOps1_writes (by decide) : W3 m ρ c (Proc.devRef .tc main_arg7) = W2 m ρ c (Proc.devRef .tc main_arg7)).trans (at_main_arg7_2 m ρ c)
theorem at_main_arg7_4 (c : Dev nD) : W4 m ρ c (Proc.devRef .tc main_arg7) = m ((c : Thread nD τ).loc main_arg7) :=
  (W4_of_ne m ρ c main_arg7 (by decide) : W4 m ρ c (Proc.devRef .tc main_arg7) = W3 m ρ c (Proc.devRef .tc main_arg7)).trans (at_main_arg7_3 m ρ c)
theorem at_main_arg7_5 (c : Dev nD) : W5 m ρ c (Proc.devRef .tc main_arg7) = m ((c : Thread nD τ).loc main_arg7) :=
  (StableHlo.after_of_writes_sub hostOps2 _ hostOps2_writes (by decide) : W5 m ρ c (Proc.devRef .tc main_arg7) = W4 m ρ c (Proc.devRef .tc main_arg7)).trans (at_main_arg7_4 m ρ c)
theorem at_main_arg7_6 (c : Dev nD) : W6 m ρ c (Proc.devRef .tc main_arg7) = m ((c : Thread nD τ).loc main_arg7) :=
  (W6_of_ne m ρ c main_arg7 (by decide) : W6 m ρ c (Proc.devRef .tc main_arg7) = W5 m ρ c (Proc.devRef .tc main_arg7)).trans (at_main_arg7_5 m ρ c)
theorem at_main_arg7_7 (c : Dev nD) : W7 m ρ c (Proc.devRef .tc main_arg7) = m ((c : Thread nD τ).loc main_arg7) :=
  (StableHlo.after_of_writes_sub hostOps3 _ hostOps3_writes (by decide) : W7 m ρ c (Proc.devRef .tc main_arg7) = W6 m ρ c (Proc.devRef .tc main_arg7)).trans (at_main_arg7_6 m ρ c)
theorem at_main_arg7_8 (c : Dev nD) : W8 m ρ c (Proc.devRef .tc main_arg7) = m ((c : Thread nD τ).loc main_arg7) :=
  (W8_of_ne m ρ c main_arg7 (by decide) : W8 m ρ c (Proc.devRef .tc main_arg7) = W7 m ρ c (Proc.devRef .tc main_arg7)).trans (at_main_arg7_7 m ρ c)
theorem at_main_arg7_9 (c : Dev nD) : W9 m ρ c (Proc.devRef .tc main_arg7) = m ((c : Thread nD τ).loc main_arg7) :=
  (StableHlo.after_of_writes_sub hostOps4 _ hostOps4_writes (by decide) : W9 m ρ c (Proc.devRef .tc main_arg7) = W8 m ρ c (Proc.devRef .tc main_arg7)).trans (at_main_arg7_8 m ρ c)
theorem at_main_arg7_10 (c : Dev nD) : W10 m ρ c (Proc.devRef .tc main_arg7) = m ((c : Thread nD τ).loc main_arg7) :=
  (W10_of_ne m ρ c main_arg7 (by decide) : W10 m ρ c (Proc.devRef .tc main_arg7) = W9 m ρ c (Proc.devRef .tc main_arg7)).trans (at_main_arg7_9 m ρ c)
theorem at_main_arg7_11 (c : Dev nD) : W11 m ρ c (Proc.devRef .tc main_arg7) = m ((c : Thread nD τ).loc main_arg7) :=
  (StableHlo.after_of_writes_sub hostOps5 _ hostOps5_writes (by decide) : W11 m ρ c (Proc.devRef .tc main_arg7) = W10 m ρ c (Proc.devRef .tc main_arg7)).trans (at_main_arg7_10 m ρ c)
theorem at_main_arg7_12 (c : Dev nD) : W12 m ρ c (Proc.devRef .tc main_arg7) = m ((c : Thread nD τ).loc main_arg7) :=
  (W12_of_ne m ρ c main_arg7 (by decide) : W12 m ρ c (Proc.devRef .tc main_arg7) = W11 m ρ c (Proc.devRef .tc main_arg7)).trans (at_main_arg7_11 m ρ c)
theorem at_main_arg7_13 (c : Dev nD) : W13 m ρ c (Proc.devRef .tc main_arg7) = m ((c : Thread nD τ).loc main_arg7) :=
  (StableHlo.after_of_writes_sub hostOps6 _ hostOps6_writes (by decide) : W13 m ρ c (Proc.devRef .tc main_arg7) = W12 m ρ c (Proc.devRef .tc main_arg7)).trans (at_main_arg7_12 m ρ c)
theorem at_main_arg7_14 (c : Dev nD) : W14 m ρ c (Proc.devRef .tc main_arg7) = m ((c : Thread nD τ).loc main_arg7) :=
  (W14_of_ne m ρ c main_arg7 (by decide) : W14 m ρ c (Proc.devRef .tc main_arg7) = W13 m ρ c (Proc.devRef .tc main_arg7)).trans (at_main_arg7_13 m ρ c)

/-- The edge list's two rows, once the first stretch has cut them out, are never written again. -/
theorem at_main_v1_1 (c : Dev nD) : W1 m ρ c (Proc.devRef .tc main_v1) = edgeRow (m ((c : Thread nD τ).loc main_arg1)) := stretch0_v1 (W0 m ρ c)
theorem at_main_v1_2 (c : Dev nD) : W2 m ρ c (Proc.devRef .tc main_v1) = edgeRow (m ((c : Thread nD τ).loc main_arg1)) :=
  (W2_of_ne m ρ c main_v1 (by decide) : W2 m ρ c (Proc.devRef .tc main_v1) = W1 m ρ c (Proc.devRef .tc main_v1)).trans (at_main_v1_1 m ρ c)
theorem at_main_v1_3 (c : Dev nD) : W3 m ρ c (Proc.devRef .tc main_v1) = edgeRow (m ((c : Thread nD τ).loc main_arg1)) :=
  (StableHlo.after_of_writes_sub hostOps1 _ hostOps1_writes (by decide) : W3 m ρ c (Proc.devRef .tc main_v1) = W2 m ρ c (Proc.devRef .tc main_v1)).trans (at_main_v1_2 m ρ c)
theorem at_main_v1_4 (c : Dev nD) : W4 m ρ c (Proc.devRef .tc main_v1) = edgeRow (m ((c : Thread nD τ).loc main_arg1)) :=
  (W4_of_ne m ρ c main_v1 (by decide) : W4 m ρ c (Proc.devRef .tc main_v1) = W3 m ρ c (Proc.devRef .tc main_v1)).trans (at_main_v1_3 m ρ c)
theorem at_main_v1_5 (c : Dev nD) : W5 m ρ c (Proc.devRef .tc main_v1) = edgeRow (m ((c : Thread nD τ).loc main_arg1)) :=
  (StableHlo.after_of_writes_sub hostOps2 _ hostOps2_writes (by decide) : W5 m ρ c (Proc.devRef .tc main_v1) = W4 m ρ c (Proc.devRef .tc main_v1)).trans (at_main_v1_4 m ρ c)
theorem at_main_v1_6 (c : Dev nD) : W6 m ρ c (Proc.devRef .tc main_v1) = edgeRow (m ((c : Thread nD τ).loc main_arg1)) :=
  (W6_of_ne m ρ c main_v1 (by decide) : W6 m ρ c (Proc.devRef .tc main_v1) = W5 m ρ c (Proc.devRef .tc main_v1)).trans (at_main_v1_5 m ρ c)
theorem at_main_v1_7 (c : Dev nD) : W7 m ρ c (Proc.devRef .tc main_v1) = edgeRow (m ((c : Thread nD τ).loc main_arg1)) :=
  (StableHlo.after_of_writes_sub hostOps3 _ hostOps3_writes (by decide) : W7 m ρ c (Proc.devRef .tc main_v1) = W6 m ρ c (Proc.devRef .tc main_v1)).trans (at_main_v1_6 m ρ c)
theorem at_main_v1_8 (c : Dev nD) : W8 m ρ c (Proc.devRef .tc main_v1) = edgeRow (m ((c : Thread nD τ).loc main_arg1)) :=
  (W8_of_ne m ρ c main_v1 (by decide) : W8 m ρ c (Proc.devRef .tc main_v1) = W7 m ρ c (Proc.devRef .tc main_v1)).trans (at_main_v1_7 m ρ c)
theorem at_main_v1_9 (c : Dev nD) : W9 m ρ c (Proc.devRef .tc main_v1) = edgeRow (m ((c : Thread nD τ).loc main_arg1)) :=
  (StableHlo.after_of_writes_sub hostOps4 _ hostOps4_writes (by decide) : W9 m ρ c (Proc.devRef .tc main_v1) = W8 m ρ c (Proc.devRef .tc main_v1)).trans (at_main_v1_8 m ρ c)
theorem at_main_v1_10 (c : Dev nD) : W10 m ρ c (Proc.devRef .tc main_v1) = edgeRow (m ((c : Thread nD τ).loc main_arg1)) :=
  (W10_of_ne m ρ c main_v1 (by decide) : W10 m ρ c (Proc.devRef .tc main_v1) = W9 m ρ c (Proc.devRef .tc main_v1)).trans (at_main_v1_9 m ρ c)
theorem at_main_v1_11 (c : Dev nD) : W11 m ρ c (Proc.devRef .tc main_v1) = edgeRow (m ((c : Thread nD τ).loc main_arg1)) :=
  (StableHlo.after_of_writes_sub hostOps5 _ hostOps5_writes (by decide) : W11 m ρ c (Proc.devRef .tc main_v1) = W10 m ρ c (Proc.devRef .tc main_v1)).trans (at_main_v1_10 m ρ c)
theorem at_main_v1_12 (c : Dev nD) : W12 m ρ c (Proc.devRef .tc main_v1) = edgeRow (m ((c : Thread nD τ).loc main_arg1)) :=
  (W12_of_ne m ρ c main_v1 (by decide) : W12 m ρ c (Proc.devRef .tc main_v1) = W11 m ρ c (Proc.devRef .tc main_v1)).trans (at_main_v1_11 m ρ c)

theorem at_main_v3_1 (c : Dev nD) : W1 m ρ c (Proc.devRef .tc main_v3) = edgeCol (m ((c : Thread nD τ).loc main_arg1)) := stretch0_v3 (W0 m ρ c)
theorem at_main_v3_2 (c : Dev nD) : W2 m ρ c (Proc.devRef .tc main_v3) = edgeCol (m ((c : Thread nD τ).loc main_arg1)) :=
  (W2_of_ne m ρ c main_v3 (by decide) : W2 m ρ c (Proc.devRef .tc main_v3) = W1 m ρ c (Proc.devRef .tc main_v3)).trans (at_main_v3_1 m ρ c)
theorem at_main_v3_3 (c : Dev nD) : W3 m ρ c (Proc.devRef .tc main_v3) = edgeCol (m ((c : Thread nD τ).loc main_arg1)) :=
  (StableHlo.after_of_writes_sub hostOps1 _ hostOps1_writes (by decide) : W3 m ρ c (Proc.devRef .tc main_v3) = W2 m ρ c (Proc.devRef .tc main_v3)).trans (at_main_v3_2 m ρ c)
theorem at_main_v3_4 (c : Dev nD) : W4 m ρ c (Proc.devRef .tc main_v3) = edgeCol (m ((c : Thread nD τ).loc main_arg1)) :=
  (W4_of_ne m ρ c main_v3 (by decide) : W4 m ρ c (Proc.devRef .tc main_v3) = W3 m ρ c (Proc.devRef .tc main_v3)).trans (at_main_v3_3 m ρ c)
theorem at_main_v3_5 (c : Dev nD) : W5 m ρ c (Proc.devRef .tc main_v3) = edgeCol (m ((c : Thread nD τ).loc main_arg1)) :=
  (StableHlo.after_of_writes_sub hostOps2 _ hostOps2_writes (by decide) : W5 m ρ c (Proc.devRef .tc main_v3) = W4 m ρ c (Proc.devRef .tc main_v3)).trans (at_main_v3_4 m ρ c)
theorem at_main_v3_6 (c : Dev nD) : W6 m ρ c (Proc.devRef .tc main_v3) = edgeCol (m ((c : Thread nD τ).loc main_arg1)) :=
  (W6_of_ne m ρ c main_v3 (by decide) : W6 m ρ c (Proc.devRef .tc main_v3) = W5 m ρ c (Proc.devRef .tc main_v3)).trans (at_main_v3_5 m ρ c)
theorem at_main_v3_7 (c : Dev nD) : W7 m ρ c (Proc.devRef .tc main_v3) = edgeCol (m ((c : Thread nD τ).loc main_arg1)) :=
  (StableHlo.after_of_writes_sub hostOps3 _ hostOps3_writes (by decide) : W7 m ρ c (Proc.devRef .tc main_v3) = W6 m ρ c (Proc.devRef .tc main_v3)).trans (at_main_v3_6 m ρ c)
theorem at_main_v3_8 (c : Dev nD) : W8 m ρ c (Proc.devRef .tc main_v3) = edgeCol (m ((c : Thread nD τ).loc main_arg1)) :=
  (W8_of_ne m ρ c main_v3 (by decide) : W8 m ρ c (Proc.devRef .tc main_v3) = W7 m ρ c (Proc.devRef .tc main_v3)).trans (at_main_v3_7 m ρ c)
theorem at_main_v3_9 (c : Dev nD) : W9 m ρ c (Proc.devRef .tc main_v3) = edgeCol (m ((c : Thread nD τ).loc main_arg1)) :=
  (StableHlo.after_of_writes_sub hostOps4 _ hostOps4_writes (by decide) : W9 m ρ c (Proc.devRef .tc main_v3) = W8 m ρ c (Proc.devRef .tc main_v3)).trans (at_main_v3_8 m ρ c)
theorem at_main_v3_10 (c : Dev nD) : W10 m ρ c (Proc.devRef .tc main_v3) = edgeCol (m ((c : Thread nD τ).loc main_arg1)) :=
  (W10_of_ne m ρ c main_v3 (by decide) : W10 m ρ c (Proc.devRef .tc main_v3) = W9 m ρ c (Proc.devRef .tc main_v3)).trans (at_main_v3_9 m ρ c)
theorem at_main_v3_11 (c : Dev nD) : W11 m ρ c (Proc.devRef .tc main_v3) = edgeCol (m ((c : Thread nD τ).loc main_arg1)) :=
  (StableHlo.after_of_writes_sub hostOps5 _ hostOps5_writes (by decide) : W11 m ρ c (Proc.devRef .tc main_v3) = W10 m ρ c (Proc.devRef .tc main_v3)).trans (at_main_v3_10 m ρ c)
theorem at_main_v3_12 (c : Dev nD) : W12 m ρ c (Proc.devRef .tc main_v3) = edgeCol (m ((c : Thread nD τ).loc main_arg1)) :=
  (W12_of_ne m ρ c main_v3 (by decide) : W12 m ρ c (Proc.devRef .tc main_v3) = W11 m ρ c (Proc.devRef .tc main_v3)).trans (at_main_v3_11 m ρ c)

/-- The first layer's output, once region 0 has left it, is never written again. -/
theorem at_main_v5_2 (c : Dev nD) : W2 m ρ c (Proc.devRef .tc main_v5) = W2 m ρ c (Proc.devRef .tc main_v5) := rfl
theorem at_main_v5_3 (c : Dev nD) : W3 m ρ c (Proc.devRef .tc main_v5) = W2 m ρ c (Proc.devRef .tc main_v5) :=
  (StableHlo.after_of_writes_sub hostOps1 _ hostOps1_writes (by decide) : W3 m ρ c (Proc.devRef .tc main_v5) = W2 m ρ c (Proc.devRef .tc main_v5)).trans (at_main_v5_2 m ρ c)
theorem at_main_v5_4 (c : Dev nD) : W4 m ρ c (Proc.devRef .tc main_v5) = W2 m ρ c (Proc.devRef .tc main_v5) :=
  (W4_of_ne m ρ c main_v5 (by decide) : W4 m ρ c (Proc.devRef .tc main_v5) = W3 m ρ c (Proc.devRef .tc main_v5)).trans (at_main_v5_3 m ρ c)
theorem at_main_v5_5 (c : Dev nD) : W5 m ρ c (Proc.devRef .tc main_v5) = W2 m ρ c (Proc.devRef .tc main_v5) :=
  (StableHlo.after_of_writes_sub hostOps2 _ hostOps2_writes (by decide) : W5 m ρ c (Proc.devRef .tc main_v5) = W4 m ρ c (Proc.devRef .tc main_v5)).trans (at_main_v5_4 m ρ c)
theorem at_main_v5_6 (c : Dev nD) : W6 m ρ c (Proc.devRef .tc main_v5) = W2 m ρ c (Proc.devRef .tc main_v5) :=
  ((W6_arr m ρ c 1).trans (((dat2 (V5 m ρ) c).arrAt_in 1 rfl _).trans (A_eq2 (V5 m ρ) c 1)) : W6 m ρ c (Proc.devRef .tc main_v5) = W5 m ρ c (Proc.devRef .tc main_v5)).trans (at_main_v5_5 m ρ c)
theorem at_main_v5_7 (c : Dev nD) : W7 m ρ c (Proc.devRef .tc main_v5) = W2 m ρ c (Proc.devRef .tc main_v5) :=
  (StableHlo.after_of_writes_sub hostOps3 _ hostOps3_writes (by decide) : W7 m ρ c (Proc.devRef .tc main_v5) = W6 m ρ c (Proc.devRef .tc main_v5)).trans (at_main_v5_6 m ρ c)
theorem at_main_v5_8 (c : Dev nD) : W8 m ρ c (Proc.devRef .tc main_v5) = W2 m ρ c (Proc.devRef .tc main_v5) :=
  ((W8_arr m ρ c 1).trans (((dat3 (V7 m ρ) c).arrAt_in 1 rfl _).trans (A_eq3 (V7 m ρ) c 1)) : W8 m ρ c (Proc.devRef .tc main_v5) = W7 m ρ c (Proc.devRef .tc main_v5)).trans (at_main_v5_7 m ρ c)
theorem at_main_v5_9 (c : Dev nD) : W9 m ρ c (Proc.devRef .tc main_v5) = W2 m ρ c (Proc.devRef .tc main_v5) :=
  (StableHlo.after_of_writes_sub hostOps4 _ hostOps4_writes (by decide) : W9 m ρ c (Proc.devRef .tc main_v5) = W8 m ρ c (Proc.devRef .tc main_v5)).trans (at_main_v5_8 m ρ c)
theorem at_main_v5_10 (c : Dev nD) : W10 m ρ c (Proc.devRef .tc main_v5) = W2 m ρ c (Proc.devRef .tc main_v5) :=
  ((W10_arr m ρ c 1).trans (((dat4 (V9 m ρ) c).arrAt_in 1 rfl _).trans (A_eq4 (V9 m ρ) c 1)) : W10 m ρ c (Proc.devRef .tc main_v5) = W9 m ρ c (Proc.devRef .tc main_v5)).trans (at_main_v5_9 m ρ c)
theorem at_main_v5_11 (c : Dev nD) : W11 m ρ c (Proc.devRef .tc main_v5) = W2 m ρ c (Proc.devRef .tc main_v5) :=
  (StableHlo.after_of_writes_sub hostOps5 _ hostOps5_writes (by decide) : W11 m ρ c (Proc.devRef .tc main_v5) = W10 m ρ c (Proc.devRef .tc main_v5)).trans (at_main_v5_10 m ρ c)
theorem at_main_v5_12 (c : Dev nD) : W12 m ρ c (Proc.devRef .tc main_v5) = W2 m ρ c (Proc.devRef .tc main_v5) :=
  ((W12_arr m ρ c 1).trans (((dat5 (V11 m ρ) c).arrAt_in 1 rfl _).trans (A_eq5 (V11 m ρ) c 1)) : W12 m ρ c (Proc.devRef .tc main_v5) = W11 m ρ c (Proc.devRef .tc main_v5)).trans (at_main_v5_11 m ρ c)
theorem at_main_v5_13 (c : Dev nD) : W13 m ρ c (Proc.devRef .tc main_v5) = W2 m ρ c (Proc.devRef .tc main_v5) :=
  (StableHlo.after_of_writes_sub hostOps6 _ hostOps6_writes (by decide) : W13 m ρ c (Proc.devRef .tc main_v5) = W12 m ρ c (Proc.devRef .tc main_v5)).trans (at_main_v5_12 m ρ c)

/-! ## Region 0's inputs -/

theorem in0_x (c : Dev nD) : V1 m ρ c main_arg0 = m ((c : Thread nD τ).loc main_arg0) :=
  StableHlo.after_of_writes_sub hostOps0 _ hostOps0_writes (by decide)
theorem in0_w (c : Dev nD) : V1 m ρ c main_arg3 = m ((c : Thread nD τ).loc main_arg3) :=
  StableHlo.after_of_writes_sub hostOps0 _ hostOps0_writes (by decide)
theorem in0_b (c : Dev nD) : Cert.KVal.rowOf (J := 128) (V1 m ρ c main_v4) = m ((c : Thread nD τ).loc main_arg4) :=
  (congrArg (Cert.KVal.rowOf (J := 128)) (stretch0_v4 (W0 m ρ c))).trans (rowOf_reshape _ shapeCasts_S128_S1x128)

/-! ## The combine regions' inputs -/

/-- Region 1: the aggregate of the previous layer's output, matrix 0 of the stacked weights, the first layer's output
    as region 0 left it, and the previous layer's output untouched by the stretch. -/
theorem in1_agg (c : Dev nD) : V3 m ρ c main_v18
    = aggK (m ((c : Thread nD τ).loc main_arg1)) (m ((c : Thread nD τ).loc main_arg2)) (V2 m ρ c main_v5) := by
  refine (stretch1_agg (W2 m ρ c)).trans ?_
  rw [at_main_arg2_2 m ρ c, at_main_v3_2 m ρ c, at_main_v1_2 m ρ c]
  rfl
theorem in1_w (c : Dev nD) : V3 m ρ c main_v20 = Cert.Spec.wslice 0 (m ((c : Thread nD τ).loc main_arg5)) :=
  (stretch1_w (W2 m ρ c)).trans (congrArg (Cert.Spec.wslice 0) (at_main_arg5_2 m ρ c))
theorem in1_x0 (c : Dev nD) : V3 m ρ c main_v5 = V2 m ρ c main_v5 := at_main_v5_3 m ρ c
theorem in1_x (c : Dev nD) : V3 m ρ c main_v5 = V2 m ρ c main_v5 :=
  StableHlo.after_of_writes_sub hostOps1 _ hostOps1_writes (by decide)

/-- Region 2: the aggregate of the previous layer's output, matrix 1 of the stacked weights, the first layer's output
    as region 0 left it, and the previous layer's output untouched by the stretch. -/
theorem in2_agg (c : Dev nD) : V5 m ρ c main_v34
    = aggK (m ((c : Thread nD τ).loc main_arg1)) (m ((c : Thread nD τ).loc main_arg2)) (V4 m ρ c main_v21) := by
  refine (stretch2_agg (W4 m ρ c)).trans ?_
  rw [at_main_arg2_4 m ρ c, at_main_v3_4 m ρ c, at_main_v1_4 m ρ c]
  rfl
theorem in2_w (c : Dev nD) : V5 m ρ c main_v36 = Cert.Spec.wslice 1 (m ((c : Thread nD τ).loc main_arg5)) :=
  (stretch2_w (W4 m ρ c)).trans (congrArg (Cert.Spec.wslice 1) (at_main_arg5_4 m ρ c))
theorem in2_x0 (c : Dev nD) : V5 m ρ c main_v5 = V2 m ρ c main_v5 := at_main_v5_5 m ρ c
theorem in2_x (c : Dev nD) : V5 m ρ c main_v21 = V4 m ρ c main_v21 :=
  StableHlo.after_of_writes_sub hostOps2 _ hostOps2_writes (by decide)

/-- Region 3: the aggregate of the previous layer's output, matrix 2 of the stacked weights, the first layer's output
    as region 0 left it, and the previous layer's output untouched by the stretch. -/
theorem in3_agg (c : Dev nD) : V7 m ρ c main_v50
    = aggK (m ((c : Thread nD τ).loc main_arg1)) (m ((c : Thread nD τ).loc main_arg2)) (V6 m ρ c main_v37) := by
  refine (stretch3_agg (W6 m ρ c)).trans ?_
  rw [at_main_arg2_6 m ρ c, at_main_v3_6 m ρ c, at_main_v1_6 m ρ c]
  rfl
theorem in3_w (c : Dev nD) : V7 m ρ c main_v52 = Cert.Spec.wslice 2 (m ((c : Thread nD τ).loc main_arg5)) :=
  (stretch3_w (W6 m ρ c)).trans (congrArg (Cert.Spec.wslice 2) (at_main_arg5_6 m ρ c))
theorem in3_x0 (c : Dev nD) : V7 m ρ c main_v5 = V2 m ρ c main_v5 := at_main_v5_7 m ρ c
theorem in3_x (c : Dev nD) : V7 m ρ c main_v37 = V6 m ρ c main_v37 :=
  StableHlo.after_of_writes_sub hostOps3 _ hostOps3_writes (by decide)

/-- Region 4: the aggregate of the previous layer's output, matrix 3 of the stacked weights, the first layer's output
    as region 0 left it, and the previous layer's output untouched by the stretch. -/
theorem in4_agg (c : Dev nD) : V9 m ρ c main_v66
    = aggK (m ((c : Thread nD τ).loc main_arg1)) (m ((c : Thread nD τ).loc main_arg2)) (V8 m ρ c main_v53) := by
  refine (stretch4_agg (W8 m ρ c)).trans ?_
  rw [at_main_arg2_8 m ρ c, at_main_v3_8 m ρ c, at_main_v1_8 m ρ c]
  rfl
theorem in4_w (c : Dev nD) : V9 m ρ c main_v68 = Cert.Spec.wslice 3 (m ((c : Thread nD τ).loc main_arg5)) :=
  (stretch4_w (W8 m ρ c)).trans (congrArg (Cert.Spec.wslice 3) (at_main_arg5_8 m ρ c))
theorem in4_x0 (c : Dev nD) : V9 m ρ c main_v5 = V2 m ρ c main_v5 := at_main_v5_9 m ρ c
theorem in4_x (c : Dev nD) : V9 m ρ c main_v53 = V8 m ρ c main_v53 :=
  StableHlo.after_of_writes_sub hostOps4 _ hostOps4_writes (by decide)

/-- Region 5: the aggregate of the previous layer's output, matrix 4 of the stacked weights, the first layer's output
    as region 0 left it, and the previous layer's output untouched by the stretch. -/
theorem in5_agg (c : Dev nD) : V11 m ρ c main_v82
    = aggK (m ((c : Thread nD τ).loc main_arg1)) (m ((c : Thread nD τ).loc main_arg2)) (V10 m ρ c main_v69) := by
  refine (stretch5_agg (W10 m ρ c)).trans ?_
  rw [at_main_arg2_10 m ρ c, at_main_v3_10 m ρ c, at_main_v1_10 m ρ c]
  rfl
theorem in5_w (c : Dev nD) : V11 m ρ c main_v84 = Cert.Spec.wslice 4 (m ((c : Thread nD τ).loc main_arg5)) :=
  (stretch5_w (W10 m ρ c)).trans (congrArg (Cert.Spec.wslice 4) (at_main_arg5_10 m ρ c))
theorem in5_x0 (c : Dev nD) : V11 m ρ c main_v5 = V2 m ρ c main_v5 := at_main_v5_11 m ρ c
theorem in5_x (c : Dev nD) : V11 m ρ c main_v69 = V10 m ρ c main_v69 :=
  StableHlo.after_of_writes_sub hostOps5 _ hostOps5_writes (by decide)

/-- Region 6: the aggregate of the previous layer's output, matrix 5 of the stacked weights, the first layer's output
    as region 0 left it, and the previous layer's output untouched by the stretch. -/
theorem in6_agg (c : Dev nD) : V13 m ρ c main_v98
    = aggK (m ((c : Thread nD τ).loc main_arg1)) (m ((c : Thread nD τ).loc main_arg2)) (V12 m ρ c main_v85) := by
  refine (stretch6_agg (W12 m ρ c)).trans ?_
  rw [at_main_arg2_12 m ρ c, at_main_v3_12 m ρ c, at_main_v1_12 m ρ c]
  rfl
theorem in6_w (c : Dev nD) : V13 m ρ c main_v100 = Cert.Spec.wslice 5 (m ((c : Thread nD τ).loc main_arg5)) :=
  (stretch6_w (W12 m ρ c)).trans (congrArg (Cert.Spec.wslice 5) (at_main_arg5_12 m ρ c))
theorem in6_x0 (c : Dev nD) : V13 m ρ c main_v5 = V2 m ρ c main_v5 := at_main_v5_13 m ρ c
theorem in6_x (c : Dev nD) : V13 m ρ c main_v85 = V12 m ρ c main_v85 :=
  StableHlo.after_of_writes_sub hostOps6 _ hostOps6_writes (by decide)

/-! ## Region 7's inputs -/

theorem in7_x (c : Dev nD) : V15 m ρ c main_v101 = V14 m ρ c main_v101 :=
  StableHlo.after_of_writes_sub hostOps7 _ hostOps7_writes (by decide)
theorem in7_w (c : Dev nD) : V15 m ρ c main_arg6 = m ((c : Thread nD τ).loc main_arg6) := at_main_arg6_15 m ρ c
theorem in7_b (c : Dev nD) : Cert.KVal.rowOf (J := 121) (V15 m ρ c main_v102) = m ((c : Thread nD τ).loc main_arg7) :=
  ((congrArg (Cert.KVal.rowOf (J := 121)) (stretch7_v102 (W14 m ρ c))).trans (rowOf_reshape _ shapeCasts_S121_S1x121)).trans
    (at_main_arg7_14 m ρ c)

end Cert.KHost

end
-- ==== Proof.KHostRef.lean ====
/-
  The kernel program's aggregate and the reference's are one function.

  Both programs compute the neighbourhood aggregate by the same host operations on the same operands; the only
  differences are which program's shape names and dimension records spell them, and those are equal. So the aggregate
  is carried as one unopened function on both sides.
-/
import proofs.«112903_j84559316124075_1_alg».proof.Proof.KHostOps
import proofs.«112903_j84559316124075_1_alg».proof.Proof.RefRead

noncomputable section

namespace Cert.KHost

open Cert.KernelIdeal Cert.KernelIdeal.Gen
open Idealize.ShloMosaic Idealize.ShloMosaic.TcCoe Idealize.ShloMosaic.ValueIdx Idealize.SL.Sem
open Idealize.ShloMosaic.StableHlo

/-! ## The reference's aggregate is the same function -/

/-- The reference's aggregate, in the reference program's own terms: the same operations on the same operands. -/
def aggR (e : (⟨Cert.ReferenceIdeal.S2x600000, .i32⟩ : BufTy).Contents (Elt Ideal)) (w : (⟨Cert.ReferenceIdeal.S600000, .f32⟩ : BufTy).Contents (Elt Ideal))
    (X : FVec Ideal Cert.ReferenceIdeal.S50000x128 .f32) : FVec Ideal Cert.ReferenceIdeal.S50000x128 .f32 :=
  Host.scatterAdd Cert.ReferenceIdeal.scatter_S50000x128_S600000x1_S600000x128_1_0_0_1 (Cert.ReferenceIdeal.ReadP.val_main_v19 (F := Ideal)) (Cert.ReferenceIdeal.ReadP.val_main_v20 e)
    (mulf (Cert.ReferenceIdeal.ReadP.val_main_v17 w) (Host.gather Cert.ReferenceIdeal.gather_S50000x128_S600000x1_S600000x128_1_0_n_n_0_1_1128 X (Cert.ReferenceIdeal.ReadP.val_main_v15 e)))

/-- The two programs' scatter and gather dimension numbers are the same records. -/
theorem scatter_eq : scatter_S50000x128_S600000x1_S600000x128_1_0_0_1 = Cert.ReferenceIdeal.scatter_S50000x128_S600000x1_S600000x128_1_0_0_1 := rfl
theorem gather_eq : gather_S50000x128_S600000x1_S600000x128_1_0_n_n_0_1_1128 = Cert.ReferenceIdeal.gather_S50000x128_S600000x1_S600000x128_1_0_n_n_0_1_1128 := rfl

set_option maxHeartbeats 400000 in
/-- The kernel program's aggregate and the reference's are one function: the two are the same composition of the same
    operations, over dimension records that are equal field by field. -/
theorem aggK_eq_aggR (e : (⟨S2x600000, .i32⟩ : BufTy).Contents (Elt Ideal)) (w : (⟨S600000, .f32⟩ : BufTy).Contents (Elt Ideal))
    (X : FVec Ideal S50000x128 .f32) : aggK e w X = aggR e w X := by
  unfold aggK aggRaw aggR edgeCol edgeRow
  unfold Cert.ReferenceIdeal.ReadP.val_main_v19 Cert.ReferenceIdeal.ReadP.val_main_cst Cert.ReferenceIdeal.ReadP.val_main_v20 Cert.ReferenceIdeal.ReadP.val_main_v1 Cert.ReferenceIdeal.ReadP.val_main_v0 Cert.ReferenceIdeal.ReadP.val_main_v17 Cert.ReferenceIdeal.ReadP.val_main_v9
    Cert.ReferenceIdeal.ReadP.val_main_v15 Cert.ReferenceIdeal.ReadP.val_main_v14 Cert.ReferenceIdeal.ReadP.val_main_v11 Cert.ReferenceIdeal.ReadP.val_main_v13 Cert.ReferenceIdeal.ReadP.val_main_v3 Cert.ReferenceIdeal.ReadP.val_main_v2 Cert.ReferenceIdeal.ReadP.val_main_v10
    Cert.ReferenceIdeal.ReadP.val_main_c Cert.ReferenceIdeal.ReadP.val_main_v12 Cert.ReferenceIdeal.ReadP.val_main_c_0
  rw [scatter_eq, gather_eq]

end Cert.KHost

end
-- ==== Proof.KOut.lean ====
/-
  The kernel program's result array is the specification's network of the arguments.

  Region by region: each region's output array is the specification's layer of the arrays the region found (the value
  theorems), and the arrays it found are the arguments, the layer's matrix, the first layer's output, the previous
  layer's output and the aggregate of the previous layer's output (the host side). Substituting upward from region 0
  gives each layer's output, and the last region's output is the whole network. The aggregate is carried as the one
  function both programs share, never opened.
-/
import proofs.«112903_j84559316124075_1_alg».proof.Proof.KVal
import proofs.«112903_j84559316124075_1_alg».proof.Proof.KHost
import proofs.«112903_j84559316124075_1_alg».proof.Proof.KHostRef
import proofs.«112903_j84559316124075_1_alg».proof.Proof.KernelIdeal.Run
import proofs.«112903_j84559316124075_1_alg».proof.Proof.Spec

noncomputable section

namespace Cert.KOut

open Cert.KernelIdeal Cert.KernelIdeal.Gen Cert.KernelIdeal.Fr Cert.KHost
open Idealize.ShloMosaic Idealize.ShloMosaic.TcCoe Idealize.ShloMosaic.ValueIdx Idealize.SL.Sem

variable (m : (ℓ : Loc nD τ sig) → Buf (Elt Ideal) ℓ) (ρ : Dev nD → PrngReg)

/-- The layers' outputs in the specification's terms, from the launch contents of the arguments: `X0` the first layer's,
    `X1` … `X6` the six combine layers'. -/
def X0 (c : Dev nD) : Cert.Spec.A2 50000 128 := Cert.Spec.first (m ((c : Thread nD τ).loc main_arg0)) (m ((c : Thread nD τ).loc main_arg3)) (m ((c : Thread nD τ).loc main_arg4))
def X1 (c : Dev nD) : Cert.Spec.A2 50000 128 :=
  Cert.Spec.layer (Cert.KHost.aggR (m ((c : Thread nD τ).loc main_arg1)) (m ((c : Thread nD τ).loc main_arg2))) (m ((c : Thread nD τ).loc main_arg5)) 0 (X0 m c) (X0 m c)
def X2 (c : Dev nD) : Cert.Spec.A2 50000 128 :=
  Cert.Spec.layer (Cert.KHost.aggR (m ((c : Thread nD τ).loc main_arg1)) (m ((c : Thread nD τ).loc main_arg2))) (m ((c : Thread nD τ).loc main_arg5)) 1 (X0 m c) (X1 m c)
def X3 (c : Dev nD) : Cert.Spec.A2 50000 128 :=
  Cert.Spec.layer (Cert.KHost.aggR (m ((c : Thread nD τ).loc main_arg1)) (m ((c : Thread nD τ).loc main_arg2))) (m ((c : Thread nD τ).loc main_arg5)) 2 (X0 m c) (X2 m c)
def X4 (c : Dev nD) : Cert.Spec.A2 50000 128 :=
  Cert.Spec.layer (Cert.KHost.aggR (m ((c : Thread nD τ).loc main_arg1)) (m ((c : Thread nD τ).loc main_arg2))) (m ((c : Thread nD τ).loc main_arg5)) 3 (X0 m c) (X3 m c)
def X5 (c : Dev nD) : Cert.Spec.A2 50000 128 :=
  Cert.Spec.layer (Cert.KHost.aggR (m ((c : Thread nD τ).loc main_arg1)) (m ((c : Thread nD τ).loc main_arg2))) (m ((c : Thread nD τ).loc main_arg5)) 4 (X0 m c) (X4 m c)
def X6 (c : Dev nD) : Cert.Spec.A2 50000 128 :=
  Cert.Spec.layer (Cert.KHost.aggR (m ((c : Thread nD τ).loc main_arg1)) (m ((c : Thread nD τ).loc main_arg2))) (m ((c : Thread nD τ).loc main_arg5)) 5 (X0 m c) (X5 m c)

/-! ## Each region's output array, in the specification's terms -/

/-- Region 0 leaves the first layer's output. -/
theorem x0_eq (c : Dev nD) : V2 m ρ c main_v5 = X0 m c := by
  refine (W2_arr m ρ c 3).trans ((Cert.KVal.final0 (V1 m ρ) c).trans ?_)
  show Cert.Spec.relu (Cert.Spec.lin (V1 m ρ c main_arg0) (V1 m ρ c main_arg3) (Cert.KVal.rowOf (J := 128) (V1 m ρ c main_v4))) = _
  rw [in0_x m ρ c, in0_w m ρ c, in0_b m ρ c]
  rfl

/-- Region 1 leaves layer 0's output. -/
theorem x1_eq (c : Dev nD) : V4 m ρ c main_v21 = X1 m c := by
  refine (W4_out m ρ c).trans ((Cert.KVal.final1 (V3 m ρ) c).trans ?_)
  show Cert.Spec.comb Cert.Spec.c1 Cert.Spec.c2 (Cert.Spec.ca 0) (Cert.Spec.cb 0) (V3 m ρ c main_v18) (V3 m ρ c main_v5)
    (V3 m ρ c main_v5) (V3 m ρ c main_v20) = _
  rw [in1_agg m ρ c, in1_x0 m ρ c, in1_w m ρ c, x0_eq m ρ c, aggK_eq_aggR]
  rfl

/-- Region 2 leaves layer 1's output. -/
theorem x2_eq (c : Dev nD) : V6 m ρ c main_v37 = X2 m c := by
  refine (W6_arr m ρ c 4).trans ((Cert.KVal.final2 (V5 m ρ) c).trans ?_)
  show Cert.Spec.comb Cert.Spec.c1 Cert.Spec.c2 (Cert.Spec.ca 1) (Cert.Spec.cb 1) (V5 m ρ c main_v34) (V5 m ρ c main_v5)
    (V5 m ρ c main_v21) (V5 m ρ c main_v36) = _
  rw [in2_agg m ρ c, in2_x0 m ρ c, in2_x m ρ c, in2_w m ρ c, x0_eq m ρ c, x1_eq m ρ c, aggK_eq_aggR]
  rfl

/-- Region 3 leaves layer 2's output. -/
theorem x3_eq (c : Dev nD) : V8 m ρ c main_v53 = X3 m c := by
  refine (W8_arr m ρ c 4).trans ((Cert.KVal.final3 (V7 m ρ) c).trans ?_)
  show Cert.Spec.comb Cert.Spec.c1 Cert.Spec.c2 (Cert.Spec.ca 2) (Cert.Spec.cb 2) (V7 m ρ c main_v50) (V7 m ρ c main_v5)
    (V7 m ρ c main_v37) (V7 m ρ c main_v52) = _
  rw [in3_agg m ρ c, in3_x0 m ρ c, in3_x m ρ c, in3_w m ρ c, x0_eq m ρ c, x2_eq m ρ c, aggK_eq_aggR]
  rfl

/-- Region 4 leaves layer 3's output. -/
theorem x4_eq (c : Dev nD) : V10 m ρ c main_v69 = X4 m c := by
  refine (W10_arr m ρ c 4).trans ((Cert.KVal.final4 (V9 m ρ) c).trans ?_)
  show Cert.Spec.comb Cert.Spec.c1 Cert.Spec.c2 (Cert.Spec.ca 3) (Cert.Spec.cb 3) (V9 m ρ c main_v66) (V9 m ρ c main_v5)
    (V9 m ρ c main_v53) (V9 m ρ c main_v68) = _
  rw [in4_agg m ρ c, in4_x0 m ρ c, in4_x m ρ c, in4_w m ρ c, x0_eq m ρ c, x3_eq m ρ c, aggK_eq_aggR]
  rfl

/-- Region 5 leaves layer 4's output. -/
theorem x5_eq (c : Dev nD) : V12 m ρ c main_v85 = X5 m c := by
  refine (W12_arr m ρ c 4).trans ((Cert.KVal.final5 (V11 m ρ) c).trans ?_)
  show Cert.Spec.comb Cert.Spec.c1 Cert.Spec.c2 (Cert.Spec.ca 4) (Cert.Spec.cb 4) (V11 m ρ c main_v82) (V11 m ρ c main_v5)
    (V11 m ρ c main_v69) (V11 m ρ c main_v84) = _
  rw [in5_agg m ρ c, in5_x0 m ρ c, in5_x m ρ c, in5_w m ρ c, x0_eq m ρ c, x4_eq m ρ c, aggK_eq_aggR]
  rfl

/-- Region 6 leaves layer 5's output. -/
theorem x6_eq (c : Dev nD) : V14 m ρ c main_v101 = X6 m c := by
  refine (W14_arr m ρ c 4).trans ((Cert.KVal.final6 (V13 m ρ) c).trans ?_)
  show Cert.Spec.comb Cert.Spec.c1 Cert.Spec.c2 (Cert.Spec.ca 5) (Cert.Spec.cb 5) (V13 m ρ c main_v98) (V13 m ρ c main_v5)
    (V13 m ρ c main_v85) (V13 m ρ c main_v100) = _
  rw [in6_agg m ρ c, in6_x0 m ρ c, in6_x m ρ c, in6_w m ρ c, x0_eq m ρ c, x5_eq m ρ c, aggK_eq_aggR]
  rfl

/-! ## The result -/

/-- THE KERNEL PROGRAM'S RESULT ARRAY, as region 7 leaves it, is the specification's network of the launch contents of
    the arguments, with the aggregate that both programs share. -/
theorem kernel_out (c : Dev nD) : (Cert.KernelIdeal.Fr.dat7 (Cert.KernelIdeal.Fr.V15 m ρ) c).arrAt 3 Cert.KernelIdeal.cfg7.N
    = Cert.Spec.out (Cert.KHost.aggR (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5))
        (m ((c : Thread nD τ).loc main_arg6)) (m ((c : Thread nD τ).loc main_arg7)) := by
  refine (Cert.KVal.final7 (V15 m ρ) c).trans ?_
  show Cert.Spec.lin (V15 m ρ c main_v101) (V15 m ρ c main_arg6) (Cert.KVal.rowOf (J := 121) (V15 m ρ c main_v102)) = _
  rw [in7_x m ρ c, in7_w m ρ c, in7_b m ρ c, x6_eq m ρ c]
  rfl

end Cert.KOut

end
-- ==== Proof.RefRun.lean ====
/-
  The reference's run, stage by stage.

  The reference's @main is a straight line of 237 host operations. Run from any contents of the buffers, it leaves each
  buffer at the fold of the operations' results. Here the line is cut into eight consecutive stretches — the input
  projection, the six layers, the output projection — and each stretch is read by itself: from any contents that hold
  the stages the stretch reads at their named values (the generated read module's `val_main_vN` of the arguments), it
  leaves the stretch's result at its named value and the buffers later stretches read as they were. Chaining the
  eight gives the result buffer at `val_main_v180` of the arguments, without ever writing the composed term of the
  whole line, in which every shared intermediate would be repeated.
-/
import proofs.«112903_j84559316124075_1_alg».proof.Proof.RefOps
import proofs.«112903_j84559316124075_1_alg».proof.Proof.RefRead

set_option maxRecDepth 8192

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The eight stretches of @main's operations: the input projection (11 operations), the six layers (37 each), the
    output projection (4). -/
abbrev seg0 : List (HloOp τ sig (Elt F)) := (ops (F := F)).take 11
abbrev seg1 : List (HloOp τ sig (Elt F)) := ((ops (F := F)).drop 11).take 37
abbrev seg2 : List (HloOp τ sig (Elt F)) := ((ops (F := F)).drop 48).take 37
abbrev seg3 : List (HloOp τ sig (Elt F)) := ((ops (F := F)).drop 85).take 37
abbrev seg4 : List (HloOp τ sig (Elt F)) := ((ops (F := F)).drop 122).take 37
abbrev seg5 : List (HloOp τ sig (Elt F)) := ((ops (F := F)).drop 159).take 37
abbrev seg6 : List (HloOp τ sig (Elt F)) := ((ops (F := F)).drop 196).take 37
abbrev seg7 : List (HloOp τ sig (Elt F)) := (ops (F := F)).drop 233

theorem ops_split : (ops (F := F)) = seg0 ++ (seg1 ++ (seg2 ++ (seg3 ++ (seg4 ++ (seg5 ++ (seg6 ++ seg7)))))) := rfl

variable (W : Valuation τ sig (Elt F))

/-! ## The input projection -/

theorem seg0_v8 : after seg0 W (Proc.devRef .tc main_v8) = val_main_v8 (F := F) (W (Proc.devRef .tc main_arg0)) (W (Proc.devRef .tc main_arg3)) (W (Proc.devRef .tc main_arg4)) := by
  simp only [seg0, ops, List.take_succ_cons, List.take_zero]
  after_results_simp
  rfl
theorem seg0_v1 : after seg0 W (Proc.devRef .tc main_v1) = val_main_v1 (F := F) (W (Proc.devRef .tc main_arg1)) := by
  simp only [seg0, ops, List.take_succ_cons, List.take_zero]
  after_results_simp
  rfl
theorem seg0_v3 : after seg0 W (Proc.devRef .tc main_v3) = val_main_v3 (F := F) (W (Proc.devRef .tc main_arg1)) := by
  simp only [seg0, ops, List.take_succ_cons, List.take_zero]
  after_results_simp
  rfl
theorem seg0_arg0 : after seg0 W (Proc.devRef .tc main_arg0) = W (Proc.devRef .tc main_arg0) := by
  simp only [seg0, ops, List.take_succ_cons, List.take_zero]
  after_results_simp
theorem seg0_arg1 : after seg0 W (Proc.devRef .tc main_arg1) = W (Proc.devRef .tc main_arg1) := by
  simp only [seg0, ops, List.take_succ_cons, List.take_zero]
  after_results_simp
theorem seg0_arg2 : after seg0 W (Proc.devRef .tc main_arg2) = W (Proc.devRef .tc main_arg2) := by
  simp only [seg0, ops, List.take_succ_cons, List.take_zero]
  after_results_simp
theorem seg0_arg3 : after seg0 W (Proc.devRef .tc main_arg3) = W (Proc.devRef .tc main_arg3) := by
  simp only [seg0, ops, List.take_succ_cons, List.take_zero]
  after_results_simp
theorem seg0_arg4 : after seg0 W (Proc.devRef .tc main_arg4) = W (Proc.devRef .tc main_arg4) := by
  simp only [seg0, ops, List.take_succ_cons, List.take_zero]
  after_results_simp
theorem seg0_arg5 : after seg0 W (Proc.devRef .tc main_arg5) = W (Proc.devRef .tc main_arg5) := by
  simp only [seg0, ops, List.take_succ_cons, List.take_zero]
  after_results_simp
theorem seg0_arg6 : after seg0 W (Proc.devRef .tc main_arg6) = W (Proc.devRef .tc main_arg6) := by
  simp only [seg0, ops, List.take_succ_cons, List.take_zero]
  after_results_simp
theorem seg0_arg7 : after seg0 W (Proc.devRef .tc main_arg7) = W (Proc.devRef .tc main_arg7) := by
  simp only [seg0, ops, List.take_succ_cons, List.take_zero]
  after_results_simp

/-! ## What every later stretch reads: the first layer's output, the edge lists, and four arguments -/

/-- The buffers the later stretches read hold their named values. -/
def Carry (W : Valuation τ sig (Elt F)) (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) : Prop :=
  W (Proc.devRef .tc main_v8) = val_main_v8 (F := F) x0 x3 x4 ∧ W (Proc.devRef .tc main_v1) = val_main_v1 (F := F) x1 ∧ W (Proc.devRef .tc main_v3) = val_main_v3 (F := F) x1
    ∧ W (Proc.devRef .tc main_arg2) = x2 ∧ W (Proc.devRef .tc main_arg5) = x5 ∧ W (Proc.devRef .tc main_arg6) = x6 ∧ W (Proc.devRef .tc main_arg7) = x7

theorem carry0 (V : Valuation τ sig (Elt F)) :
    Carry (after seg0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  ⟨seg0_v8 V, seg0_v1 V, seg0_v3 V, seg0_arg2 V, seg0_arg5 V, seg0_arg6 V, seg0_arg7 V⟩

/-! ## Layer 0 -/

/-- The layer's stretch writes none of the buffers later stretches read. -/
theorem seg1_keep : after seg1 W (Proc.devRef .tc main_v8) = W (Proc.devRef .tc main_v8) ∧ after seg1 W (Proc.devRef .tc main_v1) = W (Proc.devRef .tc main_v1) ∧ after seg1 W (Proc.devRef .tc main_v3) = W (Proc.devRef .tc main_v3)
    ∧ after seg1 W (Proc.devRef .tc main_arg2) = W (Proc.devRef .tc main_arg2) ∧ after seg1 W (Proc.devRef .tc main_arg5) = W (Proc.devRef .tc main_arg5) ∧ after seg1 W (Proc.devRef .tc main_arg6) = W (Proc.devRef .tc main_arg6) ∧ after seg1 W (Proc.devRef .tc main_arg7) = W (Proc.devRef .tc main_arg7) := by
  simp only [seg1, ops, List.drop_succ_cons, List.drop_zero, List.take_succ_cons, List.take_zero]
  refine ⟨?_, ?_, ?_, ?_, ?_, ?_, ?_⟩ <;> after_results_simp

theorem seg1_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg1 W) x0 x1 x2 x3 x4 x5 x6 x7 := by
  obtain ⟨k8, k1, k3, k2, k5, k6, k7⟩ := seg1_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg1_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) :
    after seg1 W (Proc.devRef .tc main_v36) = val_main_v36 (F := F) x0 x1 x2 x3 x4 x5 := by
  obtain ⟨h8, h1, h3, h2, h5, -, -⟩ := h
  simp only [seg1, ops, List.drop_succ_cons, List.drop_zero, List.take_succ_cons, List.take_zero]
  after_results_simp
  rw [h8, h1, h3, h2, h5]
  rfl

/-! ## Layer 1 -/

/-- The layer's stretch writes none of the buffers later stretches read. -/
theorem seg2_keep : after seg2 W (Proc.devRef .tc main_v8) = W (Proc.devRef .tc main_v8) ∧ after seg2 W (Proc.devRef .tc main_v1) = W (Proc.devRef .tc main_v1) ∧ after seg2 W (Proc.devRef .tc main_v3) = W (Proc.devRef .tc main_v3)
    ∧ after seg2 W (Proc.devRef .tc main_arg2) = W (Proc.devRef .tc main_arg2) ∧ after seg2 W (Proc.devRef .tc main_arg5) = W (Proc.devRef .tc main_arg5) ∧ after seg2 W (Proc.devRef .tc main_arg6) = W (Proc.devRef .tc main_arg6) ∧ after seg2 W (Proc.devRef .tc main_arg7) = W (Proc.devRef .tc main_arg7) := by
  simp only [seg2, ops, List.drop_succ_cons, List.drop_zero, List.take_succ_cons, List.take_zero]
  refine ⟨?_, ?_, ?_, ?_, ?_, ?_, ?_⟩ <;> after_results_simp

theorem seg2_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg2 W) x0 x1 x2 x3 x4 x5 x6 x7 := by
  obtain ⟨k8, k1, k3, k2, k5, k6, k7⟩ := seg2_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg2_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v36) = val_main_v36 (F := F) x0 x1 x2 x3 x4 x5) :
    after seg2 W (Proc.devRef .tc main_v64) = val_main_v64 (F := F) x0 x1 x2 x3 x4 x5 := by
  obtain ⟨h8, h1, h3, h2, h5, -, -⟩ := h
  simp only [seg2, ops, List.drop_succ_cons, List.drop_zero, List.take_succ_cons, List.take_zero]
  after_results_simp
  rw [h8, h1, h3, h2, h5, hp]
  rfl

/-! ## Layer 2 -/

/-- The layer's stretch writes none of the buffers later stretches read. -/
theorem seg3_keep : after seg3 W (Proc.devRef .tc main_v8) = W (Proc.devRef .tc main_v8) ∧ after seg3 W (Proc.devRef .tc main_v1) = W (Proc.devRef .tc main_v1) ∧ after seg3 W (Proc.devRef .tc main_v3) = W (Proc.devRef .tc main_v3)
    ∧ after seg3 W (Proc.devRef .tc main_arg2) = W (Proc.devRef .tc main_arg2) ∧ after seg3 W (Proc.devRef .tc main_arg5) = W (Proc.devRef .tc main_arg5) ∧ after seg3 W (Proc.devRef .tc main_arg6) = W (Proc.devRef .tc main_arg6) ∧ after seg3 W (Proc.devRef .tc main_arg7) = W (Proc.devRef .tc main_arg7) := by
  simp only [seg3, ops, List.drop_succ_cons, List.drop_zero, List.take_succ_cons, List.take_zero]
  refine ⟨?_, ?_, ?_, ?_, ?_, ?_, ?_⟩ <;> after_results_simp

theorem seg3_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg3 W) x0 x1 x2 x3 x4 x5 x6 x7 := by
  obtain ⟨k8, k1, k3, k2, k5, k6, k7⟩ := seg3_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg3_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v64) = val_main_v64 (F := F) x0 x1 x2 x3 x4 x5) :
    after seg3 W (Proc.devRef .tc main_v92) = val_main_v92 (F := F) x0 x1 x2 x3 x4 x5 := by
  obtain ⟨h8, h1, h3, h2, h5, -, -⟩ := h
  simp only [seg3, ops, List.drop_succ_cons, List.drop_zero, List.take_succ_cons, List.take_zero]
  after_results_simp
  rw [h8, h1, h3, h2, h5, hp]
  rfl

/-! ## Layer 3 -/

/-- The layer's stretch writes none of the buffers later stretches read. -/
theorem seg4_keep : after seg4 W (Proc.devRef .tc main_v8) = W (Proc.devRef .tc main_v8) ∧ after seg4 W (Proc.devRef .tc main_v1) = W (Proc.devRef .tc main_v1) ∧ after seg4 W (Proc.devRef .tc main_v3) = W (Proc.devRef .tc main_v3)
    ∧ after seg4 W (Proc.devRef .tc main_arg2) = W (Proc.devRef .tc main_arg2) ∧ after seg4 W (Proc.devRef .tc main_arg5) = W (Proc.devRef .tc main_arg5) ∧ after seg4 W (Proc.devRef .tc main_arg6) = W (Proc.devRef .tc main_arg6) ∧ after seg4 W (Proc.devRef .tc main_arg7) = W (Proc.devRef .tc main_arg7) := by
  simp only [seg4, ops, List.drop_succ_cons, List.drop_zero, List.take_succ_cons, List.take_zero]
  refine ⟨?_, ?_, ?_, ?_, ?_, ?_, ?_⟩ <;> after_results_simp

theorem seg4_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg4 W) x0 x1 x2 x3 x4 x5 x6 x7 := by
  obtain ⟨k8, k1, k3, k2, k5, k6, k7⟩ := seg4_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg4_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v92) = val_main_v92 (F := F) x0 x1 x2 x3 x4 x5) :
    after seg4 W (Proc.devRef .tc main_v120) = val_main_v120 (F := F) x0 x1 x2 x3 x4 x5 := by
  obtain ⟨h8, h1, h3, h2, h5, -, -⟩ := h
  simp only [seg4, ops, List.drop_succ_cons, List.drop_zero, List.take_succ_cons, List.take_zero]
  after_results_simp
  rw [h8, h1, h3, h2, h5, hp]
  rfl

/-! ## Layer 4 -/

/-- The layer's stretch writes none of the buffers later stretches read. -/
theorem seg5_keep : after seg5 W (Proc.devRef .tc main_v8) = W (Proc.devRef .tc main_v8) ∧ after seg5 W (Proc.devRef .tc main_v1) = W (Proc.devRef .tc main_v1) ∧ after seg5 W (Proc.devRef .tc main_v3) = W (Proc.devRef .tc main_v3)
    ∧ after seg5 W (Proc.devRef .tc main_arg2) = W (Proc.devRef .tc main_arg2) ∧ after seg5 W (Proc.devRef .tc main_arg5) = W (Proc.devRef .tc main_arg5) ∧ after seg5 W (Proc.devRef .tc main_arg6) = W (Proc.devRef .tc main_arg6) ∧ after seg5 W (Proc.devRef .tc main_arg7) = W (Proc.devRef .tc main_arg7) := by
  simp only [seg5, ops, List.drop_succ_cons, List.drop_zero, List.take_succ_cons, List.take_zero]
  refine ⟨?_, ?_, ?_, ?_, ?_, ?_, ?_⟩ <;> after_results_simp

theorem seg5_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg5 W) x0 x1 x2 x3 x4 x5 x6 x7 := by
  obtain ⟨k8, k1, k3, k2, k5, k6, k7⟩ := seg5_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg5_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v120) = val_main_v120 (F := F) x0 x1 x2 x3 x4 x5) :
    after seg5 W (Proc.devRef .tc main_v148) = val_main_v148 (F := F) x0 x1 x2 x3 x4 x5 := by
  obtain ⟨h8, h1, h3, h2, h5, -, -⟩ := h
  simp only [seg5, ops, List.drop_succ_cons, List.drop_zero, List.take_succ_cons, List.take_zero]
  after_results_simp
  rw [h8, h1, h3, h2, h5, hp]
  rfl

/-! ## Layer 5 -/

/-- The layer's stretch writes none of the buffers later stretches read. -/
theorem seg6_keep : after seg6 W (Proc.devRef .tc main_v8) = W (Proc.devRef .tc main_v8) ∧ after seg6 W (Proc.devRef .tc main_v1) = W (Proc.devRef .tc main_v1) ∧ after seg6 W (Proc.devRef .tc main_v3) = W (Proc.devRef .tc main_v3)
    ∧ after seg6 W (Proc.devRef .tc main_arg2) = W (Proc.devRef .tc main_arg2) ∧ after seg6 W (Proc.devRef .tc main_arg5) = W (Proc.devRef .tc main_arg5) ∧ after seg6 W (Proc.devRef .tc main_arg6) = W (Proc.devRef .tc main_arg6) ∧ after seg6 W (Proc.devRef .tc main_arg7) = W (Proc.devRef .tc main_arg7) := by
  simp only [seg6, ops, List.drop_succ_cons, List.drop_zero, List.take_succ_cons, List.take_zero]
  refine ⟨?_, ?_, ?_, ?_, ?_, ?_, ?_⟩ <;> after_results_simp

theorem seg6_carry (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) : Carry (after seg6 W) x0 x1 x2 x3 x4 x5 x6 x7 := by
  obtain ⟨k8, k1, k3, k2, k5, k6, k7⟩ := seg6_keep W
  exact ⟨k8.trans h.1, k1.trans h.2.1, k3.trans h.2.2.1, k2.trans h.2.2.2.1, k5.trans h.2.2.2.2.1, k6.trans h.2.2.2.2.2.1, k7.trans h.2.2.2.2.2.2⟩

set_option maxHeartbeats 2000000 in
/-- From contents holding what the layer reads at their named values, the layer's stretch leaves its result at its
    named value. -/
theorem seg6_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v148) = val_main_v148 (F := F) x0 x1 x2 x3 x4 x5) :
    after seg6 W (Proc.devRef .tc main_v176) = val_main_v176 (F := F) x0 x1 x2 x3 x4 x5 := by
  obtain ⟨h8, h1, h3, h2, h5, -, -⟩ := h
  simp only [seg6, ops, List.drop_succ_cons, List.drop_zero, List.take_succ_cons, List.take_zero]
  after_results_simp
  rw [h8, h1, h3, h2, h5, hp]
  rfl

/-! ## The output projection -/

theorem seg7_out (x0 : (⟨S50000x50, .f32⟩ : BufTy).Contents (Elt F)) (x1 : (⟨S2x600000, .i32⟩ : BufTy).Contents (Elt F)) (x2 : (⟨S600000, .f32⟩ : BufTy).Contents (Elt F)) (x3 : (⟨S50x128, .f32⟩ : BufTy).Contents (Elt F)) (x4 : (⟨S128, .f32⟩ : BufTy).Contents (Elt F)) (x5 : (⟨S6x128x128, .f32⟩ : BufTy).Contents (Elt F)) (x6 : (⟨S128x121, .f32⟩ : BufTy).Contents (Elt F)) (x7 : (⟨S121, .f32⟩ : BufTy).Contents (Elt F)) (h : Carry W x0 x1 x2 x3 x4 x5 x6 x7) (hp : W (Proc.devRef .tc main_v176) = val_main_v176 (F := F) x0 x1 x2 x3 x4 x5) :
    after seg7 W (Proc.devRef .tc main_v180) = val_main_v180 (F := F) x0 x1 x2 x3 x4 x5 x6 x7 := by
  obtain ⟨-, -, -, -, -, h6, h7⟩ := h
  simp only [seg7, ops, List.drop_succ_cons, List.drop_zero]
  after_results_simp
  rw [hp, h6, h7]
  rfl

/-! ## The whole line -/

/-- After the whole line the result buffer holds its named value of the arguments' contents. -/
theorem after_out (V : Valuation τ sig (Elt F)) :
    after ops V (Proc.devRef .tc main_v180) = val_main_v180 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append, after_append, after_append, after_append, after_append]
  have c0 := carry0 V
  have o1 := seg1_out _ _ _ _ _ _ _ _ _ c0
  have c1 := seg1_carry _ _ _ _ _ _ _ _ _ c0
  have o2 := seg2_out _ _ _ _ _ _ _ _ _ c1 o1
  have c2 := seg2_carry _ _ _ _ _ _ _ _ _ c1
  have o3 := seg3_out _ _ _ _ _ _ _ _ _ c2 o2
  have c3 := seg3_carry _ _ _ _ _ _ _ _ _ c2
  have o4 := seg4_out _ _ _ _ _ _ _ _ _ c3 o3
  have c4 := seg4_carry _ _ _ _ _ _ _ _ _ c3
  have o5 := seg5_out _ _ _ _ _ _ _ _ _ c4 o4
  have c5 := seg5_carry _ _ _ _ _ _ _ _ _ c4
  have o6 := seg6_out _ _ _ _ _ _ _ _ _ c5 o5
  have c6 := seg6_carry _ _ _ _ _ _ _ _ _ c5
  exact seg7_out _ _ _ _ _ _ _ _ _ c6 o6

/-- No operation of the line writes an argument. -/
theorem after_arg0 (V : Valuation τ sig (Elt F)) : after ops V (Proc.devRef .tc main_arg0) = V (Proc.devRef .tc main_arg0) := by
  unfold ops; after_results_simp
theorem after_arg1 (V : Valuation τ sig (Elt F)) : after ops V (Proc.devRef .tc main_arg1) = V (Proc.devRef .tc main_arg1) := by
  unfold ops; after_results_simp
theorem after_arg2 (V : Valuation τ sig (Elt F)) : after ops V (Proc.devRef .tc main_arg2) = V (Proc.devRef .tc main_arg2) := by
  unfold ops; after_results_simp
theorem after_arg3 (V : Valuation τ sig (Elt F)) : after ops V (Proc.devRef .tc main_arg3) = V (Proc.devRef .tc main_arg3) := by
  unfold ops; after_results_simp
theorem after_arg4 (V : Valuation τ sig (Elt F)) : after ops V (Proc.devRef .tc main_arg4) = V (Proc.devRef .tc main_arg4) := by
  unfold ops; after_results_simp
theorem after_arg5 (V : Valuation τ sig (Elt F)) : after ops V (Proc.devRef .tc main_arg5) = V (Proc.devRef .tc main_arg5) := by
  unfold ops; after_results_simp
theorem after_arg6 (V : Valuation τ sig (Elt F)) : after ops V (Proc.devRef .tc main_arg6) = V (Proc.devRef .tc main_arg6) := by
  unfold ops; after_results_simp
theorem after_arg7 (V : Valuation τ sig (Elt F)) : after ops V (Proc.devRef .tc main_arg7) = V (Proc.devRef .tc main_arg7) := by
  unfold ops; after_results_simp

/-- On every device, at any reading of the floats, from any memory with zero counters: every weakly fair execution of the
    reference's @main terminates with the result at its named value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = val_main_v180 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v180).trans (after_out _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_seq scopedRefs_eq scopedSems_eq defs main (fun _ => ops) main_eq (fun _ => ops_sub) m ρ)

end Cert.RefRun

end
-- ==== Proof.RefValue.lean ====
/-
  The reference program's result as the specification's network.

  The reference computes, stage by stage, a dense layer with a positive part, six graph layers and a last dense layer.
  Each graph layer's neighbourhood aggregate (a gather of rows, a product with the edge weights and a scatter-add into
  rows) reads its operands at indices that depend on the edge list, so it is kept as one function `aggR` of the layer's
  input; every other stage is read at an index and identified with the specification's formula entry by entry.
-/
import proofs.«112903_j84559316124075_1_alg».proof.Proof.RefRead
import proofs.«112903_j84559316124075_1_alg».proof.Proof.Spec

noncomputable section

open Idealize.ShloMosaic Idealize.ShloMosaic.ValueIdx Idealize.ShloMosaic.StableHlo
open Cert.ReferenceIdeal Cert.ReferenceIdeal.Gen Cert.ReferenceIdeal.ReadP
open scoped BigOperators

namespace Cert.RefValue

open Cert.Spec

/-! ## The neighbourhood aggregate -/

/-- The neighbourhood aggregate of `X` along the edge list `x1` with the edge weights `x2`: the rows of `X` at the
    edges' sources, each times its edge's weight, added into the rows at the edges' targets, starting from zero. -/
def aggR (x1 : (⟨S2x600000, .i32⟩ : BufTy).Contents (Elt Ideal)) (x2 : (⟨S600000, .f32⟩ : BufTy).Contents (Elt Ideal))
    (X : FVec Ideal S50000x128 .f32) : FVec Ideal S50000x128 .f32 :=
  Host.scatterAdd (F := Ideal) scatter_S50000x128_S600000x1_S600000x128_1_0_0_1 (val_main_v19 (F := Ideal))
    (val_main_v20 (F := Ideal) x1)
    (mulf (val_main_v17 (F := Ideal) x2)
      (Host.gather gather_S50000x128_S600000x1_S600000x128_1_0_n_n_0_1_1128 X (val_main_v15 (F := Ideal) x1)))

/- The reference's eight arguments: the node features, the edge list, the edge weights, the first layer's weights and
    bias, the stacked layer weights, the last layer's weights and bias. -/
variable (x0 : (⟨S50000x50, .f32⟩ : BufTy).Contents (Elt Ideal))
    (x1 : (⟨S2x600000, .i32⟩ : BufTy).Contents (Elt Ideal))
    (x2 : (⟨S600000, .f32⟩ : BufTy).Contents (Elt Ideal))
    (x3 : (⟨S50x128, .f32⟩ : BufTy).Contents (Elt Ideal))
    (x4 : (⟨S128, .f32⟩ : BufTy).Contents (Elt Ideal))
    (x5 : (⟨S6x128x128, .f32⟩ : BufTy).Contents (Elt Ideal))
    (x6 : (⟨S128x121, .f32⟩ : BufTy).Contents (Elt Ideal))
    (x7 : (⟨S121, .f32⟩ : BufTy).Contents (Elt Ideal))

/-- Layer 0's aggregate is `aggR` of the layer's input. -/
theorem agg0_eq : val_main_v21 (F := Ideal) x0 x1 x2 x3 x4 = aggR x1 x2 (val_main_v8 (F := Ideal) x0 x3 x4) := by
  unfold val_main_v21 val_main_v18 val_main_v16
  generalize val_main_v8 (F := Ideal) x0 x3 x4 = X
  rfl

/-- Layer 1's aggregate is `aggR` of the layer's input. -/
theorem agg1_eq : val_main_v49 (F := Ideal) x0 x1 x2 x3 x4 x5 = aggR x1 x2 (val_main_v36 (F := Ideal) x0 x1 x2 x3 x4 x5) := by
  unfold val_main_v49 val_main_v46 val_main_v44
  generalize val_main_v36 (F := Ideal) x0 x1 x2 x3 x4 x5 = X
  rfl

/-- Layer 2's aggregate is `aggR` of the layer's input. -/
theorem agg2_eq : val_main_v77 (F := Ideal) x0 x1 x2 x3 x4 x5 = aggR x1 x2 (val_main_v64 (F := Ideal) x0 x1 x2 x3 x4 x5) := by
  unfold val_main_v77 val_main_v74 val_main_v72
  generalize val_main_v64 (F := Ideal) x0 x1 x2 x3 x4 x5 = X
  rfl

/-- Layer 3's aggregate is `aggR` of the layer's input. -/
theorem agg3_eq : val_main_v105 (F := Ideal) x0 x1 x2 x3 x4 x5 = aggR x1 x2 (val_main_v92 (F := Ideal) x0 x1 x2 x3 x4 x5) := by
  unfold val_main_v105 val_main_v102 val_main_v100
  generalize val_main_v92 (F := Ideal) x0 x1 x2 x3 x4 x5 = X
  rfl

/-- Layer 4's aggregate is `aggR` of the layer's input. -/
theorem agg4_eq : val_main_v133 (F := Ideal) x0 x1 x2 x3 x4 x5 = aggR x1 x2 (val_main_v120 (F := Ideal) x0 x1 x2 x3 x4 x5) := by
  unfold val_main_v133 val_main_v130 val_main_v128
  generalize val_main_v120 (F := Ideal) x0 x1 x2 x3 x4 x5 = X
  rfl

/-- Layer 5's aggregate is `aggR` of the layer's input. -/
theorem agg5_eq : val_main_v161 (F := Ideal) x0 x1 x2 x3 x4 x5 = aggR x1 x2 (val_main_v148 (F := Ideal) x0 x1 x2 x3 x4 x5) := by
  unfold val_main_v161 val_main_v158 val_main_v156
  generalize val_main_v148 (F := Ideal) x0 x1 x2 x3 x4 x5 = X
  rfl

/-! ## The stages read at an entry -/

/-- The dense layer followed by the positive part, at one entry, with the operands read at any indices that have
    the right coordinates. -/
theorem first_point (x : A2 50000 50) (w : A2 50 128) (b : A1 128) (i : (⟨2, ![50000, 128]⟩ : Shape).Idx)
    (li : Fin 50 → (⟨2, ![50000, 50]⟩ : Shape).Idx) (ri : Fin 50 → (⟨2, ![50, 128]⟩ : Shape).Idx)
    (bi : (⟨1, ![128]⟩ : Shape).Idx)
    (hl : ∀ k, li k = ix2 (i 0) k) (hr : ∀ k, ri k = ix2 k (i 1)) (hb : bi = ix1 (i 1)) :
    max ((∑ k : Fin 50, x (li k) * w (ri k)) + b bi) 0 = first x w b i := by
  simp only [first, relu, lin, hl, hr, hb]
  rfl

/-- One layer's combine step at one entry. -/
theorem comb_point (k1 k2 k3 k4 : EReal) (a X0 X : A2 50000 128) (W : A2 128 128) (i : (⟨2, ![50000, 128]⟩ : Shape).Idx)
    (li : Fin 128 → (⟨2, ![50000, 128]⟩ : Shape).Idx) (ri : Fin 128 → (⟨2, ![128, 128]⟩ : Shape).Idx)
    (hl : ∀ k, li k = ix2 (i 0) k) (hr : ∀ k, ri k = ix2 k (i 1)) :
    max ((k3 * (k1 * a i + k2 * X0 i) + k4 * ∑ k : Fin 128, (k1 * a (li k) + k2 * X0 (li k)) * W (ri k)) + X i) 0
      = comb k1 k2 k3 k4 a X0 X W i := by
  simp only [comb, mix, hl, hr]
  rfl

/-- The last dense layer at one entry. -/
theorem out_point (x : A2 50000 128) (w : A2 128 121) (b : A1 121) (i : (⟨2, ![50000, 121]⟩ : Shape).Idx)
    (li : Fin 128 → (⟨2, ![50000, 128]⟩ : Shape).Idx) (ri : Fin 128 → (⟨2, ![128, 121]⟩ : Shape).Idx)
    (bi : (⟨1, ![121]⟩ : Shape).Idx)
    (hl : ∀ k, li k = ix2 (i 0) k) (hr : ∀ k, ri k = ix2 k (i 1)) (hb : bi = ix1 (i 1)) :
    (∑ k : Fin 128, x (li k) * w (ri k)) + b bi = lin x w b i := by
  simp only [lin, hl, hr, hb]
  rfl

/-! ## The first layer -/

/-- The first stage group is the specification's first layer. -/
theorem first_eq : val_main_v8 (F := Ideal) x0 x3 x4 = first x0 x3 x4 := by
  funext i
  rw [val_main_v8_apply, val_main_v7_apply, val_main_v4_apply, val_main_v6_apply, val_main_v5_apply, val_main_call0_v0_apply, val_main_call0_cst_apply]
  simp (config := { implicitDefEqProofs := false }) only [Ideal.addf_def, Ideal.maximumf_def, Ideal.ofBits_def, Ideal.ofBits_zero_f32]
  exact first_point x0 x3 x4 i (lidx_main_v4 i) (ridx_main_v4 i) _ (fun k => funext fun a => by match a with | ⟨0, _⟩ => rfl | ⟨1, _⟩ => rfl)
    (fun k => funext fun a => by match a with | ⟨0, _⟩ => rfl | ⟨1, _⟩ => rfl)
    (funext fun a => by match a with | ⟨0, _⟩ => rfl)

/-! ## The six graph layers -/

/-- Layer 0's matrix of the stacked weights. -/
theorem wslice0_eq : val_main_v30 (F := Ideal) x5 = wslice 0 x5 := by
  funext j
  rw [val_main_v30_apply, val_main_v29_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 0. -/
theorem layer0_eq :
    val_main_v36 (F := Ideal) x0 x1 x2 x3 x4 x5 = layer (aggR x1 x2) x5 0 (val_main_v8 (F := Ideal) x0 x3 x4) (val_main_v8 (F := Ideal) x0 x3 x4) := by
  funext i
  rw [val_main_v36_apply, val_main_v35_apply, val_main_v34_apply, val_main_v28_apply, val_main_v33_apply, val_main_v31_apply,
    val_main_v27_apply, val_main_cst_3_apply, val_main_v32_apply, val_main_cst_4_apply, val_main_call1_v0_apply, val_main_call1_cst_apply]
  simp (config := { implicitDefEqProofs := false }) only [val_main_v26_apply, val_main_v23_apply, val_main_v25_apply, val_main_v22_apply, val_main_cst_1_apply,
    val_main_v24_apply, val_main_cst_2_apply]
  rw [agg0_eq, wslice0_eq]
  generalize val_main_v8 (F := Ideal) x0 x3 x4 = X0
  simp (config := { implicitDefEqProofs := false }) only [Ideal.mulf_def, Ideal.addf_def, Ideal.maximumf_def, Ideal.ofBits_def, Ideal.ofBits_zero_f32]
  exact comb_point _ _ _ _ _ _ _ _ i (lidx_main_v31 i) (ridx_main_v31 i) (fun k => funext fun a => by match a with | ⟨0, _⟩ => rfl | ⟨1, _⟩ => rfl)
    (fun k => funext fun a => by match a with | ⟨0, _⟩ => rfl | ⟨1, _⟩ => rfl)

/-- Layer 1's matrix of the stacked weights. -/
theorem wslice1_eq : val_main_v58 (F := Ideal) x5 = wslice 1 x5 := by
  funext j
  rw [val_main_v58_apply, val_main_v57_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 1. -/
theorem layer1_eq :
    val_main_v64 (F := Ideal) x0 x1 x2 x3 x4 x5 = layer (aggR x1 x2) x5 1 (val_main_v8 (F := Ideal) x0 x3 x4) (val_main_v36 (F := Ideal) x0 x1 x2 x3 x4 x5) := by
  funext i
  rw [val_main_v64_apply, val_main_v63_apply, val_main_v62_apply, val_main_v56_apply, val_main_v61_apply, val_main_v59_apply,
    val_main_v55_apply, val_main_cst_10_apply, val_main_v60_apply, val_main_cst_11_apply, val_main_call2_v0_apply, val_main_call2_cst_apply]
  simp (config := { implicitDefEqProofs := false }) only [val_main_v54_apply, val_main_v51_apply, val_main_v53_apply, val_main_v50_apply, val_main_cst_8_apply,
    val_main_v52_apply, val_main_cst_9_apply]
  rw [agg1_eq, wslice1_eq]
  generalize val_main_v8 (F := Ideal) x0 x3 x4 = X0
  generalize val_main_v36 (F := Ideal) x0 x1 x2 x3 x4 x5 = X
  simp (config := { implicitDefEqProofs := false }) only [Ideal.mulf_def, Ideal.addf_def, Ideal.maximumf_def, Ideal.ofBits_def, Ideal.ofBits_zero_f32]
  exact comb_point _ _ _ _ _ _ _ _ i (lidx_main_v59 i) (ridx_main_v59 i) (fun k => funext fun a => by match a with | ⟨0, _⟩ => rfl | ⟨1, _⟩ => rfl)
    (fun k => funext fun a => by match a with | ⟨0, _⟩ => rfl | ⟨1, _⟩ => rfl)

/-- Layer 2's matrix of the stacked weights. -/
theorem wslice2_eq : val_main_v86 (F := Ideal) x5 = wslice 2 x5 := by
  funext j
  rw [val_main_v86_apply, val_main_v85_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 2. -/
theorem layer2_eq :
    val_main_v92 (F := Ideal) x0 x1 x2 x3 x4 x5 = layer (aggR x1 x2) x5 2 (val_main_v8 (F := Ideal) x0 x3 x4) (val_main_v64 (F := Ideal) x0 x1 x2 x3 x4 x5) := by
  funext i
  rw [val_main_v92_apply, val_main_v91_apply, val_main_v90_apply, val_main_v84_apply, val_main_v89_apply, val_main_v87_apply,
    val_main_v83_apply, val_main_cst_17_apply, val_main_v88_apply, val_main_cst_18_apply, val_main_call3_v0_apply, val_main_call3_cst_apply]
  simp (config := { implicitDefEqProofs := false }) only [val_main_v82_apply, val_main_v79_apply, val_main_v81_apply, val_main_v78_apply, val_main_cst_15_apply,
    val_main_v80_apply, val_main_cst_16_apply]
  rw [agg2_eq, wslice2_eq]
  generalize val_main_v8 (F := Ideal) x0 x3 x4 = X0
  generalize val_main_v64 (F := Ideal) x0 x1 x2 x3 x4 x5 = X
  simp (config := { implicitDefEqProofs := false }) only [Ideal.mulf_def, Ideal.addf_def, Ideal.maximumf_def, Ideal.ofBits_def, Ideal.ofBits_zero_f32]
  exact comb_point _ _ _ _ _ _ _ _ i (lidx_main_v87 i) (ridx_main_v87 i) (fun k => funext fun a => by match a with | ⟨0, _⟩ => rfl | ⟨1, _⟩ => rfl)
    (fun k => funext fun a => by match a with | ⟨0, _⟩ => rfl | ⟨1, _⟩ => rfl)

/-- Layer 3's matrix of the stacked weights. -/
theorem wslice3_eq : val_main_v114 (F := Ideal) x5 = wslice 3 x5 := by
  funext j
  rw [val_main_v114_apply, val_main_v113_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 3. -/
theorem layer3_eq :
    val_main_v120 (F := Ideal) x0 x1 x2 x3 x4 x5 = layer (aggR x1 x2) x5 3 (val_main_v8 (F := Ideal) x0 x3 x4) (val_main_v92 (F := Ideal) x0 x1 x2 x3 x4 x5) := by
  funext i
  rw [val_main_v120_apply, val_main_v119_apply, val_main_v118_apply, val_main_v112_apply, val_main_v117_apply, val_main_v115_apply,
    val_main_v111_apply, val_main_cst_24_apply, val_main_v116_apply, val_main_cst_25_apply, val_main_call4_v0_apply, val_main_call4_cst_apply]
  simp (config := { implicitDefEqProofs := false }) only [val_main_v110_apply, val_main_v107_apply, val_main_v109_apply, val_main_v106_apply, val_main_cst_22_apply,
    val_main_v108_apply, val_main_cst_23_apply]
  rw [agg3_eq, wslice3_eq]
  generalize val_main_v8 (F := Ideal) x0 x3 x4 = X0
  generalize val_main_v92 (F := Ideal) x0 x1 x2 x3 x4 x5 = X
  simp (config := { implicitDefEqProofs := false }) only [Ideal.mulf_def, Ideal.addf_def, Ideal.maximumf_def, Ideal.ofBits_def, Ideal.ofBits_zero_f32]
  exact comb_point _ _ _ _ _ _ _ _ i (lidx_main_v115 i) (ridx_main_v115 i) (fun k => funext fun a => by match a with | ⟨0, _⟩ => rfl | ⟨1, _⟩ => rfl)
    (fun k => funext fun a => by match a with | ⟨0, _⟩ => rfl | ⟨1, _⟩ => rfl)

/-- Layer 4's matrix of the stacked weights. -/
theorem wslice4_eq : val_main_v142 (F := Ideal) x5 = wslice 4 x5 := by
  funext j
  rw [val_main_v142_apply, val_main_v141_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 4. -/
theorem layer4_eq :
    val_main_v148 (F := Ideal) x0 x1 x2 x3 x4 x5 = layer (aggR x1 x2) x5 4 (val_main_v8 (F := Ideal) x0 x3 x4) (val_main_v120 (F := Ideal) x0 x1 x2 x3 x4 x5) := by
  funext i
  rw [val_main_v148_apply, val_main_v147_apply, val_main_v146_apply, val_main_v140_apply, val_main_v145_apply, val_main_v143_apply,
    val_main_v139_apply, val_main_cst_31_apply, val_main_v144_apply, val_main_cst_32_apply, val_main_call5_v0_apply, val_main_call5_cst_apply]
  simp (config := { implicitDefEqProofs := false }) only [val_main_v138_apply, val_main_v135_apply, val_main_v137_apply, val_main_v134_apply, val_main_cst_29_apply,
    val_main_v136_apply, val_main_cst_30_apply]
  rw [agg4_eq, wslice4_eq]
  generalize val_main_v8 (F := Ideal) x0 x3 x4 = X0
  generalize val_main_v120 (F := Ideal) x0 x1 x2 x3 x4 x5 = X
  simp (config := { implicitDefEqProofs := false }) only [Ideal.mulf_def, Ideal.addf_def, Ideal.maximumf_def, Ideal.ofBits_def, Ideal.ofBits_zero_f32]
  exact comb_point _ _ _ _ _ _ _ _ i (lidx_main_v143 i) (ridx_main_v143 i) (fun k => funext fun a => by match a with | ⟨0, _⟩ => rfl | ⟨1, _⟩ => rfl)
    (fun k => funext fun a => by match a with | ⟨0, _⟩ => rfl | ⟨1, _⟩ => rfl)

/-- Layer 5's matrix of the stacked weights. -/
theorem wslice5_eq : val_main_v170 (F := Ideal) x5 = wslice 5 x5 := by
  funext j
  rw [val_main_v170_apply, val_main_v169_apply]
  refine congrArg x5 (funext fun a => Fin.ext ?_)
  have h0 := idx2_lt0 j
  have h1 := idx2_lt1 j
  match a with
  | ⟨0, _⟩ => rfl
  | ⟨1, _⟩ => show ((j 0).val * 128 + (j 1).val) / 128 % 128 = (j 0).val; omega
  | ⟨2, _⟩ => show ((j 0).val * 128 + (j 1).val) % 128 = (j 1).val; omega

/-- Layer 5. -/
theorem layer5_eq :
    val_main_v176 (F := Ideal) x0 x1 x2 x3 x4 x5 = layer (aggR x1 x2) x5 5 (val_main_v8 (F := Ideal) x0 x3 x4) (val_main_v148 (F := Ideal) x0 x1 x2 x3 x4 x5) := by
  funext i
  rw [val_main_v176_apply, val_main_v175_apply, val_main_v174_apply, val_main_v168_apply, val_main_v173_apply, val_main_v171_apply,
    val_main_v167_apply, val_main_cst_38_apply, val_main_v172_apply, val_main_cst_39_apply, val_main_call6_v0_apply, val_main_call6_cst_apply]
  simp (config := { implicitDefEqProofs := false }) only [val_main_v166_apply, val_main_v163_apply, val_main_v165_apply, val_main_v162_apply, val_main_cst_36_apply,
    val_main_v164_apply, val_main_cst_37_apply]
  rw [agg5_eq, wslice5_eq]
  generalize val_main_v8 (F := Ideal) x0 x3 x4 = X0
  generalize val_main_v148 (F := Ideal) x0 x1 x2 x3 x4 x5 = X
  simp (config := { implicitDefEqProofs := false }) only [Ideal.mulf_def, Ideal.addf_def, Ideal.maximumf_def, Ideal.ofBits_def, Ideal.ofBits_zero_f32]
  exact comb_point _ _ _ _ _ _ _ _ i (lidx_main_v171 i) (ridx_main_v171 i) (fun k => funext fun a => by match a with | ⟨0, _⟩ => rfl | ⟨1, _⟩ => rfl)
    (fun k => funext fun a => by match a with | ⟨0, _⟩ => rfl | ⟨1, _⟩ => rfl)

/-! ## The last layer and the whole network -/

/-- The last stage group is the specification's dense layer. -/
theorem last_eq : val_main_v180 (F := Ideal) x0 x1 x2 x3 x4 x5 x6 x7 = lin (val_main_v176 (F := Ideal) x0 x1 x2 x3 x4 x5) x6 x7 := by
  funext i
  rw [val_main_v180_apply, val_main_v177_apply, val_main_v179_apply, val_main_v178_apply]
  generalize val_main_v176 (F := Ideal) x0 x1 x2 x3 x4 x5 = X
  simp (config := { implicitDefEqProofs := false }) only [Ideal.addf_def]
  exact out_point X x6 x7 i (lidx_main_v177 i) (ridx_main_v177 i) _ (fun k => funext fun a => by match a with | ⟨0, _⟩ => rfl | ⟨1, _⟩ => rfl)
    (fun k => funext fun a => by match a with | ⟨0, _⟩ => rfl | ⟨1, _⟩ => rfl)
    (funext fun a => by match a with | ⟨0, _⟩ => rfl)

/-- The reference's result is the specification's network with `aggR` as the aggregate. -/
theorem ref_out : val_main_v180 (F := Ideal) x0 x1 x2 x3 x4 x5 x6 x7 = out (aggR x1 x2) x0 x3 x4 x5 x6 x7 := by
  rw [last_eq, layer5_eq, layer4_eq, layer3_eq, layer2_eq, layer1_eq, layer0_eq, first_eq]
  rfl

end Cert.RefValue

end
-- ==== Proof.lean ====
/-
  The kernel is a graph network of six layers over 50000 nodes: an input projection with a positive part, six times a
  neighbourhood aggregate (a weighted gather of rows and a scatter-add, done on the host) followed by a combine step
  (a mix with the first layer's output, a 128 × 128 matrix product, a residual and a positive part), and an output
  projection. The kernel computes each dense step in a region of ten blocks of 5000 rows; the reference computes it as
  whole-array host operations.

  The three frames: the two kernel programs run as a chain of eight regions among host stretches, each region entered
  and left with every buffer held whole (Proof/Kernel/Run.lean, Proof/KernelIdeal/Run.lean — one text at any reading of
  the floats); the reference is a straight line of host operations (Proof/RefRun.lean). The idealization rewrote no
  operation. Over the extended reals both programs end at ONE function of the arguments (Proof/Spec.lean,
  `Cert.Spec.out`): block row r of a matrix product is row r of the whole product, a format change is the identity, and
  the aggregate is the same host operations on both sides, carried as one function and never opened. No law of
  arithmetic beyond reading each operation at an index is used, so the inputs' finiteness is not needed.
-/
import proofs.«112903_j84559316124075_1_alg».proof.Defs
import proofs.«112903_j84559316124075_1_alg».proof.Proof.Gen.Kernel
import proofs.«112903_j84559316124075_1_alg».proof.Proof.Gen.KernelIdeal
import proofs.«112903_j84559316124075_1_alg».proof.Proof.Gen.ReferenceIdeal
import proofs.«112903_j84559316124075_1_alg».proof.Proof.Gen.Pre_finite_inputs
import proofs.«112903_j84559316124075_1_alg».proof.Proof.Kernel.Run
import proofs.«112903_j84559316124075_1_alg».proof.Proof.KernelIdeal.Run
import proofs.«112903_j84559316124075_1_alg».proof.Proof.KOut
import proofs.«112903_j84559316124075_1_alg».proof.Proof.RefRun
import proofs.«112903_j84559316124075_1_alg».proof.Proof.RefValue

noncomputable section

namespace Cert.Proof

open Idealize.ShloMosaic Idealize.SL.Sem

/-- The aggregate as the two value modules spell it is one function: the same operations over the same stages. -/
theorem aggR_eq (e : (⟨Cert.ReferenceIdeal.S2x600000, .i32⟩ : BufTy).Contents (Elt Ideal)) (w : (⟨Cert.ReferenceIdeal.S600000, .f32⟩ : BufTy).Contents (Elt Ideal)) :
    Cert.RefValue.aggR e w = Cert.KHost.aggR e w := rfl

/-- The word-level kernel runs and leaves its arguments as launched. -/
theorem frame_p : Cert.frame_Kernel (hKernel := Cert.Kernel.Gen.facts) (hPre_finite_inputs := Cert.Pre_finite_inputs.Gen.facts) :=
  fun m ρ _ => Cert.Kernel.Fr.frame m ρ

/-- So does its idealization, by the same text read over the extended reals. -/
theorem frame_pi : Cert.frame_KernelIdeal (hKernelIdeal := Cert.KernelIdeal.Gen.facts) (hPre_finite_inputs := Cert.Pre_finite_inputs.Gen.facts) :=
  fun m ρ _ => Cert.KernelIdeal.Fr.frame m ρ

/-- The reference's run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- The idealization rewrote nothing. -/
theorem preserves : Cert.preserves_Kernel_KernelIdeal := trivial

/-- Both programs end at `Cert.Spec.out` of the arguments: the kernel's result array is what the last region's
    write-backs leave, which is that function (`Cert.KOut.kernel_out`); the reference's result is its last stage's named
    value, which is that function (`Cert.RefValue.ref_out`); the memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (Cert.KHost.aggR (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KOut.kernel_out m ρ c), (h c).2⟩)
      (Cert.KernelIdeal.Fr.run_out m ρ)
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.RefValue.ref_out _ _ _ _ _ _ _ _).trans (by rw [aggR_eq])

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
